-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x8192x4096 : Shape := ⟨3, ![2, 8192, 4096]⟩
abbrev S2x8192 : Shape := ⟨2, ![2, 8192]⟩
abbrev S131072x128 : Shape := ⟨2, ![131072, 128]⟩
abbrev S_ : Shape := ⟨0, ![]⟩

class Facts : Prop where
  bcast_S_S2x8192x4096 : S_.BroadcastsInDim S2x8192x4096 (![] : Fin 0 → Fin S2x8192x4096.rank)
  reducesTo_S2x8192x4096_S_d0_1_2 : S2x8192x4096.ReducesTo [0, 1, 2] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S2x8192 : S_.BroadcastsInDim S2x8192 (![] : Fin 0 → Fin S2x8192.rank)
  reducesTo_S2x8192_S_d0_1 : S2x8192.ReducesTo [0, 1] S_

variable [Facts]

def fn_part1 {F : FTy → Type} [FloatOps F] (main_arg1 : IVec S2x8192 32) (main_v13 : IVec S_ 1) (main_v15 : IVec S2x8192 1) (main_c_5 : IVec S_ 32) : IVec S_ 1 :=
  let main_v16 : IVec S2x8192 32 := broadcastInDim S2x8192 ![] bcast_S_S2x8192 main_c_5
  let main_v17 : IVec S2x8192 1 := cmpi .sle main_arg1 main_v16
  let main_v18 : IVec S2x8192 1 := andi main_v15 main_v17
  let main_c_6 : IVec S_ 1 := constantI S_ 1 1#1
  let main_v19 : IVec S_ 1 := (fun x v => Host.reduce IntOp.andi x v reducesTo_S2x8192_S_d0_1 h_S_) main_v18 main_c_6
  let main_v20 : IVec S_ 1 := andi main_v13 main_v19
  main_v20

def fn {F : FTy → Type} [FloatOps F] (main_arg0 : FVec F S2x8192x4096 .f32) (main_arg1 : IVec S2x8192 32) (main_arg2 : FVec F S131072x128 .f32) (main_arg3 : FVec F S131072x128 .f32) : IVec S_ 1 :=
  let main_v0 : FVec F S2x8192x4096 .f32 := Host.absf main_arg0
  let main_cst : FVec F S_ .f32 := constant S_ .f32 0x7F800000#32
  let main_v1 : FVec F S2x8192x4096 .f32 := broadcastInDim S2x8192x4096 ![] bcast_S_S2x8192x4096 main_cst
  let main_v2 : IVec S2x8192x4096 1 := cmpf .olt main_v0 main_v1
  let main_c : IVec S_ 1 := constantI S_ 1 1#1
  let main_v3 : IVec S_ 1 := (fun x v => Host.reduce IntOp.andi x v reducesTo_S2x8192x4096_S_d0_1_2 h_S_) main_v2 main_c
  let main_v4 : FVec F S131072x128 .f32 := Host.absf main_arg2
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg3
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_c_4 : IVec S_ 32 := constantI S_ 32 0#32
  let main_v14 : IVec S2x8192 32 := broadcastInDim S2x8192 ![] bcast_S_S2x8192 main_c_4
  let main_v15 : IVec S2x8192 1 := cmpi .sge main_arg1 main_v14
  let main_c_5 : IVec S_ 32 := constantI S_ 32 16383#32
  fn_part1 (F := F) main_arg1 main_v13 main_v15 main_c_5
-- ==== Kernel.lean ====
abbrev S2x8192x4096 : Shape := ⟨3, ![2, 8192, 4096]⟩
abbrev S2x8192 : Shape := ⟨2, ![2, 8192]⟩
abbrev S131072x128 : Shape := ⟨2, ![131072, 128]⟩
abbrev S2x8192x128 : Shape := ⟨3, ![2, 8192, 128]⟩
abbrev S512 : Shape := ⟨1, ![512]⟩
abbrev S3x128x128 : Shape := ⟨3, ![3, 128, 128]⟩
abbrev S4x128x128 : Shape := ⟨3, ![4, 128, 128]⟩
abbrev S_ : Shape := ⟨0, ![]⟩
abbrev S1x512 : Shape := ⟨2, ![1, 512]⟩
abbrev S1x128x128 : Shape := ⟨3, ![1, 128, 128]⟩
abbrev S128x128 : Shape := ⟨2, ![128, 128]⟩
abbrev S128 : Shape := ⟨1, ![128]⟩

abbrev nBuf : Table → Nat
  | .hbm => 6
  | .local .scVector .vmem => 3
  | _ => 0

abbrev bufTy : (tb : Table) → Fin (nBuf tb) → BufTy
  | .hbm, ⟨0, _⟩ => ⟨S2x8192x4096, .f32⟩
  | .hbm, ⟨1, _⟩ => ⟨S2x8192, .i32⟩
  | .hbm, ⟨2, _⟩ => ⟨S131072x128, .f32⟩
  | .hbm, ⟨3, _⟩ => ⟨S131072x128, .f32⟩
  | .hbm, ⟨4, _⟩ => ⟨S2x8192x128, .f32⟩
  | .hbm, ⟨5, _⟩ => ⟨S2x8192x128, .f32⟩
  | .local .scVector .vmem, ⟨0, _⟩ => ⟨S512, .i32⟩
  | .local .scVector .vmem, ⟨1, _⟩ => ⟨S3x128x128, .f32⟩
  | .local .scVector .vmem, ⟨2, _⟩ => ⟨S4x128x128, .f32⟩
  | _, _ => ⟨S2x8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg2_scv : Ref sig .scVector := ⟨.hbm, 2, rfl⟩
abbrev main_arg3_scv : Ref sig .scVector := ⟨.hbm, 3, rfl⟩
abbrev main_arg1_scv : Ref sig .scVector := ⟨.hbm, 1, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
def k0_off2 (i : grid0.Coords) (c0_i32_54 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v62 : BitVec 32 := Scalar.addi v29 c0_i32_54
  let c0_i32_58 : BitVec 32 := 0#32
  ![v18.toNat, v62.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x512_S512 : S1x512.Squeezes S512
  inb_S3x128x128_S1x128x128_0_0_0 : ∀ a, (![0, 0, 0] : Fin 3 → Nat) a + S1x128x128.size a ≤ S3x128x128.size a
  squeezes_S1x128x128_S128x128 : S1x128x128.Squeezes S128x128
  inb_S512_S128_0 : ∀ a, (![0] : Fin 1 → Nat) a + S128.size a ≤ S512.size a
  inb_S131072x128_S131072x128_0_0 : ∀ a, (![0, 0] : Fin 2 → Nat) a + S131072x128.size a ≤ S131072x128.size a
  gathers_S131072x128_S128x128 : S131072x128.Gathers 0 S128x128
  inb_S4x128x128_S1x128x128_0_0_0 : ∀ a, (![0, 0, 0] : Fin 3 → Nat) a + S1x128x128.size a ≤ S4x128x128.size a
  inb_S3x128x128_S1x128x128_1_0_0 : ∀ a, (![1, 0, 0] : Fin 3 → Nat) a + S1x128x128.size a ≤ S3x128x128.size a
  inb_S512_S128_128 : ∀ a, (![128] : Fin 1 → Nat) a + S128.size a ≤ S512.size a
  inb_S4x128x128_S1x128x128_1_0_0 : ∀ a, (![1, 0, 0] : Fin 3 → Nat) a + S1x128x128.size a ≤ S4x128x128.size a
  inb_S3x128x128_S1x128x128_2_0_0 : ∀ a, (![2, 0, 0] : Fin 3 → Nat) a + S1x128x128.size a ≤ S3x128x128.size a
  inb_S512_S128_256 : ∀ a, (![256] : Fin 1 → Nat) a + S128.size a ≤ S512.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S512_S128_384 : ∀ a, (![384] : Fin 1 → Nat) a + S128.size a ≤ S512.size a
  hcc0_scratch3 : 0 + S_.numel ≤ 15
  hcc0_scratch4 : 1 + S_.numel ≤ 15
  hcc0_scratch5 : 2 + S_.numel ≤ 15
  hcc0_scratch6 : 3 + S_.numel ≤ 15
  hcc0_scratch7 : 4 + S_.numel ≤ 15
  hcc0_scratch8 : 5 + S_.numel ≤ 15
  hcc0_scratch9 : 6 + S_.numel ≤ 15
  hcc0_scratch10 : 7 + S_.numel ≤ 15
  hcc0_scratch11 : 8 + S_.numel ≤ 15
  hcc0_scratch12 : 9 + S_.numel ≤ 15
  hcc0_scratch13 : 10 + S_.numel ≤ 15
  hcc0_scratch14 : 11 + S_.numel ≤ 15
  hcc0_scratch15 : 12 + S_.numel ≤ 15
  hcc0_scratch16 : 13 + S_.numel ≤ 15
  hcc0_scoped0 : 14 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x512.size a ≤ S2x8192.size a
  k0_off2_inb : ∀ i : grid0.Coords, ∀ (r : Fin 4), ∀ a, (k0_off2 i (BitVec.ofNat 32 (128 * r.val))) a + S1x128x128.size a ≤ S2x8192x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scratch15 : DmaSems sig S_ := SemArray.consecutive 12 S_ hcc0_scratch15
abbrev cc0_scratch16 : DmaSems sig S_ := SemArray.consecutive 13 S_ hcc0_scratch16
abbrev cc0_scoped0 : DmaSems sig S_ := SemArray.consecutive 14 S_ hcc0_scoped0

class Facts : Prop extends Facts₀ where

variable [Facts]
-- ==== ReferenceIdeal.lean ====
abbrev S2x8192x4096 : Shape := ⟨3, ![2, 8192, 4096]⟩
abbrev S2x8192 : Shape := ⟨2, ![2, 8192]⟩
abbrev S131072x128 : Shape := ⟨2, ![131072, 128]⟩
abbrev S_ : Shape := ⟨0, ![]⟩
abbrev S2x8192x1 : Shape := ⟨3, ![2, 8192, 1]⟩
abbrev S1 : Shape := ⟨1, ![1]⟩
abbrev S1x1x1 : Shape := ⟨3, ![1, 1, 1]⟩
abbrev S2x8192x128 : Shape := ⟨3, ![2, 8192, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192, .i32⟩
  | .hbm, ⟨2, _⟩ => ⟨S131072x128, .f32⟩
  | .hbm, ⟨3, _⟩ => ⟨S131072x128, .f32⟩
  | .hbm, ⟨4, _⟩ => ⟨S_, .i32⟩
  | .hbm, ⟨5, _⟩ => ⟨S2x8192, .i32⟩
  | .hbm, ⟨6, _⟩ => ⟨S2x8192, .i1⟩
  | .hbm, ⟨7, _⟩ => ⟨S_, .i32⟩
  | .hbm, ⟨8, _⟩ => ⟨S2x8192, .i32⟩
  | .hbm, ⟨9, _⟩ => ⟨S2x8192, .i32⟩
  | .hbm, ⟨10, _⟩ => ⟨S2x8192, .i32⟩
  | .hbm, ⟨11, _⟩ => ⟨S2x8192x1, .i32⟩
  | .hbm, ⟨12, _⟩ => ⟨S1, .i32⟩
  | .hbm, ⟨13, _⟩ => ⟨S_, .i32⟩
  | .hbm, ⟨14, _⟩ => ⟨S2x8192x1, .i32⟩
  | .hbm, ⟨15, _⟩ => ⟨S2x8192x1, .i1⟩
  | .hbm, ⟨16, _⟩ => ⟨S1x1x1, .i32⟩
  | .hbm, ⟨17, _⟩ => ⟨S2x8192x1, .i32⟩
  | .hbm, ⟨18, _⟩ => ⟨S2x8192x1, .i1⟩
  | .hbm, ⟨19, _⟩ => ⟨S2x8192x1, .i1⟩
  | .hbm, ⟨20, _⟩ => ⟨S_, .i1⟩
  | .hbm, ⟨21, _⟩ => ⟨S2x8192, .i1⟩
  | .hbm, ⟨22, _⟩ => ⟨S2x8192x128, .f32⟩
  | .hbm, ⟨23, _⟩ => ⟨S2x8192x128, .i1⟩
  | .hbm, ⟨24, _⟩ => ⟨S_, .f32⟩
  | .hbm, ⟨25, _⟩ => ⟨S2x8192x128, .f32⟩
  | .hbm, ⟨26, _⟩ => ⟨S2x8192x128, .f32⟩
  | .hbm, ⟨27, _⟩ => ⟨S_, .i32⟩
  | .hbm, ⟨28, _⟩ => ⟨S2x8192, .i32⟩
  | .hbm, ⟨29, _⟩ => ⟨S2x8192, .i1⟩
  | .hbm, ⟨30, _⟩ => ⟨S_, .i32⟩
  | .hbm, ⟨31, _⟩ => ⟨S2x8192, .i32⟩
  | .hbm, ⟨32, _⟩ => ⟨S2x8192, .i32⟩
  | .hbm, ⟨33, _⟩ => ⟨S2x8192, .i32⟩
  | .hbm, ⟨34, _⟩ => ⟨S2x8192x1, .i32⟩
  | .hbm, ⟨35, _⟩ => ⟨S1, .i32⟩
  | .hbm, ⟨36, _⟩ => ⟨S_, .i32⟩
  | .hbm, ⟨37, _⟩ => ⟨S2x8192x1, .i32⟩
  | .hbm, ⟨38, _⟩ => ⟨S2x8192x1, .i1⟩
  | .hbm, ⟨39, _⟩ => ⟨S1x1x1, .i32⟩
  | .hbm, ⟨40, _⟩ => ⟨S2x8192x1, .i32⟩
  | .hbm, ⟨41, _⟩ => ⟨S2x8192x1, .i1⟩
  | .hbm, ⟨42, _⟩ => ⟨S2x8192x1, .i1⟩
  | .hbm, ⟨43, _⟩ => ⟨S_, .i1⟩
  | .hbm, ⟨44, _⟩ => ⟨S2x8192, .i1⟩
  | .hbm, ⟨45, _⟩ => ⟨S2x8192x128, .f32⟩
  | .hbm, ⟨46, _⟩ => ⟨S2x8192x128, .i1⟩
  | .hbm, ⟨47, _⟩ => ⟨S_, .f32⟩
  | .hbm, ⟨48, _⟩ => ⟨S2x8192x128, .f32⟩
  | .hbm, ⟨49, _⟩ => ⟨S2x8192x128, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]

class Facts₀ : Prop where
  bcast_S_S2x8192 : S_.BroadcastsInDim S2x8192 (![] : Fin 0 → Fin S2x8192.rank)
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S1_S1x1x1_2 : S1.BroadcastsInDim S1x1x1 (![2] : Fin 1 → Fin S1x1x1.rank)
  bcast_S1x1x1_S2x8192x1_0_1_2 : S1x1x1.BroadcastsInDim S2x8192x1 (![0, 1, 2] : Fin 3 → Fin S2x8192x1.rank)
  reducesTo_S2x8192x1_S2x8192_d2 : S2x8192x1.ReducesTo [2] S2x8192
  h_S_ : 0 < S_.numel
  bcast_S2x8192_S2x8192x128_0_1 : S2x8192.BroadcastsInDim S2x8192x128 (![0, 1] : Fin 2 → Fin S2x8192x128.rank)
  bcast_S_S2x8192x128 : S_.BroadcastsInDim S2x8192x128 (![] : Fin 0 → Fin S2x8192x128.rank)
  gather_S131072x128_S2x8192x1_S2x8192x128_2_0_n_n_0_2_1128_wf : GatherDims.WF S131072x128 S2x8192x1 S2x8192x128 [2] [0] [] [0] [] 2 ![1, 128]

variable [Facts₀]

def gather_S131072x128_S2x8192x1_S2x8192x128_2_0_n_n_0_2_1128 : GatherDims S131072x128 S2x8192x1 S2x8192x128 where
  offsetDims := [2]
  collapsedSliceDims := [0]
  operandBatchingDims := []
  startIndicesBatchingDims := []
  startIndexMap := [0]
  indexVectorDim := 2
  sliceSizes := ![1, 128]
  wf := gather_S131072x128_S2x8192x1_S2x8192x128_2_0_n_n_0_2_1128_wf

class Facts : Prop extends Facts₀ where

variable [Facts]
-- ==== Proof.Spec.lean ====
/-
  The specification both programs are measured against: a row lookup. For a table `tbl` of 131072 rows of 128 numbers
  and a 2 × 8192 array `idx` of row numbers, `takeRows tbl idx` holds at `(b, p, l)` the entry `l` of row `idx[b, p]` of the
  table. The row numbers are machine words; under `IdxOK` (each word at most 16383, the range the inputs are drawn
  from) a word's value is below the number of rows, and the reduction modulo 131072 in the definition is the identity —
  it only makes the definition total.
  Beside it, the rectangles in which the lookup is carried out: worker `(c, i)` (core `c` of two, subcore `i` of
  sixteen; its number is `2 i + c`) owns positions `p` of batch row `(2 i + c) / 16` from `((2 i + c) % 16) · 512` on, 512
  of them (`idxBlk`), and produces the output rows at those positions in four chunks of 128 (`outBlk`).
-/
import Idealize.ShloMosaic.Lib.ValueIdx

namespace Cert.Spec

open Idealize.ShloMosaic

abbrev STab : Shape := ⟨2, ![131072, 128]⟩
abbrev SIdx : Shape := ⟨2, ![2, 8192]⟩
abbrev SOut : Shape := ⟨3, ![2, 8192, 128]⟩

/-- The table's index of row `r` (reduced modulo the number of rows), entry `l`. -/
def tabIx (r : Nat) (l : Fin 128) : STab.Idx := ValueIdx.ix2 (⟨r % 131072, Nat.mod_lt _ (by decide)⟩ : Fin 131072) l

/-- The index array's index of batch row `b`, position `p`. -/
def idxIx (b : Fin 2) (p : Fin 8192) : SIdx.Idx := ValueIdx.ix2 b p

/-- The row lookup: at `(b, p, l)`, entry `l` of the table's row `idx[b, p]`. -/
def takeRows {α : Type} (tbl : STab.Idx → α) (idx : SIdx.Idx → BitVec 32) : SOut.Idx → α :=
  fun j => tbl (tabIx (idx (idxIx (j 0) (j 1))).toNat (j 2))

/-- Every row number is at most 16383. -/
def IdxOK (idx : SIdx.Idx → BitVec 32) : Prop := ∀ j, (idx j).toNat ≤ 16383

/-- The number of worker `(c, i)`. -/
def wid (c : Fin 2) (i : Fin 16) : Nat := 2 * i.val + c.val

/-- The positions of the index array worker `(c, i)` reads. -/
def idxBlk (c : Fin 2) (i : Fin 16) : Finset SIdx.Idx :=
  Finset.univ.filter fun x => (x 0).val = wid c i / 16 ∧ wid c i % 16 * 512 ≤ (x 1).val ∧ (x 1).val < wid c i % 16 * 512 + 512

/-- Chunk `j` of the output rows worker `(c, i)` writes. -/
def outBlk (c : Fin 2) (i : Fin 16) (j : Fin 4) : Finset SOut.Idx :=
  Finset.univ.filter fun x => (x 0).val = wid c i / 16 ∧ wid c i % 16 * 512 + 128 * j.val ≤ (x 1).val
    ∧ (x 1).val < wid c i % 16 * 512 + 128 * j.val + 128

end Cert.Spec
-- ==== Proof.PreDecode.lean ====
/-
  The precondition, decoded. The input-domain test is the conjunction of three finiteness tests on the float
  arguments and of the test `0 ≤ idx[b, p] ≤ 16383` (signed) over every entry of the index array, all reduced by
  `and` to one bit. When that bit is 1 the last conjunct is 1, so every entry of its operand is 1, so every word of
  the index array lies between 0 and 16383 as a signed word; a 32-bit word that is nonnegative as a signed word is
  its own unsigned value, hence at most 16383. Nothing here depends on the float instance.
-/
import proofs.«218912_g8761733284177_cont_9to1c4b_297_17_alg».proof.Proof.Spec
import proofs.«218912_g8761733284177_cont_9to1c4b_297_17_alg».proof.Proof.Gen.Pre_input_domain
import Idealize.ShloMosaic.Lib.ReduceAll

namespace Cert.PreDecode

open Idealize.ShloMosaic

/-- The scalar shape has one index. -/
instance : Subsingleton Cert.Pre_input_domain.S_.Idx := ⟨fun _ _ => funext fun d => d.elim0⟩

/-- A 32-bit word between 0 and 16383 as a signed word has unsigned value at most 16383. -/
theorem toNat_le_of_signed_range (w : BitVec 32) (h0 : (0#32 : BitVec 32).toInt ≤ w.toInt)
    (h1 : w.toInt ≤ (16383#32 : BitVec 32).toInt) : w.toNat ≤ 16383 := by
  rw [show (0#32 : BitVec 32).toInt = 0 from by decide] at h0
  rw [show (16383#32 : BitVec 32).toInt = 16383 from by decide] at h1
  rw [BitVec.toInt_eq_toNat_cond] at h0 h1
  have := w.isLt
  split at h0 <;> omega

/-- The input-domain test passing gives every row number at most 16383. -/
theorem idxOK_of_pre {F : FTy → Type} [FloatOps F]
    (a0 : FVec F Cert.Pre_input_domain.S2x8192x4096 .f32) (a1 : IVec Cert.Pre_input_domain.S2x8192 32)
    (a2 a3 : FVec F Cert.Pre_input_domain.S131072x128 .f32)
    (h : Cert.Pre_input_domain.fn (F := F) a0 a1 a2 a3 = fun _ => 1#1) : Cert.Spec.IdxOK a1 := by
  have e := congrFun h ValueIdx.ix0
  dsimp only [Cert.Pre_input_domain.fn, Cert.Pre_input_domain.fn_part1] at e
  -- the last conjunct: the reduction by `and` of the elementwise range test
  have e2 := (IntOp.andi_eq_one.1 e).2
  intro j
  have e3 := Host.reduce_andi_all _ _ _ _ _ e2 j
  -- at `j`: both comparisons against the broadcast constants are 1
  obtain ⟨hge, hle⟩ := IntOp.andi_eq_one.1 e3
  exact toNat_le_of_signed_range _ (IntOp.cmpi_sge.1 hge) (IntOp.cmpi_sle.1 hle)

end Cert.PreDecode
-- ==== Proof.RefOps.lean ====
/-
  The reference program as a straight line. @main calls the row lookup @_take twice, first on the table of argument 2, then on
  the table of argument 3, both with the index array of argument 1; each call runs twenty-three host operations (the callee's
  own twenty-two and the one select of the function it calls), so @main is a line of forty-six operations, each writing a buffer
  of its own. Here: the list, that @main is the list run in order, and the side conditions the run of a straight line asks.
-/
import proofs.«218912_g8761733284177_cont_9to1c4b_297_17_alg».proof.Proof.Gen.ReferenceIdeal
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- @main's forty-six operations in order: the first call's twenty-three over its buffers, then the second call's. -/
abbrev ops : List (HloOp τ sig (Elt F)) :=
  [ TRef.nullary main_call0.c (constantI S_ 32 0#32),
    TRef.unary main_call0.c main_call0.v0 (broadcastInDim S2x8192 ![] bcast_S_S2x8192),
    TRef.binary (.of main_arg1) main_call0.v0 main_call0.v1 (cmpi .slt),
    TRef.nullary main_call0.c_0 (constantI S_ 32 131072#32),
    TRef.unary main_call0.c_0 main_call0.v2 (broadcastInDim S2x8192 ![] bcast_S_S2x8192),
    TRef.binary (.of main_arg1) main_call0.v2 main_call0.v3 addi,
    TRef.ternary main_call0.v1 main_call0.v3 (.of main_arg1) main_call0.call0.v0 select,
    TRef.unary main_call0.call0.v0 main_call0.v5 (broadcastInDim S2x8192x1 ![0, 1] bcast_S2x8192_S2x8192x1_0_1),
    TRef.nullary main_call0.c_1 (constantI S1 32 131071#32),
    TRef.nullary main_call0.c_2 (constantI S_ 32 0#32),
    TRef.unary main_call0.c_2 main_call0.v6 (broadcastInDim S2x8192x1 ![] bcast_S_S2x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2x8192x1 ![0, 1, 2] bcast_S1x1x1_S2x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2x8192x1_S2x8192_d2 h_S_),
    TRef.binary (.of main_arg2) main_call0.v5 main_call0.v13 (fun x i => Host.gather gather_S131072x128_S2x8192x1_S2x8192x128_2_0_n_n_0_2_1128 x i),
    TRef.unary main_call0.v12 main_call0.v14 (broadcastInDim S2x8192x128 ![0, 1] bcast_S2x8192_S2x8192x128_0_1),
    TRef.nullary main_call0.cst (constant S_ .f32 0x7FC00000#32),
    TRef.unary main_call0.cst main_call0.v15 (broadcastInDim S2x8192x128 ![] bcast_S_S2x8192x128),
    TRef.ternary main_call0.v14 main_call0.v13 main_call0.v15 main_call0.v16 select,
    TRef.nullary main_call1.c (constantI S_ 32 0#32),
    TRef.unary main_call1.c main_call1.v0 (broadcastInDim S2x8192 ![] bcast_S_S2x8192),
    TRef.binary (.of main_arg1) main_call1.v0 main_call1.v1 (cmpi .slt),
    TRef.nullary main_call1.c_0 (constantI S_ 32 131072#32),
    TRef.unary main_call1.c_0 main_call1.v2 (broadcastInDim S2x8192 ![] bcast_S_S2x8192),
    TRef.binary (.of main_arg1) main_call1.v2 main_call1.v3 addi,
    TRef.ternary main_call1.v1 main_call1.v3 (.of main_arg1) main_call1.call0.v0 select,
    TRef.unary main_call1.call0.v0 main_call1.v5 (broadcastInDim S2x8192x1 ![0, 1] bcast_S2x8192_S2x8192x1_0_1),
    TRef.nullary main_call1.c_1 (constantI S1 32 131071#32),
    TRef.nullary main_call1.c_2 (constantI S_ 32 0#32),
    TRef.unary main_call1.c_2 main_call1.v6 (broadcastInDim S2x8192x1 ![] bcast_S_S2x8192x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S2x8192x1 ![0, 1, 2] bcast_S1x1x1_S2x8192x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2x8192x1_S2x8192_d2 h_S_),
    TRef.binary (.of main_arg3) main_call1.v5 main_call1.v13 (fun x i => Host.gather gather_S131072x128_S2x8192x1_S2x8192x128_2_0_n_n_0_2_1128 x i),
    TRef.unary main_call1.v12 main_call1.v14 (broadcastInDim S2x8192x128 ![0, 1] bcast_S2x8192_S2x8192x128_0_1),
    TRef.nullary main_call1.cst (constant S_ .f32 0x7FC00000#32),
    TRef.unary main_call1.cst main_call1.v15 (broadcastInDim S2x8192x128 ![] bcast_S_S2x8192x128),
    TRef.ternary main_call1.v14 main_call1.v13 main_call1.v15 main_call1.v16 select ]

-- forty-six binds re-associated
set_option maxRecDepth 2048 in
/-- @main is that straight line: the two functions' bodies unfolded at their calls. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

end Cert.RefOps

end
-- ==== Proof.RefValue.lean ====
/-
  The value of one row lookup. The reference's @_take, applied to a table of 131072 rows of 128 entries and a 2 × 8192 array of
  row numbers (machine words), first replaces a negative row number w by w + 131072, then gathers the rows (the gather clamps a
  start index into the table), and last overwrites with a constant every row whose number is outside [0, 131071]. When every row
  number is at most 16383 no number is negative, so nothing is replaced; every number is inside the table, so nothing is clamped;
  and the range test holds everywhere, so nothing is overwritten: the result is the table's row at each row number. The lemma
  takes the function's twenty-three lines as twenty-three equations between named arrays, so that it can be used for any
  buffers that hold them.
-/
import proofs.«218912_g8761733284177_cont_9to1c4b_297_17_alg».proof.Proof.Gen.ReferenceIdeal
import proofs.«218912_g8761733284177_cont_9to1c4b_297_17_alg».proof.Proof.Spec
import Idealize.ShloMosaic.Lib.ValueIdx
import Idealize.ShloMosaic.Lib.ReduceAll

noncomputable section

namespace Cert.RefValue

open Cert.ReferenceIdeal Cert.ReferenceIdeal.Gen Idealize.ShloMosaic Idealize.ShloMosaic.ValueIdx Cert.Spec

/-! ## A gather of whole rows at a three-axis array of row numbers, read at an index -/

/-- The dimension numbers of a lookup of whole rows of a table `[N, C]` at row numbers `[R0, R1, 1]`, result `[R0, R1, C]`. -/
abbrev rowDims3 (N R0 R1 C : ℕ)
    (wf : GatherDims.WF ⟨2, ![N, C]⟩ ⟨3, ![R0, R1, 1]⟩ ⟨3, ![R0, R1, C]⟩ [2] [0] [] [0] [] 2 ![1, C]) :
    GatherDims ⟨2, ![N, C]⟩ ⟨3, ![R0, R1, 1]⟩ ⟨3, ![R0, R1, C]⟩ where
  offsetDims := [2]
  collapsedSliceDims := [0]
  operandBatchingDims := []
  startIndicesBatchingDims := []
  startIndexMap := [0]
  indexVectorDim := 2
  sliceSizes := ![1, C]
  wf := wf

/-- The lookup at `(b, p, k)`: entry `k` of the row named by the word `idx[b, p, 0]`, read signed and clamped into
    `[0, N - 1]`. -/
theorem gather_row3_apply {α : Type} {N R0 R1 C w : ℕ} (hN : 0 < N)
    (wf : GatherDims.WF ⟨2, ![N, C]⟩ ⟨3, ![R0, R1, 1]⟩ ⟨3, ![R0, R1, C]⟩ [2] [0] [] [0] [] 2 ![1, C])
    (x : (⟨2, ![N, C]⟩ : Shape).Idx → α) (idx : IVec ⟨3, ![R0, R1, 1]⟩ w) (b : Fin R0) (p : Fin R1) (k : Fin C) :
    Host.gather (rowDims3 N R0 R1 C wf) x idx (ix3 b p k)
      = x (ix2 (⟨min (idx (ix3 b p (0 : Fin 1))).toInt.toNat (N - 1), by omega⟩ : Fin N) k) := by
  unfold Host.gather
  congr 1
  funext a
  refine Fin.ext ?_
  show (rowDims3 N R0 R1 C wf).start (ix3 b p k) idx a + (rowDims3 N R0 R1 C wf).batchCoord (ix3 b p k) a
    + (rowDims3 N R0 R1 C wf).offCoord (ix3 b p k) a = _
  rw [GatherDims.batchCoord_eq_zero _ _ _ List.not_mem_nil, Nat.add_zero]
  match a with
  | ⟨0, _⟩ =>
    show (rowDims3 N R0 R1 C wf).start (ix3 b p k) idx (0 : Fin 2) + (rowDims3 N R0 R1 C wf).offCoord (ix3 b p k) (0 : Fin 2)
      = min (idx (ix3 b p (0 : Fin 1))).toInt.toNat (N - 1)
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims3 N R0 R1 C wf).startIndexMap from List.mem_singleton.mpr rfl)]
    have hsi : (rowDims3 N R0 R1 C wf).siIdx (ix3 b p k) ⟨List.idxOf (0 : Fin 2) (rowDims3 N R0 R1 C wf).startIndexMap,
        List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi]
    rfl
  | ⟨1, _⟩ =>
    have hs : (rowDims3 N R0 R1 C wf).start (ix3 b p k) idx (1 : Fin 2) = 0 := by
      unfold GatherDims.start
      rw [dif_neg (show (1 : Fin 2) ∉ (rowDims3 N R0 R1 C wf).startIndexMap from
        (show (1 : Fin 2) ∉ [(0 : Fin 2)] by decide))]
    have ho : (rowDims3 N R0 R1 C wf).offCoord (ix3 b p k) (1 : Fin 2) = k.val := by
      unfold GatherDims.offCoord
      rw [dif_pos (show (1 : Fin 2) ∈ (rowDims3 N R0 R1 C wf).sKept from
        (GatherDims.mem_sKept _ _).mpr ⟨(show (1 : Fin 2) ∉ [(0 : Fin 2)] by decide), List.not_mem_nil⟩)]
      rfl
    show (rowDims3 N R0 R1 C wf).start (ix3 b p k) idx (1 : Fin 2) + (rowDims3 N R0 R1 C wf).offCoord (ix3 b p k) (1 : Fin 2) = k.val
    rw [hs, ho, Nat.zero_add]

/-! ## Words and folds -/

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A word that is at most 16383 as a natural number is that number read signed. -/
theorem toInt_of_le {x : BitVec 32} (h : x.toNat ≤ 16383) : x.toInt = (x.toNat : ℤ) := by
  rw [BitVec.toInt_eq_toNat_cond]
  split
  · rfl
  · omega

/-! ## The lookup -/

/-- One call of the row lookup, line by line, under the hypothesis that every row number is at most 16383: its result is the
    table's row at each row number. -/
theorem take_value {α : Type} (tbl : STab.Idx → α) (idx : SIdx.Idx → BitVec 32) (hidx : IdxOK idx)
    (c : IVec S_ 32) (v0 : IVec S2x8192 32) (v1 : IVec S2x8192 1) (c_0 : IVec S_ 32) (v2 v3 v4 : IVec S2x8192 32)
    (v5 : IVec S2x8192x1 32) (c_1 : IVec S1 32) (c_2 : IVec S_ 32) (v6 : IVec S2x8192x1 32) (v7 : IVec S2x8192x1 1)
    (v8 : IVec S1x1x1 32) (v9 : IVec S2x8192x1 32) (v10 v11 : IVec S2x8192x1 1) (c_3 : IVec S_ 1) (v12 : IVec S2x8192 1)
    (v13 : S2x8192x128.Idx → α) (v14 : IVec S2x8192x128 1) (cst : S_.Idx → α) (v15 v16 : S2x8192x128.Idx → α)
    (e0 : c = constantI S_ 32 0#32)
    (e1 : v0 = broadcastInDim S2x8192 ![] bcast_S_S2x8192 c)
    (e2 : v1 = cmpi .slt idx v0)
    (e3 : c_0 = constantI S_ 32 131072#32)
    (e4 : v2 = broadcastInDim S2x8192 ![] bcast_S_S2x8192 c_0)
    (e5 : v3 = addi idx v2)
    (e6 : v4 = select v1 v3 idx)
    (e7 : v5 = broadcastInDim S2x8192x1 ![0, 1] bcast_S2x8192_S2x8192x1_0_1 v4)
    (e8 : c_1 = constantI S1 32 131071#32)
    (e9 : c_2 = constantI S_ 32 0#32)
    (e10 : v6 = broadcastInDim S2x8192x1 ![] bcast_S_S2x8192x1 c_2)
    (e11 : v7 = cmpi .sge v5 v6)
    (e12 : v8 = broadcastInDim S1x1x1 ![2] bcast_S1_S1x1x1_2 c_1)
    (e13 : v9 = broadcastInDim S2x8192x1 ![0, 1, 2] bcast_S1x1x1_S2x8192x1_0_1_2 v8)
    (e14 : v10 = cmpi .sle v5 v9)
    (e15 : v11 = andi v7 v10)
    (e16 : c_3 = constantI S_ 1 1#1)
    (e17 : v12 = Host.reduce IntOp.andi v11 c_3 reducesTo_S2x8192x1_S2x8192_d2 h_S_)
    (e18 : v13 = Host.gather gather_S131072x128_S2x8192x1_S2x8192x128_2_0_n_n_0_2_1128 tbl v5)
    (e19 : v14 = broadcastInDim S2x8192x128 ![0, 1] bcast_S2x8192_S2x8192x128_0_1 v12)
    (e21 : v15 = broadcastInDim S2x8192x128 ![] bcast_S_S2x8192x128 cst)
    (e22 : v16 = select v14 v13 v15) :
    v16 = takeRows tbl idx := by
  have hw : ∀ i, (idx i).toNat ≤ 16383 := hidx
  have hint : ∀ i, (idx i).toInt = ((idx i).toNat : ℤ) := fun i => toInt_of_le (hw i)
  -- no row number is negative: the wrap-around select keeps it
  have h4 : v4 = idx := by
    funext i
    have hv0 : v0 i = 0#32 := by rw [e1, e0]; rfl
    have h1 : v1 i = 0#1 := by
      rw [e2]
      show IntOp.cmpi .slt (idx i) (v0 i) = 0#1
      rw [hv0]
      refine eq_zero_of_ne_one ?_
      rw [IntOp.cmpi_slt, hint i, show (0#32 : BitVec 32).toInt = 0 from rfl]
      omega
    rw [e6, select_apply, h1, select_zero]
  -- the row numbers as a column: the same words
  have h5 : ∀ (b : Fin 2) (p : Fin 8192) (q : Fin 1), v5 (ix3 b p q) = idx (ix2 b p) := by
    intro b p q
    rw [e7, h4]
    unfold broadcastInDim
    refine congrArg idx (funext fun a => ?_)
    match a with
    | ⟨0, _⟩ => rfl
    | ⟨1, _⟩ => rfl
  -- every row number is inside [0, 131071]
  have h11 : ∀ j, v11 j = 1#1 := by
    intro j
    obtain ⟨b, p, q, rfl⟩ : ∃ b p q, j = ix3 b p q := ⟨j 0, j 1, j 2, eq_ix3 j⟩
    have hb := hw (ix2 b p)
    rw [e15]
    show IntOp.andi (v7 (ix3 b p q)) (v10 (ix3 b p q)) = 1#1
    rw [IntOp.andi_eq_one]
    constructor
    · have h6 : v6 (ix3 b p q) = 0#32 := by rw [e10, e9]; rfl
      rw [e11]
      show IntOp.cmpi .sge (v5 (ix3 b p q)) (v6 (ix3 b p q)) = 1#1
      rw [h5, h6, IntOp.cmpi_sge, hint, show (0#32 : BitVec 32).toInt = 0 from rfl]
      omega
    · have h9 : v9 (ix3 b p q) = 131071#32 := by rw [e13, e12, e8]; rfl
      rw [e14]
      show IntOp.cmpi .sle (v5 (ix3 b p q)) (v9 (ix3 b p q)) = 1#1
      rw [h5, h9, IntOp.cmpi_sle, hint, show (131071#32 : BitVec 32).toInt = 131071 from rfl]
      omega
  -- so the conjunction over the unit axis is 1 everywhere
  have h12 : ∀ i, v12 i = 1#1 := by
    intro i
    have hc3 : c_3 (Shape.Idx.first h_S_) = 1#1 := by rw [e16]; rfl
    rw [e17, Host.reduce_eq_foldl, hc3]
    exact foldl_andi_one v11 _ fun n _ => h11 n
  have h14 : ∀ j, v14 j = 1#1 := by
    intro j
    rw [e19]
    unfold broadcastInDim
    exact h12 _
  -- and the result is the gathered row, which is the table's row at the row number
  funext j
  obtain ⟨b, p, l, rfl⟩ : ∃ b p l, j = ix3 b p l := ⟨j 0, j 1, j 2, eq_ix3 j⟩
  rw [e22, select_apply, h14, select_one, e18]
  refine (gather_row3_apply (N := 131072) (R0 := 2) (R1 := 8192) (C := 128) (by decide)
    gather_S131072x128_S2x8192x1_S2x8192x128_2_0_n_n_0_2_1128_wf tbl v5 b p l).trans ?_
  show tbl _ = tbl (tabIx (idx (idxIx b p)).toNat l)
  unfold tabIx idxIx
  refine congrArg tbl ?_
  have hb := hw (ix2 b p)
  have hm : min (v5 (ix3 b p (0 : Fin 1))).toInt.toNat (131072 - 1) = (idx (ix2 b p)).toNat % 131072 := by
    rw [h5, hint, Int.toNat_natCast]
    omega
  exact congrArg (fun r : Fin 131072 => ix2 r l) (Fin.ext hm)

end Cert.RefValue

end
-- ==== Proof.LibAfter.lean ====
/-
  A straight line of host operations in single-assignment form, read locally. When operation `k` of the line writes
  exactly the buffer `Ws[k]`, a buffer that no later operation writes holds, after the whole line, what it held
  after the operations up to the last one that could write it: the result of operation `k` is read from the contents
  after the first `k` operations, and an operand no later operation writes is stable.
-/
import Idealize.ShloMosaic.Lib.StableHlo.Run

noncomputable section

namespace Cert.LibAfter

open Idealize.ShloMosaic Idealize.ShloMosaic.StableHlo

variable {τ : Topo} {sig : RefSig} {Val : EltTy → Type}

/-- Operation `k` writes exactly buffer `Ws[k]`. -/
def WritesList (ops : List (HloOp τ sig Val)) (Ws : List (Ref sig .tc)) : Prop :=
  List.Forall₂ (fun op r => op.writes = {Proc.devRef (τ := τ) .tc r}) ops Ws

theorem writesList_nil : WritesList ([] : List (HloOp τ sig Val)) [] := List.Forall₂.nil

theorem writesList_cons {op : HloOp τ sig Val} {r : Ref sig .tc} {ops : List (HloOp τ sig Val)} {Ws : List (Ref sig .tc)}
    (hw : op.writes = {Proc.devRef (τ := τ) .tc r}) (h : WritesList ops Ws) : WritesList (op :: ops) (r :: Ws) :=
  List.Forall₂.cons hw h

/-- Two lines one after the other are their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A reference outside the list of written references is written by no operation of the line. -/
theorem not_mem_writes {ops : List (HloOp τ sig Val)} {Ws : List (Ref sig .tc)} (h : WritesList ops Ws)
    {a : Ref sig .tc} (ha : a ∉ Ws) : ∀ op ∈ ops, Proc.devRef (τ := τ) .tc a ∉ op.writes := by
  unfold WritesList at h
  induction h with
  | nil => intro op hop; exact absurd hop List.not_mem_nil
  | cons hw _ ih =>
    intro op hop
    rcases List.mem_cons.1 hop with rfl | hop
    · rw [hw, Finset.mem_singleton]
      intro e
      exact ha (Proc.devRef_injective _ e ▸ List.mem_cons_self)
    · exact ih (fun hm => ha (List.mem_cons_of_mem _ hm)) op hop

/-- A buffer the line does not write keeps its contents. -/
theorem after_keep (ops : List (HloOp τ sig Val)) (Ws : List (Ref sig .tc)) (h : WritesList ops Ws)
    (V : Valuation τ sig Val) (a : Ref sig .tc) (ha : a ∉ Ws) :
    after ops V (Proc.devRef .tc a) = V (Proc.devRef .tc a) :=
  after_of_forall_not_mem ops V (not_mem_writes h ha)

/-- A buffer no operation from the `k`-th on writes holds after the first `k` operations what it holds after all. -/
theorem after_take (ops : List (HloOp τ sig Val)) (Ws : List (Ref sig .tc)) (h : WritesList ops Ws) (k : ℕ)
    (V : Valuation τ sig Val) (a : Ref sig .tc) (ha : a ∉ Ws.drop k) :
    after (ops.take k) V (Proc.devRef .tc a) = after ops V (Proc.devRef .tc a) := by
  have hd : WritesList (ops.drop k) (Ws.drop k) := List.forall₂_drop k h
  have e : ops.take k ++ ops.drop k = ops := List.take_append_drop k ops
  refine Eq.trans ?_ (congrArg (fun l => after l V (Proc.devRef .tc a)) e)
  show _ = after (ops.take k ++ ops.drop k) V (Proc.devRef .tc a)
  rw [after_append]
  exact (after_keep _ _ hd _ a ha).symm

/-- A buffer no operation after the `k`-th writes holds after the line what operation `k` leaves in it, run from the
    contents after the first `k` operations. -/
theorem after_local (ops : List (HloOp τ sig Val)) (Ws : List (Ref sig .tc)) (h : WritesList ops Ws) (k : ℕ)
    (hk : k < ops.length) (V : Valuation τ sig Val) (y : Ref sig .tc) (hy : y ∉ Ws.drop (k + 1)) :
    after ops V (Proc.devRef .tc y) = (ops[k]).result (after (ops.take k) V) (Proc.devRef .tc y) := by
  have hd : WritesList (ops.drop (k + 1)) (Ws.drop (k + 1)) := List.forall₂_drop (k + 1) h
  have e : ops = ops.take k ++ (ops[k] :: ops.drop (k + 1)) := by
    rw [← List.drop_eq_getElem_cons hk, List.take_append_drop]
  refine (congrArg (fun l => after l V (Proc.devRef .tc y)) e).trans ?_
  show after (ops.take k ++ (ops[k] :: ops.drop (k + 1))) V (Proc.devRef .tc y) = _
  rw [after_append, after_cons]
  exact after_keep _ _ hd _ y hy

end Cert.LibAfter

end
-- ==== Proof.LibAfterRead.lean ====
/-
  One operation of a single-assignment line read from the line's final contents: when operation k of the line is a
  given builder's operation, its result buffer holds, after the whole line, the operation's function of what its
  operand buffers hold after the whole line (the operands are written before k and never again, the result never after).
-/
import proofs.«218912_g8761733284177_cont_9to1c4b_297_17_alg».proof.Proof.LibAfter

noncomputable section

namespace Cert.LibAfter

open Idealize.ShloMosaic Idealize.ShloMosaic.StableHlo

variable {τ : Topo} {sig : RefSig} {Val : EltTy → Type}

theorem read_nullary (ops : List (HloOp τ sig Val)) (Ws : List (Ref sig .tc)) (h : WritesList ops Ws) (k : ℕ)
    (hk : k < ops.length) (V : Valuation τ sig Val) (y : Ref sig .tc) (v : y.ty.Contents Val) (hy)
    (hop : ops[k] = nullary y v hy) (hy' : y ∉ Ws.drop (k + 1)) :
    after ops V (Proc.devRef .tc y) = v := by
  rw [after_local ops Ws h k hk V y hy', hop]
  exact nullary_result y v hy _

theorem read_unary (ops : List (HloOp τ sig Val)) (Ws : List (Ref sig .tc)) (h : WritesList ops Ws) (k : ℕ)
    (hk : k < ops.length) (V : Valuation τ sig Val) (x y : Ref sig .tc) (f : x.ty.Contents Val → y.ty.Contents Val) (hx hy)
    (hop : ops[k] = unary x y f hx hy) (hy' : y ∉ Ws.drop (k + 1)) (hx' : x ∉ Ws.drop k) :
    after ops V (Proc.devRef .tc y) = f (after ops V (Proc.devRef .tc x)) := by
  rw [after_local ops Ws h k hk V y hy', hop]
  refine (unary_result x y f hx hy _).trans ?_
  exact congrArg f (after_take ops Ws h k V x hx')

theorem read_binary (ops : List (HloOp τ sig Val)) (Ws : List (Ref sig .tc)) (h : WritesList ops Ws) (k : ℕ)
    (hk : k < ops.length) (V : Valuation τ sig Val) (a b y : Ref sig .tc)
    (f : a.ty.Contents Val → b.ty.Contents Val → y.ty.Contents Val) (ha hb hy)
    (hop : ops[k] = binary a b y f ha hb hy) (hy' : y ∉ Ws.drop (k + 1)) (ha' : a ∉ Ws.drop k) (hb' : b ∉ Ws.drop k) :
    after ops V (Proc.devRef .tc y) = f (after ops V (Proc.devRef .tc a)) (after ops V (Proc.devRef .tc b)) := by
  rw [after_local ops Ws h k hk V y hy', hop]
  refine (binary_result a b y f ha hb hy _).trans ?_
  rw [show after (ops.take k) V (Proc.devRef .tc a) = _ from after_take ops Ws h k V a ha',
    show after (ops.take k) V (Proc.devRef .tc b) = _ from after_take ops Ws h k V b hb']

theorem read_ternary (ops : List (HloOp τ sig Val)) (Ws : List (Ref sig .tc)) (h : WritesList ops Ws) (k : ℕ)
    (hk : k < ops.length) (V : Valuation τ sig Val) (c a b y : Ref sig .tc)
    (f : c.ty.Contents Val → a.ty.Contents Val → b.ty.Contents Val → y.ty.Contents Val) (hc ha hb hy)
    (hop : ops[k] = ternary c a b y f hc ha hb hy) (hy' : y ∉ Ws.drop (k + 1)) (hc' : c ∉ Ws.drop k)
    (ha' : a ∉ Ws.drop k) (hb' : b ∉ Ws.drop k) :
    after ops V (Proc.devRef .tc y)
      = f (after ops V (Proc.devRef .tc c)) (after ops V (Proc.devRef .tc a)) (after ops V (Proc.devRef .tc b)) := by
  rw [after_local ops Ws h k hk V y hy', hop]
  refine (ternary_result c a b y f hc ha hb hy _).trans ?_
  rw [show after (ops.take k) V (Proc.devRef .tc c) = _ from after_take ops Ws h k V c hc',
    show after (ops.take k) V (Proc.devRef .tc a) = _ from after_take ops Ws h k V a ha',
    show after (ops.take k) V (Proc.devRef .tc b) = _ from after_take ops Ws h k V b hb']

theorem read_reshape (ops : List (HloOp τ sig Val)) (Ws : List (Ref sig .tc)) (h : WritesList ops Ws) (k : ℕ)
    (hk : k < ops.length) (V : Valuation τ sig Val) (x y : Ref sig .tc) (he : x.ty.elt = y.ty.elt)
    (hn : x.ty.shape.ShapeCasts y.ty.shape) (hx hy)
    (hop : ops[k] = reshape x y he hn hx hy) (hy' : y ∉ Ws.drop (k + 1)) (hx' : x ∉ Ws.drop k) :
    after ops V (Proc.devRef .tc y) = fun i => he ▸ shapeCast y.ty.shape (after ops V (Proc.devRef .tc x)) hn i := by
  rw [after_local ops Ws h k hk V y hy', hop]
  refine (reshape_result x y he hn hx hy _).trans ?_
  rw [show after (ops.take k) V (Proc.devRef .tc x) = _ from after_take ops Ws h k V x hx']

end Cert.LibAfter

end
-- ==== Proof.RefRun.lean ====
/-
  The reference program's run. @main is a straight line of forty-six host operations, so from any memory with zero counters every
  weakly fair execution terminates with each buffer at the line's fold over the launch contents. The line is in single-assignment
  form — operation k writes a buffer of its own that no other operation writes — so each operation's result buffer holds, after the
  whole line, the operation's function of what its operand buffers hold after the whole line, and the four arguments keep their
  launch contents. Reading the twenty-three lines of each call this way gives the hypotheses of the row lookup's value lemma: when
  every row number of argument 1 is at most 16383, the first result is the row lookup of argument 2's table and the second the row
  lookup of argument 3's table.
-/
import proofs.«218912_g8761733284177_cont_9to1c4b_297_17_alg».proof.Proof.RefOps
import proofs.«218912_g8761733284177_cont_9to1c4b_297_17_alg».proof.Proof.RefValue
import proofs.«218912_g8761733284177_cont_9to1c4b_297_17_alg».proof.Proof.LibAfterRead
import proofs.«218912_g8761733284177_cont_9to1c4b_297_17_alg».proof.Proof.Spec

noncomputable section

namespace Cert.RefRun

open Idealize.ShloMosaic Idealize.SL.Sem

section Line

open Cert.ReferenceIdeal Cert.ReferenceIdeal.Gen Cert.RefOps Cert.LibAfter Idealize.ShloMosaic.TcCoe Idealize.ShloMosaic.StableHlo

variable {F : FTy → Type} [FloatOps F]

/-- The buffer each of the forty-six operations writes, in order. -/
abbrev Ws : List (Ref sig .tc) :=
  [ main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1 ]

/-- Operation k of the line writes exactly buffer k of that list. -/
theorem hW : WritesList (ops : List (HloOp τ sig (Elt F))) Ws :=
  writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_nil))))))))))))))))))))))))))))))))))))))))))))))

/-- An index below forty-six is an index of the line. -/
theorem lt_len {k : ℕ} (h : k < 46) : k < (ops : List (HloOp τ sig (Elt F))).length := h

-- the reduction and the gather stay folded while an operation of the line is compared with its builder: nothing here looks inside them
attribute [local irreducible] Host.reduce Host.gather in
/-- The first call's result after the line: the row lookup of the table of argument 2 at the row numbers of
    argument 1, which the line leaves as they were. Each line of the call is read from the final contents. -/
theorem value0 (V : Valuation τ sig (Elt F)) (h : Cert.Spec.IdxOK (V (Proc.devRef .tc main_arg1))) :
    after ops V (Proc.devRef .tc main_v0)
      = Cert.Spec.takeRows (V (Proc.devRef .tc main_arg2)) (V (Proc.devRef .tc main_arg1)) := by
  have k1 : after ops V (Proc.devRef .tc main_arg1) = V (Proc.devRef .tc main_arg1) := after_keep ops Ws hW V main_arg1 (by decide)
  have kT : after ops V (Proc.devRef .tc main_arg2) = V (Proc.devRef .tc main_arg2) := after_keep ops Ws hW V main_arg2 (by decide)
  have h' : Cert.Spec.IdxOK (after ops V (Proc.devRef .tc main_arg1)) := k1.symm ▸ h
  have e := Cert.RefValue.take_value (after ops V (Proc.devRef .tc main_arg2)) (after ops V (Proc.devRef .tc main_arg1)) h'
      (after ops V (Proc.devRef .tc main_call0_c))
      (after ops V (Proc.devRef .tc main_call0_v0))
      (after ops V (Proc.devRef .tc main_call0_v1))
      (after ops V (Proc.devRef .tc main_call0_c_0))
      (after ops V (Proc.devRef .tc main_call0_v2))
      (after ops V (Proc.devRef .tc main_call0_v3))
      (after ops V (Proc.devRef .tc main_call0_v4))
      (after ops V (Proc.devRef .tc main_call0_v5))
      (after ops V (Proc.devRef .tc main_call0_c_1))
      (after ops V (Proc.devRef .tc main_call0_c_2))
      (after ops V (Proc.devRef .tc main_call0_v6))
      (after ops V (Proc.devRef .tc main_call0_v7))
      (after ops V (Proc.devRef .tc main_call0_v8))
      (after ops V (Proc.devRef .tc main_call0_v9))
      (after ops V (Proc.devRef .tc main_call0_v10))
      (after ops V (Proc.devRef .tc main_call0_v11))
      (after ops V (Proc.devRef .tc main_call0_c_3))
      (after ops V (Proc.devRef .tc main_call0_v12))
      (after ops V (Proc.devRef .tc main_call0_v13))
      (after ops V (Proc.devRef .tc main_call0_v14))
      (after ops V (Proc.devRef .tc main_call0_cst))
      (after ops V (Proc.devRef .tc main_call0_v15))
      (after ops V (Proc.devRef .tc main_v0))
      (read_nullary ops Ws hW 0 (lt_len (by decide)) V main_call0_c _ ⟨by decide, rfl⟩ rfl (by decide))
      (read_unary ops Ws hW 1 (lt_len (by decide)) V main_call0_c main_call0_v0 _ ⟨by decide, rfl⟩ ⟨by decide, rfl⟩ rfl (by decide) (by decide))
      (read_binary ops Ws hW 2 (lt_len (by decide)) V main_arg1 main_call0_v0 main_call0_v1 _ ⟨by decide, rfl⟩ ⟨by decide, rfl⟩ ⟨by decide, rfl⟩ rfl (by decide) (by decide) (by decide))
      (read_nullary ops Ws hW 3 (lt_len (by decide)) V main_call0_c_0 _ ⟨by decide, rfl⟩ rfl (by decide))
      (read_unary ops Ws hW 4 (lt_len (by decide)) V main_call0_c_0 main_call0_v2 _ ⟨by decide, rfl⟩ ⟨by decide, rfl⟩ rfl (by decide) (by decide))
      (read_binary ops Ws hW 5 (lt_len (by decide)) V main_arg1 main_call0_v2 main_call0_v3 _ ⟨by decide, rfl⟩ ⟨by decide, rfl⟩ ⟨by decide, rfl⟩ rfl (by decide) (by decide) (by decide))
      (read_ternary ops Ws hW 6 (lt_len (by decide)) V main_call0_v1 main_call0_v3 main_arg1 main_call0_v4 _ ⟨by decide, rfl⟩ ⟨by decide, rfl⟩ ⟨by decide, rfl⟩ ⟨by decide, rfl⟩ rfl (by decide) (by decide) (by decide) (by decide))
      (read_unary ops Ws hW 7 (lt_len (by decide)) V main_call0_v4 main_call0_v5 _ ⟨by decide, rfl⟩ ⟨by decide, rfl⟩ rfl (by decide) (by decide))
      (read_nullary ops Ws hW 8 (lt_len (by decide)) V main_call0_c_1 _ ⟨by decide, rfl⟩ rfl (by decide))
      (read_nullary ops Ws hW 9 (lt_len (by decide)) V main_call0_c_2 _ ⟨by decide, rfl⟩ rfl (by decide))
      (read_unary ops Ws hW 10 (lt_len (by decide)) V main_call0_c_2 main_call0_v6 _ ⟨by decide, rfl⟩ ⟨by decide, rfl⟩ rfl (by decide) (by decide))
      (read_binary ops Ws hW 11 (lt_len (by decide)) V main_call0_v5 main_call0_v6 main_call0_v7 _ ⟨by decide, rfl⟩ ⟨by decide, rfl⟩ ⟨by decide, rfl⟩ rfl (by decide) (by decide) (by decide))
      (read_unary ops Ws hW 12 (lt_len (by decide)) V main_call0_c_1 main_call0_v8 _ ⟨by decide, rfl⟩ ⟨by decide, rfl⟩ rfl (by decide) (by decide))
      (read_unary ops Ws hW 13 (lt_len (by decide)) V main_call0_v8 main_call0_v9 _ ⟨by decide, rfl⟩ ⟨by decide, rfl⟩ rfl (by decide) (by decide))
      (read_binary ops Ws hW 14 (lt_len (by decide)) V main_call0_v5 main_call0_v9 main_call0_v10 _ ⟨by decide, rfl⟩ ⟨by decide, rfl⟩ ⟨by decide, rfl⟩ rfl (by decide) (by decide) (by decide))
      (read_binary ops Ws hW 15 (lt_len (by decide)) V main_call0_v7 main_call0_v10 main_call0_v11 _ ⟨by decide, rfl⟩ ⟨by decide, rfl⟩ ⟨by decide, rfl⟩ rfl (by decide) (by decide) (by decide))
      (read_nullary ops Ws hW 16 (lt_len (by decide)) V main_call0_c_3 _ ⟨by decide, rfl⟩ rfl (by decide))
      (read_binary ops Ws hW 17 (lt_len (by decide)) V main_call0_v11 main_call0_c_3 main_call0_v12 (fun x v => Host.reduce IntOp.andi x v reducesTo_S2x8192x1_S2x8192_d2 h_S_) ⟨by decide, rfl⟩ ⟨by decide, rfl⟩ ⟨by decide, rfl⟩ rfl (by decide) (by decide) (by decide))
      (read_binary ops Ws hW 18 (lt_len (by decide)) V main_arg2 main_call0_v5 main_call0_v13 (fun x i => Host.gather gather_S131072x128_S2x8192x1_S2x8192x128_2_0_n_n_0_2_1128 x i) ⟨by decide, rfl⟩ ⟨by decide, rfl⟩ ⟨by decide, rfl⟩ rfl (by decide) (by decide) (by decide))
      (read_unary ops Ws hW 19 (lt_len (by decide)) V main_call0_v12 main_call0_v14 _ ⟨by decide, rfl⟩ ⟨by decide, rfl⟩ rfl (by decide) (by decide))
      (read_unary ops Ws hW 21 (lt_len (by decide)) V main_call0_cst main_call0_v15 _ ⟨by decide, rfl⟩ ⟨by decide, rfl⟩ rfl (by decide) (by decide))
      (read_ternary ops Ws hW 22 (lt_len (by decide)) V main_call0_v14 main_call0_v13 main_call0_v15 main_v0 _ ⟨by decide, rfl⟩ ⟨by decide, rfl⟩ ⟨by decide, rfl⟩ ⟨by decide, rfl⟩ rfl (by decide) (by decide) (by decide) (by decide))
  rw [k1, kT] at e
  exact e

-- the reduction and the gather stay folded while an operation of the line is compared with its builder: nothing here looks inside them
attribute [local irreducible] Host.reduce Host.gather in
/-- The second call's result after the line: the row lookup of the table of argument 3 at the row numbers of
    argument 1, which the line leaves as they were. Each line of the call is read from the final contents. -/
theorem value1 (V : Valuation τ sig (Elt F)) (h : Cert.Spec.IdxOK (V (Proc.devRef .tc main_arg1))) :
    after ops V (Proc.devRef .tc main_v1)
      = Cert.Spec.takeRows (V (Proc.devRef .tc main_arg3)) (V (Proc.devRef .tc main_arg1)) := by
  have k1 : after ops V (Proc.devRef .tc main_arg1) = V (Proc.devRef .tc main_arg1) := after_keep ops Ws hW V main_arg1 (by decide)
  have kT : after ops V (Proc.devRef .tc main_arg3) = V (Proc.devRef .tc main_arg3) := after_keep ops Ws hW V main_arg3 (by decide)
  have h' : Cert.Spec.IdxOK (after ops V (Proc.devRef .tc main_arg1)) := k1.symm ▸ h
  have e := Cert.RefValue.take_value (after ops V (Proc.devRef .tc main_arg3)) (after ops V (Proc.devRef .tc main_arg1)) h'
      (after ops V (Proc.devRef .tc main_call1_c))
      (after ops V (Proc.devRef .tc main_call1_v0))
      (after ops V (Proc.devRef .tc main_call1_v1))
      (after ops V (Proc.devRef .tc main_call1_c_0))
      (after ops V (Proc.devRef .tc main_call1_v2))
      (after ops V (Proc.devRef .tc main_call1_v3))
      (after ops V (Proc.devRef .tc main_call1_v4))
      (after ops V (Proc.devRef .tc main_call1_v5))
      (after ops V (Proc.devRef .tc main_call1_c_1))
      (after ops V (Proc.devRef .tc main_call1_c_2))
      (after ops V (Proc.devRef .tc main_call1_v6))
      (after ops V (Proc.devRef .tc main_call1_v7))
      (after ops V (Proc.devRef .tc main_call1_v8))
      (after ops V (Proc.devRef .tc main_call1_v9))
      (after ops V (Proc.devRef .tc main_call1_v10))
      (after ops V (Proc.devRef .tc main_call1_v11))
      (after ops V (Proc.devRef .tc main_call1_c_3))
      (after ops V (Proc.devRef .tc main_call1_v12))
      (after ops V (Proc.devRef .tc main_call1_v13))
      (after ops V (Proc.devRef .tc main_call1_v14))
      (after ops V (Proc.devRef .tc main_call1_cst))
      (after ops V (Proc.devRef .tc main_call1_v15))
      (after ops V (Proc.devRef .tc main_v1))
      (read_nullary ops Ws hW 23 (lt_len (by decide)) V main_call1_c _ ⟨by decide, rfl⟩ rfl (by decide))
      (read_unary ops Ws hW 24 (lt_len (by decide)) V main_call1_c main_call1_v0 _ ⟨by decide, rfl⟩ ⟨by decide, rfl⟩ rfl (by decide) (by decide))
      (read_binary ops Ws hW 25 (lt_len (by decide)) V main_arg1 main_call1_v0 main_call1_v1 _ ⟨by decide, rfl⟩ ⟨by decide, rfl⟩ ⟨by decide, rfl⟩ rfl (by decide) (by decide) (by decide))
      (read_nullary ops Ws hW 26 (lt_len (by decide)) V main_call1_c_0 _ ⟨by decide, rfl⟩ rfl (by decide))
      (read_unary ops Ws hW 27 (lt_len (by decide)) V main_call1_c_0 main_call1_v2 _ ⟨by decide, rfl⟩ ⟨by decide, rfl⟩ rfl (by decide) (by decide))
      (read_binary ops Ws hW 28 (lt_len (by decide)) V main_arg1 main_call1_v2 main_call1_v3 _ ⟨by decide, rfl⟩ ⟨by decide, rfl⟩ ⟨by decide, rfl⟩ rfl (by decide) (by decide) (by decide))
      (read_ternary ops Ws hW 29 (lt_len (by decide)) V main_call1_v1 main_call1_v3 main_arg1 main_call1_v4 _ ⟨by decide, rfl⟩ ⟨by decide, rfl⟩ ⟨by decide, rfl⟩ ⟨by decide, rfl⟩ rfl (by decide) (by decide) (by decide) (by decide))
      (read_unary ops Ws hW 30 (lt_len (by decide)) V main_call1_v4 main_call1_v5 _ ⟨by decide, rfl⟩ ⟨by decide, rfl⟩ rfl (by decide) (by decide))
      (read_nullary ops Ws hW 31 (lt_len (by decide)) V main_call1_c_1 _ ⟨by decide, rfl⟩ rfl (by decide))
      (read_nullary ops Ws hW 32 (lt_len (by decide)) V main_call1_c_2 _ ⟨by decide, rfl⟩ rfl (by decide))
      (read_unary ops Ws hW 33 (lt_len (by decide)) V main_call1_c_2 main_call1_v6 _ ⟨by decide, rfl⟩ ⟨by decide, rfl⟩ rfl (by decide) (by decide))
      (read_binary ops Ws hW 34 (lt_len (by decide)) V main_call1_v5 main_call1_v6 main_call1_v7 _ ⟨by decide, rfl⟩ ⟨by decide, rfl⟩ ⟨by decide, rfl⟩ rfl (by decide) (by decide) (by decide))
      (read_unary ops Ws hW 35 (lt_len (by decide)) V main_call1_c_1 main_call1_v8 _ ⟨by decide, rfl⟩ ⟨by decide, rfl⟩ rfl (by decide) (by decide))
      (read_unary ops Ws hW 36 (lt_len (by decide)) V main_call1_v8 main_call1_v9 _ ⟨by decide, rfl⟩ ⟨by decide, rfl⟩ rfl (by decide) (by decide))
      (read_binary ops Ws hW 37 (lt_len (by decide)) V main_call1_v5 main_call1_v9 main_call1_v10 _ ⟨by decide, rfl⟩ ⟨by decide, rfl⟩ ⟨by decide, rfl⟩ rfl (by decide) (by decide) (by decide))
      (read_binary ops Ws hW 38 (lt_len (by decide)) V main_call1_v7 main_call1_v10 main_call1_v11 _ ⟨by decide, rfl⟩ ⟨by decide, rfl⟩ ⟨by decide, rfl⟩ rfl (by decide) (by decide) (by decide))
      (read_nullary ops Ws hW 39 (lt_len (by decide)) V main_call1_c_3 _ ⟨by decide, rfl⟩ rfl (by decide))
      (read_binary ops Ws hW 40 (lt_len (by decide)) V main_call1_v11 main_call1_c_3 main_call1_v12 (fun x v => Host.reduce IntOp.andi x v reducesTo_S2x8192x1_S2x8192_d2 h_S_) ⟨by decide, rfl⟩ ⟨by decide, rfl⟩ ⟨by decide, rfl⟩ rfl (by decide) (by decide) (by decide))
      (read_binary ops Ws hW 41 (lt_len (by decide)) V main_arg3 main_call1_v5 main_call1_v13 (fun x i => Host.gather gather_S131072x128_S2x8192x1_S2x8192x128_2_0_n_n_0_2_1128 x i) ⟨by decide, rfl⟩ ⟨by decide, rfl⟩ ⟨by decide, rfl⟩ rfl (by decide) (by decide) (by decide))
      (read_unary ops Ws hW 42 (lt_len (by decide)) V main_call1_v12 main_call1_v14 _ ⟨by decide, rfl⟩ ⟨by decide, rfl⟩ rfl (by decide) (by decide))
      (read_unary ops Ws hW 44 (lt_len (by decide)) V main_call1_cst main_call1_v15 _ ⟨by decide, rfl⟩ ⟨by decide, rfl⟩ rfl (by decide) (by decide))
      (read_ternary ops Ws hW 45 (lt_len (by decide)) V main_call1_v14 main_call1_v13 main_call1_v15 main_v1 _ ⟨by decide, rfl⟩ ⟨by decide, rfl⟩ ⟨by decide, rfl⟩ ⟨by decide, rfl⟩ rfl (by decide) (by decide) (by decide) (by decide))
  rw [k1, kT] at e
  exact e

end Line

/-- On every device, from any memory with zero counters in which every row number of argument 1 is at most 16383: every weakly
    fair execution of the reference's @main terminates with the first result the row lookup of argument 2's table at argument 1's
    row numbers, the second result the row lookup of argument 3's table at the same row numbers, and the four arguments unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hidx : ∀ c : Dev Cert.ReferenceIdeal.nD, Cert.Spec.IdxOK (m ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Spec.takeRows (m ((c.tc : Thread _ _).loc Cert.ReferenceIdeal.main_arg2)) (m ((c.tc : Thread _ _).loc Cert.ReferenceIdeal.main_arg1))
        ∧ r.2.mem ((c.tc : Thread _ _).loc Cert.ReferenceIdeal.main_v1)
            = Cert.Spec.takeRows (m ((c.tc : Thread _ _).loc Cert.ReferenceIdeal.main_arg3)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)) :=
  (θ_run Cert.ReferenceIdeal.defs _ _).mono (fun _ h c =>
      ⟨(h c Cert.ReferenceIdeal.main_v0).trans (value0 _ (hidx c)),
        (h c Cert.ReferenceIdeal.main_v1).trans (value1 _ (hidx c)),
        (h c Cert.ReferenceIdeal.main_arg0).trans (Cert.LibAfter.after_keep Cert.RefOps.ops Ws hW _ Cert.ReferenceIdeal.main_arg0 (by decide)),
        (h c Cert.ReferenceIdeal.main_arg1).trans (Cert.LibAfter.after_keep Cert.RefOps.ops Ws hW _ Cert.ReferenceIdeal.main_arg1 (by decide)),
        (h c Cert.ReferenceIdeal.main_arg2).trans (Cert.LibAfter.after_keep Cert.RefOps.ops Ws hW _ Cert.ReferenceIdeal.main_arg2 (by decide)),
        (h c Cert.ReferenceIdeal.main_arg3).trans (Cert.LibAfter.after_keep Cert.RefOps.ops Ws hW _ Cert.ReferenceIdeal.main_arg3 (by decide))⟩)
    (Idealize.ShloMosaic.StableHlo.run_seq Cert.RefOps.scopedRefs_eq Cert.RefOps.scopedSems_eq Cert.ReferenceIdeal.defs Cert.ReferenceIdeal.main
      (fun _ => Cert.RefOps.ops) Cert.RefOps.main_eq (fun _ => Cert.RefOps.ops_sub) m ρ)

end Cert.RefRun

end
-- ==== Proof.KiCommon.lean ====
/-
  The lookup kernel as the SparseCore launch theorem sees it, and what its handshakes carry.
  Thirty-two workers (two cores of sixteen subcores; worker `(c, i)` has number `2 i + c`) each copy their 512 row
  numbers out of the index array, look the rows up in both tables, 128 rows at a time, and copy each chunk of 128 rows
  out to its place in the two results. A worker is handed: its block of the index array; a read share of each table
  (every worker reads rows anywhere in a table, so each table is shared out thirty-two ways); and, of each result, its
  four chunks. It hands the same back, the chunks now holding the looked-up rows (`Spec.takeRows` of the launch
  contents of table and index array). The transfers are all local to a worker, one at a time on each semaphore, so
  beside the handshakes' ghost state the certificate needs only the transfers' counters.
-/
import proofs.«218912_g8761733284177_cont_9to1c4b_297_17_alg».proof.Defs
import proofs.«218912_g8761733284177_cont_9to1c4b_297_17_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«218912_g8761733284177_cont_9to1c4b_297_17_alg».proof.Proof.Gen.KernelIdeal
import proofs.«218912_g8761733284177_cont_9to1c4b_297_17_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The unused activations, the index array, the two tables, the two results, as locations of device `d`. -/
abbrev xLoc (d : Dev nD) : Loc nD τ sig := (SparseCore.T d).loc main_arg0
abbrev iLoc (d : Dev nD) : Loc nD τ sig := (SparseCore.T d).loc main_arg1
abbrev cLoc (d : Dev nD) : Loc nD τ sig := (SparseCore.T d).loc main_arg2
abbrev sLoc (d : Dev nD) : Loc nD τ sig := (SparseCore.T d).loc main_arg3
abbrev coLoc (d : Dev nD) : Loc nD τ sig := (SparseCore.T d).loc main_v0_0
abbrev soLoc (d : Dev nD) : Loc nD τ sig := (SparseCore.T d).loc main_v0_1

/-- What the two results hold at the end: the rows of each table the index array names. -/
abbrev CosV (d : Dev nD) : Buf (Elt F) (coLoc d) :=
  (Spec.takeRows (α := Elt F .f32) (m (cLoc d) : Spec.STab.Idx → Elt F .f32) (m (iLoc d) : Spec.SIdx.Idx → BitVec 32) : Spec.SOut.Idx → Elt F .f32)
abbrev SinV (d : Dev nD) : Buf (Elt F) (soLoc d) :=
  (Spec.takeRows (α := Elt F .f32) (m (sLoc d) : Spec.STab.Idx → Elt F .f32) (m (iLoc d) : Spec.SIdx.Idx → BitVec 32) : Spec.SOut.Idx → Elt F .f32)

/-- Worker `(c, i)`'s read share of a table: one of thirty-two taken off the full share. -/
abbrev tq (c : Fin 2) (i : Fin 16) : PosShare TreeShare :=
  Transfers.shareTok fullShare 32 ⟨2 * i.val + c.val, by omega⟩

/-! ## What the handshakes carry -/

/-- What worker `(c, i)` is handed: its block of the index array, its shares of the tables, its chunks of the results at
    their launch contents; -/
def goP (d : Dev nD) (c : Fin 2) (i : Fin 16) : sProp 𝕄 :=
  iprop((iLoc d ↦[Spec.idxBlk c i]{fullShare} m (iLoc d)) ∗ (cLoc d ↦{tq c i} m (cLoc d)) ∗ (sLoc d ↦{tq c i} m (sLoc d))
    ∗ (bigSep Finset.univ fun j : Fin 4 => coLoc d ↦[Spec.outBlk c i j]{fullShare} m (coLoc d))
    ∗ (bigSep Finset.univ fun j : Fin 4 => soLoc d ↦[Spec.outBlk c i j]{fullShare} m (soLoc d)))

/-- and what it hands back: the same, the chunks holding the looked-up rows. -/
def tdP (d : Dev nD) (c : Fin 2) (i : Fin 16) : sProp 𝕄 :=
  iprop((iLoc d ↦[Spec.idxBlk c i]{fullShare} m (iLoc d)) ∗ (cLoc d ↦{tq c i} m (cLoc d)) ∗ (sLoc d ↦{tq c i} m (sLoc d))
    ∗ (bigSep Finset.univ fun j : Fin 4 => coLoc d ↦[Spec.outBlk c i j]{fullShare} CosV m d)
    ∗ (bigSep Finset.univ fun j : Fin 4 => soLoc d ↦[Spec.outBlk c i j]{fullShare} SinV m d))

instance goP_storable (d : Dev nD) (c : Fin 2) (i : Fin 16) : BI.Storable (upEmb : UEmb _ 𝕄) (goP m d c i) := by
  unfold goP; infer_instance
instance tdP_storable (d : Dev nD) (c : Fin 2) (i : Fin 16) : BI.Storable (upEmb : UEmb _ 𝕄) (tdP m d c i) := by
  unfold tdP; infer_instance

/-- The one call: a core is handed what its sixteen workers are, and hands back what they do. -/
def P : (K (F := F)).Pay (nD := nD) (Val := Elt F) (Name := ℕ) (U := UU) where
  st := fun q d c => match q with | 0 => bigSep Finset.univ fun i : Fin 16 => goP m d (Fin.cast nCore_zero c) i
  dn := fun q d c => match q with | 0 => bigSep Finset.univ fun i : Fin 16 => tdP m d (Fin.cast nCore_zero c) i
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goP m d (Fin.cast nCore_zero c) i))
  dn q d c := match q with
    | 0 => (inferInstance : BI.Storable (upEmb : UEmb _ 𝕄) (bigSep Finset.univ fun i : Fin 16 => tdP m d (Fin.cast nCore_zero c) i))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-- What the proof asks of the launch memory: every row number is at most 16383 (so below the number of rows). -/
def PreOK : Prop := ∀ d : Dev nD, Spec.IdxOK (m (iLoc d) : Spec.SIdx.Idx → BitVec 32)

end Cert.Proof.KI

end
-- ==== Proof.Blocks.lean ====
/-
  The blocks tile their arrays. Worker `(c, i)` has number `w = 2 i + c`, and the 32 numbers `0 … 31` are taken once
  each; `w` owns batch row `w / 16` and the 512 positions from `(w % 16) · 512` on, so the 32 blocks of positions are
  pairwise disjoint and cover the 2 × 8192 index array: the position `(b, p)` belongs to the worker of number
  `16 b + p / 512`. Each block of output rows is cut into four chunks of 128, and chunk `(p % 512) / 128` of that worker
  holds the output rows at `(b, p)`; the last coordinate is unconstrained.
-/
import proofs.«218912_g8761733284177_cont_9to1c4b_297_17_alg».proof.Proof.Spec

namespace Cert.Spec

open Idealize.ShloMosaic

/-- Membership in a worker's block of index positions. -/
theorem mem_idxBlk {c : Fin 2} {i : Fin 16} {x : SIdx.Idx} :
    x ∈ idxBlk c i ↔ (x 0).val = wid c i / 16 ∧ wid c i % 16 * 512 ≤ (x 1).val ∧ (x 1).val < wid c i % 16 * 512 + 512 := by
  simp only [idxBlk, Finset.mem_filter, Finset.mem_univ, true_and]

/-- Membership in a chunk of a worker's output rows. -/
theorem mem_outBlk {c : Fin 2} {i : Fin 16} {j : Fin 4} {x : SOut.Idx} :
    x ∈ outBlk c i j ↔ (x 0).val = wid c i / 16 ∧ wid c i % 16 * 512 + 128 * j.val ≤ (x 1).val
      ∧ (x 1).val < wid c i % 16 * 512 + 128 * j.val + 128 := by
  simp only [outBlk, Finset.mem_filter, Finset.mem_univ, true_and]

/-- Two different workers read disjoint blocks of the index array: a common position fixes the worker's number. -/
theorem idxBlk_disjoint : ∀ p ∈ (Finset.univ : Finset (Fin 2 × Fin 16)), ∀ p' ∈ (Finset.univ : Finset (Fin 2 × Fin 16)),
    p ≠ p' → Disjoint (idxBlk p.1 p.2) (idxBlk p'.1 p'.2) := by
  rintro ⟨c, i⟩ - ⟨c', i'⟩ - hne
  rw [Finset.disjoint_left]
  intro x hx hx'
  rw [mem_idxBlk] at hx hx'
  simp only [wid] at hx hx'
  apply hne
  have hc := c.isLt
  have hc' := c'.isLt
  have hi := i.isLt
  have hi' := i'.isLt
  have hci : c.val = c'.val ∧ i.val = i'.val := by omega
  exact Prod.ext (Fin.ext hci.1) (Fin.ext hci.2)

/-- Every position of the index array is read by some worker: `(b, p)` by the worker of number `16 b + p / 512`. -/
theorem idxBlk_cover : (Finset.univ : Finset (Fin 2 × Fin 16)).biUnion (fun p => idxBlk p.1 p.2) = Finset.univ := by
  apply Finset.eq_univ_of_forall
  intro x
  have h0 : (x 0).val < 2 := (x 0).isLt
  have h1 : (x 1).val < 8192 := (x 1).isLt
  rw [Finset.mem_biUnion]
  refine ⟨(⟨(16 * (x 0).val + (x 1).val / 512) % 2, by omega⟩, ⟨(16 * (x 0).val + (x 1).val / 512) / 2, by omega⟩),
    Finset.mem_univ _, ?_⟩
  rw [mem_idxBlk]
  simp only [wid]
  omega

/-- Two different chunks (of one worker or of two) hold disjoint sets of output rows. -/
theorem outBlk_disjoint : ∀ p ∈ (Finset.univ : Finset ((Fin 2 × Fin 16) × Fin 4)),
    ∀ p' ∈ (Finset.univ : Finset ((Fin 2 × Fin 16) × Fin 4)),
    p ≠ p' → Disjoint (outBlk p.1.1 p.1.2 p.2) (outBlk p'.1.1 p'.1.2 p'.2) := by
  rintro ⟨⟨c, i⟩, j⟩ - ⟨⟨c', i'⟩, j'⟩ - hne
  rw [Finset.disjoint_left]
  intro x hx hx'
  rw [mem_outBlk] at hx hx'
  simp only [wid] at hx hx'
  apply hne
  have hc := c.isLt
  have hc' := c'.isLt
  have hi := i.isLt
  have hi' := i'.isLt
  have hj := j.isLt
  have hj' := j'.isLt
  have hcij : c.val = c'.val ∧ i.val = i'.val ∧ j.val = j'.val := by omega
  exact Prod.ext (Prod.ext (Fin.ext hcij.1) (Fin.ext hcij.2.1)) (Fin.ext hcij.2.2)

/-- Every output row lies in some chunk: `(b, p, l)` in chunk `(p % 512) / 128` of the worker of number `16 b + p / 512`. -/
theorem outBlk_cover : (Finset.univ : Finset ((Fin 2 × Fin 16) × Fin 4)).biUnion (fun p => outBlk p.1.1 p.1.2 p.2)
    = Finset.univ := by
  apply Finset.eq_univ_of_forall
  intro x
  have h0 : (x 0).val < 2 := (x 0).isLt
  have h1 : (x 1).val < 8192 := (x 1).isLt
  rw [Finset.mem_biUnion]
  refine ⟨((⟨(16 * (x 0).val + (x 1).val / 512) % 2, by omega⟩, ⟨(16 * (x 0).val + (x 1).val / 512) / 2, by omega⟩),
    ⟨(x 1).val % 512 / 128, by omega⟩), Finset.mem_univ _, ?_⟩
  rw [mem_outBlk]
  simp only [wid]
  omega

end Cert.Spec
-- ==== Proof.KiTile.lean ====
/-
  One worker of the lookup kernel: the rectangles it addresses, as the program slices them, and that they are the
  specification's blocks; its fifteen transfer semaphores and three scratch buffers among the subcore's own.
  Worker `(L 0, L 1)` (core, subcore) has number `w = 2 (L 1) + (L 0)`; the program computes batch row `w / 16` and first
  position `(w % 16) · 512` (`k0_off1`), and for chunk `r` the first output row `(w % 16) · 512 + 128 r` (`k0_off2`):
  both closed forms are decided over the thirty-two workers.
-/
import proofs.«218912_g8761733284177_cont_9to1c4b_297_17_alg».proof.Proof.KiCommon
import Idealize.ShloMosaic.Lib.Decide
import proofs.«218912_g8761733284177_cont_9to1c4b_297_17_alg».proof.Proof.Blocks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The offsets the program computes, in closed form -/

set_option maxRecDepth 65536 in
theorem k0_off1_eq : ∀ L : grid0.Coords,
    k0_off1 L = ![(2 * (L 1).val + (L 0).val) / 16, (2 * (L 1).val + (L 0).val) % 16 * 512] := by decide +kernel

set_option maxRecDepth 65536 in
theorem k0_off2_eq : ∀ L : grid0.Coords, ∀ r : Fin 4,
    k0_off2 L (BitVec.ofNat 32 (128 * r.val))
      = ![(2 * (L 1).val + (L 0).val) / 16, (2 * (L 1).val + (L 0).val) % 16 * 512 + 128 * r.val, 0] := by decide +kernel

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

theorem wid_L : Spec.wid (cL L) (jL L) = 2 * (L 1).val + (L 0).val := rfl

/-! ## The rectangles the worker addresses -/

local notation "iV" => (Memref.whole Cert.KernelIdeal.main_arg1_scv : Memref Cert.KernelIdeal.sig Kind.scVector Space.hbm Cert.KernelIdeal.S2x8192 EltTy.i32)
local notation "coV" => (Memref.whole Cert.KernelIdeal.main_v0_0_scv : Memref Cert.KernelIdeal.sig Kind.scVector Space.hbm Cert.KernelIdeal.S2x8192x128 EltTy.f32)
local notation "soV" => (Memref.whole Cert.KernelIdeal.main_v0_1_scv : Memref Cert.KernelIdeal.sig Kind.scVector Space.hbm Cert.KernelIdeal.S2x8192x128 EltTy.f32)

abbrev irowK (L : grid0.Coords) : Rect S2x8192 := Rect.unit (s := S2x8192) (k0_off1 L) S1x512.size (k0_off1_inb L)
abbrev orowK0 (L : grid0.Coords) : Rect S2x8192x128 := Rect.unit (s := S2x8192x128) (k0_off2 L 0#32) S1x128x128.size (k0_off2_inb L 0)
abbrev orowK1 (L : grid0.Coords) : Rect S2x8192x128 := Rect.unit (s := S2x8192x128) (k0_off2 L 128#32) S1x128x128.size (k0_off2_inb L 1)
abbrev orowK2 (L : grid0.Coords) : Rect S2x8192x128 := Rect.unit (s := S2x8192x128) (k0_off2 L 256#32) S1x128x128.size (k0_off2_inb L 2)
abbrev orowK3 (L : grid0.Coords) : Rect S2x8192x128 := Rect.unit (s := S2x8192x128) (k0_off2 L 384#32) S1x128x128.size (k0_off2_inb L 3)

/-- The worker's block of the index array, and chunk `r` of each result, squeezed, as the program addresses them. -/
abbrev iRowK (L : grid0.Coords) : Memref sig .scVector .hbm S512 .i32 := ((iV).slice (irowK L) (fun _ => rfl)).squeeze S512 squeezes_S1x512_S512
abbrev coRowK0 (L : grid0.Coords) : Memref sig .scVector .hbm S128x128 .f32 := ((coV).slice (orowK0 L) (fun _ => rfl)).squeeze S128x128 squeezes_S1x128x128_S128x128
abbrev coRowK1 (L : grid0.Coords) : Memref sig .scVector .hbm S128x128 .f32 := ((coV).slice (orowK1 L) (fun _ => rfl)).squeeze S128x128 squeezes_S1x128x128_S128x128
abbrev coRowK2 (L : grid0.Coords) : Memref sig .scVector .hbm S128x128 .f32 := ((coV).slice (orowK2 L) (fun _ => rfl)).squeeze S128x128 squeezes_S1x128x128_S128x128
abbrev coRowK3 (L : grid0.Coords) : Memref sig .scVector .hbm S128x128 .f32 := ((coV).slice (orowK3 L) (fun _ => rfl)).squeeze S128x128 squeezes_S1x128x128_S128x128
abbrev soRowK0 (L : grid0.Coords) : Memref sig .scVector .hbm S128x128 .f32 := ((soV).slice (orowK0 L) (fun _ => rfl)).squeeze S128x128 squeezes_S1x128x128_S128x128
abbrev soRowK1 (L : grid0.Coords) : Memref sig .scVector .hbm S128x128 .f32 := ((soV).slice (orowK1 L) (fun _ => rfl)).squeeze S128x128 squeezes_S1x128x128_S128x128
abbrev soRowK2 (L : grid0.Coords) : Memref sig .scVector .hbm S128x128 .f32 := ((soV).slice (orowK2 L) (fun _ => rfl)).squeeze S128x128 squeezes_S1x128x128_S128x128
abbrev soRowK3 (L : grid0.Coords) : Memref sig .scVector .hbm S128x128 .f32 := ((soV).slice (orowK3 L) (fun _ => rfl)).squeeze S128x128 squeezes_S1x128x128_S128x128

/-- The index array's rectangle is the specification's block: batch row `w / 16`, positions from `(w % 16) · 512`. -/
theorem set_irowK : (irowK L).set = Spec.idxBlk (cL L) (jL L) := by
  ext x
  rw [Rect.mem_set_unit, Spec.mem_idxBlk, k0_off1_eq L, wid_L]
  constructor
  · intro h
    have h0 := h 0
    have h1 := h 1
    simp only [Matrix.cons_val_zero, Matrix.cons_val_one] at h0 h1
    exact ⟨by omega, h1.1, h1.2⟩
  · rintro ⟨e0, lo, hi⟩ a
    fin_cases a
    · simp only [Fin.zero_eta, Matrix.cons_val_zero]; constructor <;> omega
    · refine ⟨?_, ?_⟩ <;> simp <;> omega

/-- Chunk `r` of a result's rows is the specification's chunk: batch row `w / 16`, rows from `(w % 16) · 512 + 128 r`. -/
theorem set_orowK (r : Fin 4) (inb) :
    (Rect.unit (s := S2x8192x128) (k0_off2 L (BitVec.ofNat 32 (128 * r.val))) S1x128x128.size inb).set = Spec.outBlk (cL L) (jL L) r := by
  ext x
  rw [Rect.mem_set_unit, Spec.mem_outBlk, k0_off2_eq L r, wid_L]
  constructor
  · intro h
    have h0 := h 0
    have h1 := h 1
    simp only [Matrix.cons_val_zero, Matrix.cons_val_one] at h0 h1
    exact ⟨by omega, h1.1, h1.2⟩
  · rintro ⟨e0, lo, hi⟩ a
    have hx2 : (x 2).val < 128 := (x 2).isLt
    fin_cases a
    · simp only [Fin.zero_eta, Matrix.cons_val_zero]; constructor <;> omega
    · refine ⟨?_, ?_⟩ <;> simp <;> omega
    · refine ⟨?_, ?_⟩ <;> simp <;> omega

theorem set_iRowK : (iRowK L).view.set = Spec.idxBlk (cL L) (jL L) := by
  show (((iV).view.slice (irowK L)).reshape S512 squeezes_S1x512_S512.numel_eq).set = _
  rw [View.set_reshape]
  exact (View.set_slice_whole _ _).trans (set_irowK L)
theorem set_coRowK0 : (coRowK0 L).view.set = Spec.outBlk (cL L) (jL L) 0 := by
  show (((coV).view.slice (orowK0 L)).reshape S128x128 squeezes_S1x128x128_S128x128.numel_eq).set = _
  rw [View.set_reshape]
  exact (View.set_slice_whole _ _).trans (set_orowK L 0 _)
theorem set_coRowK1 : (coRowK1 L).view.set = Spec.outBlk (cL L) (jL L) 1 := by
  show (((coV).view.slice (orowK1 L)).reshape S128x128 squeezes_S1x128x128_S128x128.numel_eq).set = _
  rw [View.set_reshape]
  exact (View.set_slice_whole _ _).trans (set_orowK L 1 _)
theorem set_coRowK2 : (coRowK2 L).view.set = Spec.outBlk (cL L) (jL L) 2 := by
  show (((coV).view.slice (orowK2 L)).reshape S128x128 squeezes_S1x128x128_S128x128.numel_eq).set = _
  rw [View.set_reshape]
  exact (View.set_slice_whole _ _).trans (set_orowK L 2 _)
theorem set_coRowK3 : (coRowK3 L).view.set = Spec.outBlk (cL L) (jL L) 3 := by
  show (((coV).view.slice (orowK3 L)).reshape S128x128 squeezes_S1x128x128_S128x128.numel_eq).set = _
  rw [View.set_reshape]
  exact (View.set_slice_whole _ _).trans (set_orowK L 3 _)
theorem set_soRowK0 : (soRowK0 L).view.set = Spec.outBlk (cL L) (jL L) 0 := by
  show (((soV).view.slice (orowK0 L)).reshape S128x128 squeezes_S1x128x128_S128x128.numel_eq).set = _
  rw [View.set_reshape]
  exact (View.set_slice_whole _ _).trans (set_orowK L 0 _)
theorem set_soRowK1 : (soRowK1 L).view.set = Spec.outBlk (cL L) (jL L) 1 := by
  show (((soV).view.slice (orowK1 L)).reshape S128x128 squeezes_S1x128x128_S128x128.numel_eq).set = _
  rw [View.set_reshape]
  exact (View.set_slice_whole _ _).trans (set_orowK L 1 _)
theorem set_soRowK2 : (soRowK2 L).view.set = Spec.outBlk (cL L) (jL L) 2 := by
  show (((soV).view.slice (orowK2 L)).reshape S128x128 squeezes_S1x128x128_S128x128.numel_eq).set = _
  rw [View.set_reshape]
  exact (View.set_slice_whole _ _).trans (set_orowK L 2 _)
theorem set_soRowK3 : (soRowK3 L).view.set = Spec.outBlk (cL L) (jL L) 3 := by
  show (((soV).view.slice (orowK3 L)).reshape S128x128 squeezes_S1x128x128_S128x128.numel_eq).set = _
  rw [View.set_reshape]
  exact (View.set_slice_whole _ _).trans (set_orowK L 3 _)

/-! ## The subcore's own semaphores and scratch buffers -/

/-- A sum over fifteen, written out. -/
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [show (Finset.univ : Finset (Fin 15)) = {0, 1, 2, 3, 4, 5, 6, 7, 8, 9, 10, 11, 12, 13, 14} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A vector subcore's own semaphore cells are its fifteen transfer semaphores. -/
theorem ownCells_V (c : Fin τ.nSC) (i : Fin τ.nSub) :
    (ownCells (V d c i) : Finset (GSem nD τ sig))
      = (Finset.univ : Finset (Fin 15)).image fun k => ((V d c i, SemLoc.dma k) : GSem nD τ sig) := by
  have hreg : ∀ s : Sem sig, (SemLoc.reg s : SemLoc sig).isScoped .scVector = false := by decide
  have hdma : ∀ k : DmaSem sig, (SemLoc.dma k : SemLoc sig).isScoped .scVector = true := by decide
  ext g
  rw [mem_ownCells, Finset.mem_image]
  constructor
  · rintro ⟨e, hs⟩
    rcases g with ⟨thr, sm⟩
    obtain rfl : thr = V d c i := e
    cases sm with
    | reg s => exact absurd hs (by rw [show GSem.isScoped ((V d c i, SemLoc.reg s) : GSem nD τ sig) = false from hreg s]; decide)
    | dma k => exact ⟨k, Finset.mem_univ _, rfl⟩
  · rintro ⟨k, -, rfl⟩
    exact ⟨rfl, hdma k⟩

theorem ownSems0_V :
    (ownSems0 (V d (cV L) (jV L)) : sProp 𝕄)
      = iprop(semVal (V d (cV L) (jV L), SemLoc.dma cc0_scratch3.sem) 0 ∗ semVal (V d (cV L) (jV L), SemLoc.dma cc0_scratch4.sem) 0
          ∗ semVal (V d (cV L) (jV L), SemLoc.dma cc0_scratch5.sem) 0 ∗ semVal (V d (cV L) (jV L), SemLoc.dma cc0_scratch6.sem) 0
          ∗ semVal (V d (cV L) (jV L), SemLoc.dma cc0_scratch7.sem) 0 ∗ semVal (V d (cV L) (jV L), SemLoc.dma cc0_scratch8.sem) 0
          ∗ semVal (V d (cV L) (jV L), SemLoc.dma cc0_scratch9.sem) 0 ∗ semVal (V d (cV L) (jV L), SemLoc.dma cc0_scratch10.sem) 0
          ∗ semVal (V d (cV L) (jV L), SemLoc.dma cc0_scratch11.sem) 0 ∗ semVal (V d (cV L) (jV L), SemLoc.dma cc0_scratch12.sem) 0
          ∗ semVal (V d (cV L) (jV L), SemLoc.dma cc0_scratch13.sem) 0 ∗ semVal (V d (cV L) (jV L), SemLoc.dma cc0_scratch14.sem) 0
          ∗ semVal (V d (cV L) (jV L), SemLoc.dma cc0_scratch15.sem) 0 ∗ semVal (V d (cV L) (jV L), SemLoc.dma cc0_scratch16.sem) 0
          ∗ semVal (V d (cV L) (jV L), SemLoc.dma cc0_scoped0.sem) 0) := by
  unfold SparseCore.Cfg.ownSems0
  rw [ownCells_V, bigSep_image_of_injOn (fun a _ b _ e => by injection e with _ e; injection e)]
  exact bigSep_fin15 (F := F) fun k => semVal (V d (cV L) (jV L), SemLoc.dma k) 0

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The arrays as the worker's memrefs address them are the device's arrays -/

local notation "cTV" => (Memref.whole Cert.KernelIdeal.main_arg2_scv : Memref Cert.KernelIdeal.sig Kind.scVector Space.hbm Cert.KernelIdeal.S131072x128 EltTy.f32)
local notation "sTV" => (Memref.whole Cert.KernelIdeal.main_arg3_scv : Memref Cert.KernelIdeal.sig Kind.scVector Space.hbm Cert.KernelIdeal.S131072x128 EltTy.f32)
local notation "ixS" => (Memref.whole Cert.KernelIdeal.cc0_scratch0 : Memref Cert.KernelIdeal.sig Kind.scVector Space.vmem Cert.KernelIdeal.S512 EltTy.i32)
local notation "cbS" => (Memref.whole Cert.KernelIdeal.cc0_scratch1 : Memref Cert.KernelIdeal.sig Kind.scVector Space.vmem Cert.KernelIdeal.S3x128x128 EltTy.f32)
local notation "sbS" => (Memref.whole Cert.KernelIdeal.cc0_scratch2 : Memref Cert.KernelIdeal.sig Kind.scVector Space.vmem Cert.KernelIdeal.S4x128x128 EltTy.f32)

theorem pts_iRowK (f : Buf (Elt F) (iLoc d)) :
    ((iRowK L).view.loc (V d (cV L) (jV L)) ↦[(iRowK L).view.set]{fullShare} f : sProp 𝕄) = iLoc d ↦[Spec.idxBlk (cL L) (jL L)]{fullShare} f := by
  rw [set_iRowK]
theorem pts_coRowK0 (f : Buf (Elt F) (coLoc d)) :
    ((coRowK0 L).view.loc (V d (cV L) (jV L)) ↦[(coRowK0 L).view.set]{fullShare} f : sProp 𝕄) = coLoc d ↦[Spec.outBlk (cL L) (jL L) 0]{fullShare} f := by
  rw [set_coRowK0]
theorem pts_coRowK1 (f : Buf (Elt F) (coLoc d)) :
    ((coRowK1 L).view.loc (V d (cV L) (jV L)) ↦[(coRowK1 L).view.set]{fullShare} f : sProp 𝕄) = coLoc d ↦[Spec.outBlk (cL L) (jL L) 1]{fullShare} f := by
  rw [set_coRowK1]
theorem pts_coRowK2 (f : Buf (Elt F) (coLoc d)) :
    ((coRowK2 L).view.loc (V d (cV L) (jV L)) ↦[(coRowK2 L).view.set]{fullShare} f : sProp 𝕄) = coLoc d ↦[Spec.outBlk (cL L) (jL L) 2]{fullShare} f := by
  rw [set_coRowK2]
theorem pts_coRowK3 (f : Buf (Elt F) (coLoc d)) :
    ((coRowK3 L).view.loc (V d (cV L) (jV L)) ↦[(coRowK3 L).view.set]{fullShare} f : sProp 𝕄) = coLoc d ↦[Spec.outBlk (cL L) (jL L) 3]{fullShare} f := by
  rw [set_coRowK3]
theorem pts_soRowK0 (f : Buf (Elt F) (soLoc d)) :
    ((soRowK0 L).view.loc (V d (cV L) (jV L)) ↦[(soRowK0 L).view.set]{fullShare} f : sProp 𝕄) = soLoc d ↦[Spec.outBlk (cL L) (jL L) 0]{fullShare} f := by
  rw [set_soRowK0]
theorem pts_soRowK1 (f : Buf (Elt F) (soLoc d)) :
    ((soRowK1 L).view.loc (V d (cV L) (jV L)) ↦[(soRowK1 L).view.set]{fullShare} f : sProp 𝕄) = soLoc d ↦[Spec.outBlk (cL L) (jL L) 1]{fullShare} f := by
  rw [set_soRowK1]
theorem pts_soRowK2 (f : Buf (Elt F) (soLoc d)) :
    ((soRowK2 L).view.loc (V d (cV L) (jV L)) ↦[(soRowK2 L).view.set]{fullShare} f : sProp 𝕄) = soLoc d ↦[Spec.outBlk (cL L) (jL L) 2]{fullShare} f := by
  rw [set_soRowK2]
theorem pts_soRowK3 (f : Buf (Elt F) (soLoc d)) :
    ((soRowK3 L).view.loc (V d (cV L) (jV L)) ↦[(soRowK3 L).view.set]{fullShare} f : sProp 𝕄) = soLoc d ↦[Spec.outBlk (cL L) (jL L) 3]{fullShare} f := by
  rw [set_soRowK3]
theorem pts_cTV (q : PosShare TreeShare) (f : Buf (Elt F) (cLoc d)) :
    ((cTV).view.loc (V d (cV L) (jV L)) ↦{q} f : sProp 𝕄) = cLoc d ↦{q} f := rfl
theorem pts_sTV (q : PosShare TreeShare) (f : Buf (Elt F) (sLoc d)) :
    ((sTV).view.loc (V d (cV L) (jV L)) ↦{q} f : sProp 𝕄) = sLoc d ↦{q} f := rfl
theorem pts_ixS (f : Buf (Elt F) ((V d (cV L) (jV L)).loc cc0_scratch0)) :
    ((ixS).view.loc (V d (cV L) (jV L)) ↦{fullShare} f : sProp 𝕄) = (V d (cV L) (jV L)).loc cc0_scratch0 ↦{fullShare} f := rfl
theorem pts_cbS (f : Buf (Elt F) ((V d (cV L) (jV L)).loc cc0_scratch1)) :
    ((cbS).view.loc (V d (cV L) (jV L)) ↦{fullShare} f : sProp 𝕄) = (V d (cV L) (jV L)).loc cc0_scratch1 ↦{fullShare} f := rfl
theorem pts_sbS (f : Buf (Elt F) ((V d (cV L) (jV L)).loc cc0_scratch2)) :
    ((sbS).view.loc (V d (cV L) (jV L)) ↦{fullShare} f : sProp 𝕄) = (V d (cV L) (jV L)).loc cc0_scratch2 ↦{fullShare} f := rfl

/-! ## Shares, halved -/

/-- A points-to at a share is its two halves' at once; -/
theorem pts_halve {ℓ : Loc nD τ sig} (I : Finset (Idx ℓ)) (q : PosShare TreeShare) (f : Buf (Elt F) ℓ) :
    (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- its four quarters'; -/
theorem pts_quarter {ℓ : Loc nD τ sig} (I : Finset (Idx ℓ)) (q : PosShare TreeShare) (f : Buf (Elt F) ℓ) :
    (ℓ ↦[I]{q} f : sProp 𝕄) = iprop(((ℓ ↦[I]{q.left.left} f) ∗ (ℓ ↦[I]{q.left.right} f)) ∗ ((ℓ ↦[I]{q.right.left} f) ∗ (ℓ ↦[I]{q.right.right} f))) := by
  rw [pts_halve I q, pts_halve I q.left, pts_halve I q.right]

/-- its eight eighths'. -/
theorem pts_eighth {ℓ : Loc nD τ sig} (I : Finset (Idx ℓ)) (q : PosShare TreeShare) (f : Buf (Elt F) ℓ) :
    (ℓ ↦[I]{q} f : sProp 𝕄) = iprop((((ℓ ↦[I]{q.left.left.left} f) ∗ (ℓ ↦[I]{q.left.left.right} f)) ∗ ((ℓ ↦[I]{q.left.right.left} f) ∗ (ℓ ↦[I]{q.left.right.right} f)))
      ∗ (((ℓ ↦[I]{q.right.left.left} f) ∗ (ℓ ↦[I]{q.right.left.right} f)) ∗ ((ℓ ↦[I]{q.right.right.left} f) ∗ (ℓ ↦[I]{q.right.right.right} f)))) := by
  rw [pts_halve I q, pts_quarter I q.left, pts_quarter I q.right]

/-! ## The row numbers the worker fetched are in range -/

/-- What the index fetch landed in the index scratch is the worker's block of the index array, each word at most
    16383: so every window of 128 of them names rows of a table. -/
theorem inb_of_pre (hpre : PreOK m) (fx : Buf (Elt F) ((V d (cV L) (jV L)).loc cc0_scratch0)) (pay : S512.Idx → Elt F .i32)
    (hpay : pay = (iRowK L).view.read (Elt F) (m (iLoc d))) (off : Fin 1 → Nat) (inb : ∀ a, off a + S128.size a ≤ S512.size a) :
    ∀ x, (((ixS).slice (Rect.unit (s := S512) off S128.size inb) (fun _ => rfl)).view.read (Elt F)
      (View.write (Elt F) (ixS).view fx pay Finset.univ) x).toNat < S131072x128.size gathers_S131072x128_S128x128.axis := by
  subst hpay; intro x
  rw [View.write_whole_univ]
  rw [View.read_apply]
  simp only [Memref.view_whole, View.read_whole]
  rw [show ∀ j, (iRowK L).view.read (Elt F) (m (iLoc d)) j = m (iLoc d) ((iRowK L).view.emb j) from fun j => (View.read_apply _ _).trans (cast_eq _ _)]
  exact lt_of_le_of_lt (hpre d _) (by decide)

end Tile

end Cert.Proof.KI

end
-- ==== Proof.KiValue.lean ====
/-
  What the worker's transfers move, entry by entry. A gather lands, at row `k` of a staging slot, the table's row named
  by word `off + k` of the fetched row numbers; the fetched words are the worker's block of the index array; a chunk of a
  result is addressed at batch row `w / 16`, rows `(w % 16) · 512 + 128 r + k`. Put together, what a gather lands is what the
  specification `Spec.takeRows` holds on the chunk it is then copied to (`gather_cos`, `gather_sin`). Reading a staging
  slot through writes to the other slots changes nothing (`cb_skip`, `sb_skip`).
-/
import proofs.«218912_g8761733284177_cont_9to1c4b_297_17_alg».proof.Proof.KiTile
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg1_scv : Memref Cert.KernelIdeal.sig Kind.scVector Space.hbm Cert.KernelIdeal.S2x8192 EltTy.i32)
local notation "cTV" => (Memref.whole Cert.KernelIdeal.main_arg2_scv : Memref Cert.KernelIdeal.sig Kind.scVector Space.hbm Cert.KernelIdeal.S131072x128 EltTy.f32)
local notation "sTV" => (Memref.whole Cert.KernelIdeal.main_arg3_scv : Memref Cert.KernelIdeal.sig Kind.scVector Space.hbm Cert.KernelIdeal.S131072x128 EltTy.f32)
local notation "coV" => (Memref.whole Cert.KernelIdeal.main_v0_0_scv : Memref Cert.KernelIdeal.sig Kind.scVector Space.hbm Cert.KernelIdeal.S2x8192x128 EltTy.f32)
local notation "soV" => (Memref.whole Cert.KernelIdeal.main_v0_1_scv : Memref Cert.KernelIdeal.sig Kind.scVector Space.hbm Cert.KernelIdeal.S2x8192x128 EltTy.f32)
local notation "ixS" => (Memref.whole Cert.KernelIdeal.cc0_scratch0 : Memref Cert.KernelIdeal.sig Kind.scVector Space.vmem Cert.KernelIdeal.S512 EltTy.i32)
local notation "cbS" => (Memref.whole Cert.KernelIdeal.cc0_scratch1 : Memref Cert.KernelIdeal.sig Kind.scVector Space.vmem Cert.KernelIdeal.S3x128x128 EltTy.f32)
local notation "sbS" => (Memref.whole Cert.KernelIdeal.cc0_scratch2 : Memref Cert.KernelIdeal.sig Kind.scVector Space.vmem Cert.KernelIdeal.S4x128x128 EltTy.f32)

variable [FloatOps F]

section Tile

variable (d : Dev nD) (L : grid0.Coords)

/-- The specification read through an index whose coordinates are known by value. -/
theorem takeRows_of_vals {α : Type} (tbl : Spec.STab.Idx → α) (idx : Spec.SIdx.Idx → BitVec 32) (j : Spec.SOut.Idx)
    (p : Spec.SIdx.Idx) (t : Spec.STab.Idx) (hp0 : (p 0).val = (j 0).val) (hp1 : (p 1).val = (j 1).val)
    (hlt : (idx p).toNat < 131072) (ht0 : (t 0).val = (idx p).toNat) (ht1 : (t 1).val = (j 2).val) :
    Spec.takeRows tbl idx j = tbl t := by
  unfold Spec.takeRows
  have hp : Spec.idxIx (j 0) (j 1) = p := by
    funext a
    refine Fin.ext ?_
    fin_cases a
    · exact hp0.symm
    · exact hp1.symm
  rw [hp]
  congr 1
  funext a
  refine Fin.ext ?_
  fin_cases a
  · show (idx p).toNat % 131072 = _
    rw [Nat.mod_eq_of_lt hlt]; exact ht0.symm
  · exact ht1.symm

/-- The worker's block of the index array, entry `z`: batch row `w / 16`, position `(w % 16) · 512 + z`. -/
theorem iRowK_emb_val (z : S512.Idx) :
    (((iRowK L).view.emb z) 0).val = (2 * (L 1).val + (L 0).val) / 16
    ∧ (((iRowK L).view.emb z) 1).val = (2 * (L 1).val + (L 0).val) % 16 * 512 + (z 0).val := by
  have hc := Shape.reshapeEquiv_cons_one (n := 1) (d := ![512]) squeezes_S1x512_S512.numel_eq z
  constructor
  · show k0_off1 L 0 + 1 * ((Shape.reshapeEquiv squeezes_S1x512_S512.numel_eq z) 0).val = _
    rw [hc, k0_off1_eq L]
    simp
    rfl
  · show k0_off1 L 1 + 1 * ((Shape.reshapeEquiv squeezes_S1x512_S512.numel_eq z) 1).val = _
    rw [hc, k0_off1_eq L]
    simp
    rfl

/-- Chunk `r` of a result, entry `(a, b)`: batch row `w / 16`, row `(w % 16) · 512 + 128 r + a`, entry `b`. -/
theorem coRow_emb_val (r : Fin 4) (inb) (y : S128x128.Idx) :
    let v := (((coV).slice (Rect.unit (s := S2x8192x128) (k0_off2 L (BitVec.ofNat 32 (128 * r.val))) S1x128x128.size inb) (fun _ => rfl)).squeeze S128x128 squeezes_S1x128x128_S128x128).view
    (((v.emb y : S2x8192x128.Idx)) 0).val = (2 * (L 1).val + (L 0).val) / 16
    ∧ (((v.emb y : S2x8192x128.Idx)) 1).val = (2 * (L 1).val + (L 0).val) % 16 * 512 + 128 * r.val + (y 0).val
    ∧ (((v.emb y : S2x8192x128.Idx)) 2).val = (y 1).val := by
  intro v
  have hc := Shape.reshapeEquiv_cons_one (n := 2) (d := ![128, 128]) squeezes_S1x128x128_S128x128.numel_eq y
  refine ⟨?_, ?_, ?_⟩
  · show k0_off2 L (BitVec.ofNat 32 (128 * r.val)) 0 + 1 * ((Shape.reshapeEquiv squeezes_S1x128x128_S128x128.numel_eq y) 0).val = _
    rw [hc, k0_off2_eq L r]
    simp
    rfl
  · show k0_off2 L (BitVec.ofNat 32 (128 * r.val)) 1 + 1 * ((Shape.reshapeEquiv squeezes_S1x128x128_S128x128.numel_eq y) 1).val = _
    rw [hc, k0_off2_eq L r]
    simp
    rfl
  · show k0_off2 L (BitVec.ofNat 32 (128 * r.val)) 2 + 1 * ((Shape.reshapeEquiv squeezes_S1x128x128_S128x128.numel_eq y) 2).val = _
    rw [hc, k0_off2_eq L r]
    simp
    rfl

/-- Chunk `r` of a result, entry `(a, b)`: batch row `w / 16`, row `(w % 16) · 512 + 128 r + a`, entry `b`. -/
theorem soRow_emb_val (r : Fin 4) (inb) (y : S128x128.Idx) :
    let v := (((soV).slice (Rect.unit (s := S2x8192x128) (k0_off2 L (BitVec.ofNat 32 (128 * r.val))) S1x128x128.size inb) (fun _ => rfl)).squeeze S128x128 squeezes_S1x128x128_S128x128).view
    (((v.emb y : S2x8192x128.Idx)) 0).val = (2 * (L 1).val + (L 0).val) / 16
    ∧ (((v.emb y : S2x8192x128.Idx)) 1).val = (2 * (L 1).val + (L 0).val) % 16 * 512 + 128 * r.val + (y 0).val
    ∧ (((v.emb y : S2x8192x128.Idx)) 2).val = (y 1).val := by
  intro v
  have hc := Shape.reshapeEquiv_cons_one (n := 2) (d := ![128, 128]) squeezes_S1x128x128_S128x128.numel_eq y
  refine ⟨?_, ?_, ?_⟩
  · show k0_off2 L (BitVec.ofNat 32 (128 * r.val)) 0 + 1 * ((Shape.reshapeEquiv squeezes_S1x128x128_S128x128.numel_eq y) 0).val = _
    rw [hc, k0_off2_eq L r]
    simp
    rfl
  · show k0_off2 L (BitVec.ofNat 32 (128 * r.val)) 1 + 1 * ((Shape.reshapeEquiv squeezes_S1x128x128_S128x128.numel_eq y) 1).val = _
    rw [hc, k0_off2_eq L r]
    simp
    rfl
  · show k0_off2 L (BitVec.ofNat 32 (128 * r.val)) 2 + 1 * ((Shape.reshapeEquiv squeezes_S1x128x128_S128x128.numel_eq y) 2).val = _
    rw [hc, k0_off2_eq L r]
    simp
    rfl

/-- What a gather of table rows at window `off = 128 r` of the fetched row numbers lands is, entry by entry, what the
    specification holds on chunk `r` of the worker's output rows: row `k` of the landing is the table's row named by
    fetched word `off + k`, which is the index array's entry at position `(w % 16) · 512 + 128 r + k` of batch row
    `w / 16`, the position of the chunk's row `k`. -/
theorem gather_cos (hpre : PreOK m) (fx : Buf (Elt F) ((V d (cV L) (jV L)).loc cc0_scratch0)) (pay : S512.Idx → Elt F .i32)
    (hpay : pay = (iRowK L).view.read (Elt F) (m (iLoc d))) (r : Fin 4) (off : Nat) (hoff : off = 128 * r.val)
    (inbI : ∀ a, (![off] : Fin 1 → Nat) a + S128.size a ≤ S512.size a) (inbO)
    (hn : S128.numel = S128x128.size gathers_S131072x128_S128x128.axis')
    (hin : ∀ x, ((((ixS).slice (Rect.unit (s := S512) ![off] S128.size inbI) (fun _ => rfl)).view.read (Elt F)
      (View.write (Elt F) (ixS).view fx pay Finset.univ)) x).toNat < S131072x128.size gathers_S131072x128_S128x128.axis) :
    SparseCore.gatherPayload gathers_S131072x128_S128x128
        (((cTV).slice (Rect.unit (s := S131072x128) ![0, 0] S131072x128.size inb_S131072x128_S131072x128_0_0) (fun _ => rfl)).view.read (Elt F) (m (cLoc d)))
        (SparseCore.rows (((ixS).slice (Rect.unit (s := S512) ![off] S128.size inbI) (fun _ => rfl)).view.read (Elt F)
          (View.write (Elt F) (ixS).view fx pay Finset.univ)) hn hin)
      = (((coV).slice (Rect.unit (s := S2x8192x128) (k0_off2 L (BitVec.ofNat 32 (128 * r.val))) S1x128x128.size inbO) (fun _ => rfl)).squeeze S128x128
          squeezes_S1x128x128_S128x128).view.read (Elt F) (CosV m d) := by
  subst hpay hoff
  funext y
  -- the fetched word the landing's row `y 0` is named by, and its place in the index array
  let zz : S128.Idx := S128.rowMajor.symm ((y gathers_S131072x128_S128x128.axis').cast hn.symm)
  have hzz : (zz 0).val = (y 0).val := by
    have h1 := Shape.rowMajor_val_one (d := ![128]) zz
    rw [← h1]
    show (S128.rowMajor (S128.rowMajor.symm _)).val = _
    rw [Equiv.apply_symm_apply]
    rfl
  let z' : S512.Idx := ((ixS).slice (Rect.unit (s := S512) ![128 * r.val] S128.size inbI) (fun _ => rfl)).view.emb zz
  have hz' : (z' 0).val = 128 * r.val + (y 0).val := by
    show (![128 * r.val] : Fin 1 → Nat) 0 + 1 * (zz 0).val = _
    rw [hzz]; simp
  let p : Spec.SIdx.Idx := (iRowK L).view.emb z'
  have hword : (((ixS).slice (Rect.unit (s := S512) ![128 * r.val] S128.size inbI) (fun _ => rfl)).view.read (Elt F)
      (View.write (Elt F) (ixS).view fx ((iRowK L).view.read (Elt F) (m (iLoc d))) Finset.univ)) zz = (m (iLoc d) : Spec.SIdx.Idx → BitVec 32) p := by
    rw [View.write_whole_univ, View.read_apply]
    show (iRowK L).view.read (Elt F) (m (iLoc d)) z' = _
    exact (View.read_apply _ _).trans (cast_eq _ _)
  have hp := iRowK_emb_val L z'
  have hj := coRow_emb_val L r inbO y
  rw [show ∀ f, (((coV).slice (Rect.unit (s := S2x8192x128) (k0_off2 L (BitVec.ofNat 32 (128 * r.val))) S1x128x128.size inbO) (fun _ => rfl)).squeeze S128x128
          squeezes_S1x128x128_S128x128).view.read (Elt F) f y = f _ from fun f => (View.read_apply _ _).trans (cast_eq _ _)]
  unfold SparseCore.gatherPayload
  rw [show ∀ x, ((cTV).slice (Rect.unit (s := S131072x128) ![0, 0] S131072x128.size inb_S131072x128_S131072x128_0_0) (fun _ => rfl)).view.read (Elt F) (m (cLoc d)) x
      = (m (cLoc d)) _ from fun x => (View.read_apply _ _).trans (cast_eq _ _)]
  symm
  refine takeRows_of_vals (m (cLoc d) : Spec.STab.Idx → Elt F .f32) (m (iLoc d) : Spec.SIdx.Idx → BitVec 32) _ p _ ?_ ?_ ?_ ?_ ?_
  · rw [hp.1]; exact hj.1.symm
  · rw [hp.2, hz']; rw [hj.2.1]; omega
  · exact lt_of_le_of_lt (hpre d p) (by decide)
  · show (![0, 0] : Fin 2 → Nat) 0 + 1 * ((gathers_S131072x128_S128x128.idx _ y) gathers_S131072x128_S128x128.axis).val = _
    rw [Shape.Gathers.idx_axis]
    refine Eq.trans ?_ (congrArg BitVec.toNat hword)
    show 0 + 1 * _ = _
    rw [Nat.zero_add, Nat.one_mul]
    rfl
  · show (![0, 0] : Fin 2 → Nat) 1 + 1 * ((gathers_S131072x128_S128x128.idx _ y) 1).val = _
    rw [Shape.Gathers.idx_of_ne _ _ _ 1 (by decide), hj.2.2]
    simp

/-- What a gather of table rows at window `off = 128 r` of the fetched row numbers lands is, entry by entry, what the
    specification holds on chunk `r` of the worker's output rows: row `k` of the landing is the table's row named by
    fetched word `off + k`, which is the index array's entry at position `(w % 16) · 512 + 128 r + k` of batch row
    `w / 16`, the position of the chunk's row `k`. -/
theorem gather_sin (hpre : PreOK m) (fx : Buf (Elt F) ((V d (cV L) (jV L)).loc cc0_scratch0)) (pay : S512.Idx → Elt F .i32)
    (hpay : pay = (iRowK L).view.read (Elt F) (m (iLoc d))) (r : Fin 4) (off : Nat) (hoff : off = 128 * r.val)
    (inbI : ∀ a, (![off] : Fin 1 → Nat) a + S128.size a ≤ S512.size a) (inbO)
    (hn : S128.numel = S128x128.size gathers_S131072x128_S128x128.axis')
    (hin : ∀ x, ((((ixS).slice (Rect.unit (s := S512) ![off] S128.size inbI) (fun _ => rfl)).view.read (Elt F)
      (View.write (Elt F) (ixS).view fx pay Finset.univ)) x).toNat < S131072x128.size gathers_S131072x128_S128x128.axis) :
    SparseCore.gatherPayload gathers_S131072x128_S128x128
        (((sTV).slice (Rect.unit (s := S131072x128) ![0, 0] S131072x128.size inb_S131072x128_S131072x128_0_0) (fun _ => rfl)).view.read (Elt F) (m (sLoc d)))
        (SparseCore.rows (((ixS).slice (Rect.unit (s := S512) ![off] S128.size inbI) (fun _ => rfl)).view.read (Elt F)
          (View.write (Elt F) (ixS).view fx pay Finset.univ)) hn hin)
      = (((soV).slice (Rect.unit (s := S2x8192x128) (k0_off2 L (BitVec.ofNat 32 (128 * r.val))) S1x128x128.size inbO) (fun _ => rfl)).squeeze S128x128
          squeezes_S1x128x128_S128x128).view.read (Elt F) (SinV m d) := by
  subst hpay hoff
  funext y
  -- the fetched word the landing's row `y 0` is named by, and its place in the index array
  let zz : S128.Idx := S128.rowMajor.symm ((y gathers_S131072x128_S128x128.axis').cast hn.symm)
  have hzz : (zz 0).val = (y 0).val := by
    have h1 := Shape.rowMajor_val_one (d := ![128]) zz
    rw [← h1]
    show (S128.rowMajor (S128.rowMajor.symm _)).val = _
    rw [Equiv.apply_symm_apply]
    rfl
  let z' : S512.Idx := ((ixS).slice (Rect.unit (s := S512) ![128 * r.val] S128.size inbI) (fun _ => rfl)).view.emb zz
  have hz' : (z' 0).val = 128 * r.val + (y 0).val := by
    show (![128 * r.val] : Fin 1 → Nat) 0 + 1 * (zz 0).val = _
    rw [hzz]; simp
  let p : Spec.SIdx.Idx := (iRowK L).view.emb z'
  have hword : (((ixS).slice (Rect.unit (s := S512) ![128 * r.val] S128.size inbI) (fun _ => rfl)).view.read (Elt F)
      (View.write (Elt F) (ixS).view fx ((iRowK L).view.read (Elt F) (m (iLoc d))) Finset.univ)) zz = (m (iLoc d) : Spec.SIdx.Idx → BitVec 32) p := by
    rw [View.write_whole_univ, View.read_apply]
    show (iRowK L).view.read (Elt F) (m (iLoc d)) z' = _
    exact (View.read_apply _ _).trans (cast_eq _ _)
  have hp := iRowK_emb_val L z'
  have hj := soRow_emb_val L r inbO y
  rw [show ∀ f, (((soV).slice (Rect.unit (s := S2x8192x128) (k0_off2 L (BitVec.ofNat 32 (128 * r.val))) S1x128x128.size inbO) (fun _ => rfl)).squeeze S128x128
          squeezes_S1x128x128_S128x128).view.read (Elt F) f y = f _ from fun f => (View.read_apply _ _).trans (cast_eq _ _)]
  unfold SparseCore.gatherPayload
  rw [show ∀ x, ((sTV).slice (Rect.unit (s := S131072x128) ![0, 0] S131072x128.size inb_S131072x128_S131072x128_0_0) (fun _ => rfl)).view.read (Elt F) (m (sLoc d)) x
      = (m (sLoc d)) _ from fun x => (View.read_apply _ _).trans (cast_eq _ _)]
  symm
  refine takeRows_of_vals (m (sLoc d) : Spec.STab.Idx → Elt F .f32) (m (iLoc d) : Spec.SIdx.Idx → BitVec 32) _ p _ ?_ ?_ ?_ ?_ ?_
  · rw [hp.1]; exact hj.1.symm
  · rw [hp.2, hz']; rw [hj.2.1]; omega
  · exact lt_of_le_of_lt (hpre d p) (by decide)
  · show (![0, 0] : Fin 2 → Nat) 0 + 1 * ((gathers_S131072x128_S128x128.idx _ y) gathers_S131072x128_S128x128.axis).val = _
    rw [Shape.Gathers.idx_axis]
    refine Eq.trans ?_ (congrArg BitVec.toNat hword)
    show 0 + 1 * _ = _
    rw [Nat.zero_add, Nat.one_mul]
    rfl
  · show (![0, 0] : Fin 2 → Nat) 1 + 1 * ((gathers_S131072x128_S128x128.idx _ y) 1).val = _
    rw [Shape.Gathers.idx_of_ne _ _ _ 1 (by decide), hj.2.2]
    simp

/-- Reading one slot of a staging buffer through a write to ANOTHER slot reads what was there before: a slot is the
    set of entries whose leading coordinate is the slot's number. -/
theorem cb_skip (a b : Nat) (ha : ∀ x, (![a, 0, 0] : Fin 3 → Nat) x + S1x128x128.size x ≤ S3x128x128.size x)
    (hb : ∀ x, (![b, 0, 0] : Fin 3 → Nat) x + S1x128x128.size x ≤ S3x128x128.size x) (hab : a ≠ b)
    (f : (cbS).view.ty.Contents (Elt F)) (g : S128x128.Idx → Elt F .f32) :
    (((cbS).slice (Rect.unit (s := S3x128x128) ![a, 0, 0] S1x128x128.size ha) (fun _ => rfl)).squeeze S128x128 squeezes_S1x128x128_S128x128).view.read (Elt F)
        ((((cbS).slice (Rect.unit (s := S3x128x128) ![b, 0, 0] S1x128x128.size hb) (fun _ => rfl)).squeeze S128x128 squeezes_S1x128x128_S128x128).view.write (Elt F) f g Finset.univ)
      = (((cbS).slice (Rect.unit (s := S3x128x128) ![a, 0, 0] S1x128x128.size ha) (fun _ => rfl)).squeeze S128x128 squeezes_S1x128x128_S128x128).view.read (Elt F) f := by
  funext x
  rw [View.read_apply, View.read_apply]
  congr 1
  refine View.write_of_not_mem _ _ _ ?_
  rw [View.setOn_univ]
  show _ ∉ ((((cbS).view.slice (Rect.unit (s := S3x128x128) ![b, 0, 0] S1x128x128.size hb)).reshape S128x128 squeezes_S1x128x128_S128x128.numel_eq)).set
  rw [View.set_reshape, View.set_slice_whole, Rect.mem_set_unit]
  intro h
  have h0 := h 0
  have hc := Shape.reshapeEquiv_cons_one (n := 2) (d := ![128, 128]) squeezes_S1x128x128_S128x128.numel_eq x
  have he : ((((((cbS).slice (Rect.unit (s := S3x128x128) ![a, 0, 0] S1x128x128.size ha) (fun _ => rfl)).squeeze S128x128 squeezes_S1x128x128_S128x128).view.emb x : S3x128x128.Idx)) 0).val = a := by
    show (![a, 0, 0] : Fin 3 → Nat) 0 + 1 * ((Shape.reshapeEquiv squeezes_S1x128x128_S128x128.numel_eq x) 0).val = _
    rw [hc]
    simp
    rfl
  rw [he] at h0
  simp at h0
  omega

/-- Reading one slot of a staging buffer through a write to ANOTHER slot reads what was there before: a slot is the
    set of entries whose leading coordinate is the slot's number. -/
theorem sb_skip (a b : Nat) (ha : ∀ x, (![a, 0, 0] : Fin 3 → Nat) x + S1x128x128.size x ≤ S4x128x128.size x)
    (hb : ∀ x, (![b, 0, 0] : Fin 3 → Nat) x + S1x128x128.size x ≤ S4x128x128.size x) (hab : a ≠ b)
    (f : (sbS).view.ty.Contents (Elt F)) (g : S128x128.Idx → Elt F .f32) :
    (((sbS).slice (Rect.unit (s := S4x128x128) ![a, 0, 0] S1x128x128.size ha) (fun _ => rfl)).squeeze S128x128 squeezes_S1x128x128_S128x128).view.read (Elt F)
        ((((sbS).slice (Rect.unit (s := S4x128x128) ![b, 0, 0] S1x128x128.size hb) (fun _ => rfl)).squeeze S128x128 squeezes_S1x128x128_S128x128).view.write (Elt F) f g Finset.univ)
      = (((sbS).slice (Rect.unit (s := S4x128x128) ![a, 0, 0] S1x128x128.size ha) (fun _ => rfl)).squeeze S128x128 squeezes_S1x128x128_S128x128).view.read (Elt F) f := by
  funext x
  rw [View.read_apply, View.read_apply]
  congr 1
  refine View.write_of_not_mem _ _ _ ?_
  rw [View.setOn_univ]
  show _ ∉ ((((sbS).view.slice (Rect.unit (s := S4x128x128) ![b, 0, 0] S1x128x128.size hb)).reshape S128x128 squeezes_S1x128x128_S128x128.numel_eq)).set
  rw [View.set_reshape, View.set_slice_whole, Rect.mem_set_unit]
  intro h
  have h0 := h 0
  have hc := Shape.reshapeEquiv_cons_one (n := 2) (d := ![128, 128]) squeezes_S1x128x128_S128x128.numel_eq x
  have he : ((((((sbS).slice (Rect.unit (s := S4x128x128) ![a, 0, 0] S1x128x128.size ha) (fun _ => rfl)).squeeze S128x128 squeezes_S1x128x128_S128x128).view.emb x : S4x128x128.Idx)) 0).val = a := by
    show (![a, 0, 0] : Fin 3 → Nat) 0 + 1 * ((Shape.reshapeEquiv squeezes_S1x128x128_S128x128.numel_eq x) 0).val = _
    rw [hc]
    simp
    rfl
  rw [he] at h0
  simp at h0
  omega

/-- A buffer held by a view's own elements is held at any contents the view reads alike. -/
theorem pts_of_read (c : Thread nD τ) {sp : Space} {s : Shape} {e : EltTy} (v : View sig c.2.kind sp s e) (q : PosShare TreeShare)
    (f h : Buf (Elt F) (v.loc c)) (hr : v.read (Elt F) f = v.read (Elt F) h) :
    (v.loc c ↦[v.set]{q} f : sProp 𝕄) = v.loc c ↦[v.set]{q} h := by
  refine pointsTo_congr fun i hi => ?_
  obtain ⟨y, -, rfl⟩ := Finset.mem_map.mp hi
  have h1 := congrFun hr y
  rw [View.read_apply, View.read_apply] at h1
  exact eq_of_heq ((cast_heq _ _).symm.trans ((heq_of_eq h1).trans (cast_heq _ _)))

end Tile

end Cert.Proof.KI

end
-- ==== Proof.KiBody.lean ====
/-
  One worker's run. The worker copies its 512 row numbers into its index scratch and waits; starts the lookups of the
  first three chunks in the cosine table and all four in the sine table, each into its own staging slot on its own
  semaphore; then chunk by chunk waits for a lookup and starts the copy of the slot to its place in the result (the
  fourth cosine lookup reuses slot 0 once slot 0's copy-out has been waited for); and at the end waits for the copies
  still out. No two transfers are ever outstanding on one semaphore, and no slot is touched between the start of a
  transfer on it and its wait. The lookups read their row numbers and the tables through read shares; each takes
  a half, quarter or eighth of the worker's own and gives it back at its wait. At the end each chunk of each result
  holds what the specification says (`gather_cos`, `gather_sin`).
-/
import proofs.«218912_g8761733284177_cont_9to1c4b_297_17_alg».proof.Proof.KiValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg1_scv : Memref Cert.KernelIdeal.sig Kind.scVector Space.hbm Cert.KernelIdeal.S2x8192 EltTy.i32)
local notation "cTV" => (Memref.whole Cert.KernelIdeal.main_arg2_scv : Memref Cert.KernelIdeal.sig Kind.scVector Space.hbm Cert.KernelIdeal.S131072x128 EltTy.f32)
local notation "sTV" => (Memref.whole Cert.KernelIdeal.main_arg3_scv : Memref Cert.KernelIdeal.sig Kind.scVector Space.hbm Cert.KernelIdeal.S131072x128 EltTy.f32)
local notation "coV" => (Memref.whole Cert.KernelIdeal.main_v0_0_scv : Memref Cert.KernelIdeal.sig Kind.scVector Space.hbm Cert.KernelIdeal.S2x8192x128 EltTy.f32)
local notation "soV" => (Memref.whole Cert.KernelIdeal.main_v0_1_scv : Memref Cert.KernelIdeal.sig Kind.scVector Space.hbm Cert.KernelIdeal.S2x8192x128 EltTy.f32)
local notation "ixS" => (Memref.whole Cert.KernelIdeal.cc0_scratch0 : Memref Cert.KernelIdeal.sig Kind.scVector Space.vmem Cert.KernelIdeal.S512 EltTy.i32)
local notation "cbS" => (Memref.whole Cert.KernelIdeal.cc0_scratch1 : Memref Cert.KernelIdeal.sig Kind.scVector Space.vmem Cert.KernelIdeal.S3x128x128 EltTy.f32)
local notation "sbS" => (Memref.whole Cert.KernelIdeal.cc0_scratch2 : Memref Cert.KernelIdeal.sig Kind.scVector Space.vmem Cert.KernelIdeal.S4x128x128 EltTy.f32)

variable [FloatOps F]

section Tile

variable (d : Dev nD) (L : grid0.Coords)

theorem goP_four (c : Fin 2) (i : Fin 16) : goP m d c i =
  iprop((iLoc d ↦[Spec.idxBlk c i]{fullShare} m (iLoc d)) ∗ (cLoc d ↦{tq c i} m (cLoc d)) ∗ (sLoc d ↦{tq c i} m (sLoc d))
    ∗ ((coLoc d ↦[Spec.outBlk c i 0]{fullShare} m (coLoc d)) ∗ (coLoc d ↦[Spec.outBlk c i 1]{fullShare} m (coLoc d))
        ∗ (coLoc d ↦[Spec.outBlk c i 2]{fullShare} m (coLoc d)) ∗ (coLoc d ↦[Spec.outBlk c i 3]{fullShare} m (coLoc d)))
    ∗ ((soLoc d ↦[Spec.outBlk c i 0]{fullShare} m (soLoc d)) ∗ (soLoc d ↦[Spec.outBlk c i 1]{fullShare} m (soLoc d))
        ∗ (soLoc d ↦[Spec.outBlk c i 2]{fullShare} m (soLoc d)) ∗ (soLoc d ↦[Spec.outBlk c i 3]{fullShare} m (soLoc d)))) := by
  unfold goP
  rw [show (Finset.univ : Finset (Fin 4)) = {0, 1, 2, 3} by decide]
  simp only [SparseCore.bigSep_insert' (show (0 : Fin 4) ∉ ({1, 2, 3} : Finset (Fin 4)) by decide),
    SparseCore.bigSep_insert' (show (1 : Fin 4) ∉ ({2, 3} : Finset (Fin 4)) by decide),
    SparseCore.bigSep_insert' (show (2 : Fin 4) ∉ ({3} : Finset (Fin 4)) by decide), bigSep_singleton]

theorem tdP_four (c : Fin 2) (i : Fin 16) : tdP m d c i =
  iprop((iLoc d ↦[Spec.idxBlk c i]{fullShare} m (iLoc d)) ∗ (cLoc d ↦{tq c i} m (cLoc d)) ∗ (sLoc d ↦{tq c i} m (sLoc d))
    ∗ ((coLoc d ↦[Spec.outBlk c i 0]{fullShare} CosV m d) ∗ (coLoc d ↦[Spec.outBlk c i 1]{fullShare} CosV m d)
        ∗ (coLoc d ↦[Spec.outBlk c i 2]{fullShare} CosV m d) ∗ (coLoc d ↦[Spec.outBlk c i 3]{fullShare} CosV m d))
    ∗ ((soLoc d ↦[Spec.outBlk c i 0]{fullShare} SinV m d) ∗ (soLoc d ↦[Spec.outBlk c i 1]{fullShare} SinV m d)
        ∗ (soLoc d ↦[Spec.outBlk c i 2]{fullShare} SinV m d) ∗ (soLoc d ↦[Spec.outBlk c i 3]{fullShare} SinV m d))) := by
  unfold tdP
  rw [show (Finset.univ : Finset (Fin 4)) = {0, 1, 2, 3} by decide]
  simp only [SparseCore.bigSep_insert' (show (0 : Fin 4) ∉ ({1, 2, 3} : Finset (Fin 4)) by decide),
    SparseCore.bigSep_insert' (show (1 : Fin 4) ∉ ({2, 3} : Finset (Fin 4)) by decide),
    SparseCore.bigSep_insert' (show (2 : Fin 4) ∉ ({3} : Finset (Fin 4)) by decide), bigSep_singleton]

/-- A wait recorded at the worker's own index keeps the record within what the launch allows. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 8000000 in
set_option maxRecDepth 65536 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goP m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L cTV (Memref.isWhole_whole _) sTV (Memref.isWhole_whole _) iV (Memref.isWhole_whole _) coV (Memref.isWhole_whole _) soV (Memref.isWhole_whole _)
            ixS (Memref.isWhole_whole _) cbS (Memref.isWhole_whole _) sbS (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scoped0)
          fun _ => iprop(tdP m d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V, goP_four, tdP_four]
  iintro ⟨#Hlv, -, ⟨Hi, Hc, Hs, ⟨Hco0, Hco1, Hco2, Hco3⟩, ⟨Hso0, Hso1, Hso2, Hso3⟩⟩, ⟨⟨%fx, Hx⟩, ⟨%fc, Hcb⟩, ⟨%fs, Hsb⟩, Hbufs⟩,
    ⟨Hm3, Hm4, Hm5, Hm6, Hm7, Hm8, Hm9, Hm10, Hm11, Hm12, Hm13, Hm14, Hm15, Hm16, Hm0⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the arrays, as the worker's memrefs address them
  ihave Hi' := (Entails.of_eq (pts_iRowK (F := F) d L _).symm) $$ Hi
  ihave Hc' := (Entails.of_eq (pts_cTV (F := F) d L _ _).symm) $$ Hc
  ihave Hs' := (Entails.of_eq (pts_sTV (F := F) d L _ _).symm) $$ Hs
  ihave Hco0' := (Entails.of_eq (pts_coRowK0 (F := F) d L _).symm) $$ Hco0
  ihave Hco1' := (Entails.of_eq (pts_coRowK1 (F := F) d L _).symm) $$ Hco1
  ihave Hco2' := (Entails.of_eq (pts_coRowK2 (F := F) d L _).symm) $$ Hco2
  ihave Hco3' := (Entails.of_eq (pts_coRowK3 (F := F) d L _).symm) $$ Hco3
  ihave Hso0' := (Entails.of_eq (pts_soRowK0 (F := F) d L _).symm) $$ Hso0
  ihave Hso1' := (Entails.of_eq (pts_soRowK1 (F := F) d L _).symm) $$ Hso1
  ihave Hso2' := (Entails.of_eq (pts_soRowK2 (F := F) d L _).symm) $$ Hso2
  ihave Hso3' := (Entails.of_eq (pts_soRowK3 (F := F) d L _).symm) $$ Hso3
  ihave Hx' := (Entails.of_eq (pts_ixS (F := F) d L _).symm) $$ Hx
  ihave Hcb' := (Entails.of_eq (pts_cbS (F := F) d L _).symm) $$ Hcb
  ihave Hsb' := (Entails.of_eq (pts_sbS (F := F) d L _).symm) $$ Hsb
  -- each table's share in quarters: up to four lookups read a table at once
  ihave Hc4 := (Entails.of_eq (pts_quarter (F := F) Finset.univ _ _)) $$ Hc'
  icases Hc4 with ⟨⟨Hc1, Hc2⟩, ⟨Hc3, Hc4⟩⟩
  ihave Hs4 := (Entails.of_eq (pts_quarter (F := F) Finset.univ _ _)) $$ Hs'
  icases Hs4 with ⟨⟨Hs1, Hs2⟩, ⟨Hs3, Hs4⟩⟩
  -- the fetch of the row numbers, and its wait
  sl_exec
  -- the fetched words name rows of the tables, window by window
  have hin0 := inb_of_pre m d L hpre fx (tile_body.sl.dma0 m d L) rfl ![0] inb_S512_S128_0
  have hin1 := inb_of_pre m d L hpre fx (tile_body.sl.dma0 m d L) rfl ![128] inb_S512_S128_128
  have hin2 := inb_of_pre m d L hpre fx (tile_body.sl.dma0 m d L) rfl ![256] inb_S512_S128_256
  have hin3 := inb_of_pre m d L hpre fx (tile_body.sl.dma0 m d L) rfl ![384] inb_S512_S128_384
  -- the index scratch in eighths: up to seven lookups read their row numbers at once
  ihave Hx8 := (Entails.of_eq (pts_eighth (F := F) Finset.univ _ _)) $$ Hx'
  icases Hx8 with ⟨⟨⟨Hx1, Hx2⟩, ⟨Hx3, Hx4⟩⟩, ⟨⟨Hx5, Hx6⟩, ⟨Hx7, Hx8⟩⟩⟩
  -- the lookups, their waits, the copies out, their waits
  sl_exec
  -- what each chunk now holds is the specification's
  have e0 : tile_body.sl.dma0_1 m d L fx fc hin0 hin1 hin2 = (coRowK0 L).view.read (Elt F) (CosV m d) := by
    unfold tile_body.sl.dma0_1
    simp only [ReadAs.apply_same, cb_skip 0 1 _ _ (by decide), cb_skip 0 2 _ _ (by decide), cb_skip 1 0 _ _ (by decide), cb_skip 1 2 _ _ (by decide), cb_skip 2 0 _ _ (by decide), cb_skip 2 1 _ _ (by decide), View.read_write_univ]
    exact gather_cos m d L hpre fx _ rfl 0 0 rfl _ _ _ _
  have e1 : tile_body.sl.dma0_3 m d L fx fc hin0 hin1 hin2 hin3 = (coRowK1 L).view.read (Elt F) (CosV m d) := by
    unfold tile_body.sl.dma0_3
    simp only [ReadAs.apply_same, cb_skip 0 1 _ _ (by decide), cb_skip 0 2 _ _ (by decide), cb_skip 1 0 _ _ (by decide), cb_skip 1 2 _ _ (by decide), cb_skip 2 0 _ _ (by decide), cb_skip 2 1 _ _ (by decide), View.read_write_univ]
    exact gather_cos m d L hpre fx _ rfl 1 128 rfl _ _ _ _
  have e2 : tile_body.sl.dma0_5 m d L fx fc hin0 hin1 hin2 hin3 = (coRowK2 L).view.read (Elt F) (CosV m d) := by
    unfold tile_body.sl.dma0_5
    simp only [ReadAs.apply_same, cb_skip 0 1 _ _ (by decide), cb_skip 0 2 _ _ (by decide), cb_skip 1 0 _ _ (by decide), cb_skip 1 2 _ _ (by decide), cb_skip 2 0 _ _ (by decide), cb_skip 2 1 _ _ (by decide), View.read_write_univ]
    exact gather_cos m d L hpre fx _ rfl 2 256 rfl _ _ _ _
  have e3 : tile_body.sl.dma0_7 m d L fx fc hin0 hin1 hin2 hin3 = (coRowK3 L).view.read (Elt F) (CosV m d) := by
    unfold tile_body.sl.dma0_7
    simp only [ReadAs.apply_same, cb_skip 0 1 _ _ (by decide), cb_skip 0 2 _ _ (by decide), cb_skip 1 0 _ _ (by decide), cb_skip 1 2 _ _ (by decide), cb_skip 2 0 _ _ (by decide), cb_skip 2 1 _ _ (by decide), View.read_write_univ]
    exact gather_cos m d L hpre fx _ rfl 3 384 rfl _ _ _ _
  have f0 : tile_body.sl.dma0_2 m d L fx fs hin0 hin1 hin2 hin3 = (soRowK0 L).view.read (Elt F) (SinV m d) := by
    unfold tile_body.sl.dma0_2
    simp only [ReadAs.apply_same, sb_skip 0 1 _ _ (by decide), sb_skip 0 2 _ _ (by decide), sb_skip 0 3 _ _ (by decide), sb_skip 1 2 _ _ (by decide), sb_skip 1 3 _ _ (by decide), sb_skip 2 3 _ _ (by decide), View.read_write_univ]
    exact gather_sin m d L hpre fx _ rfl 0 0 rfl _ _ _ _
  have f1 : tile_body.sl.dma0_4 m d L fx fs hin0 hin1 hin2 hin3 = (soRowK1 L).view.read (Elt F) (SinV m d) := by
    unfold tile_body.sl.dma0_4
    simp only [ReadAs.apply_same, sb_skip 0 1 _ _ (by decide), sb_skip 0 2 _ _ (by decide), sb_skip 0 3 _ _ (by decide), sb_skip 1 2 _ _ (by decide), sb_skip 1 3 _ _ (by decide), sb_skip 2 3 _ _ (by decide), View.read_write_univ]
    exact gather_sin m d L hpre fx _ rfl 1 128 rfl _ _ _ _
  have f2 : tile_body.sl.dma0_6 m d L fx fs hin0 hin1 hin2 hin3 = (soRowK2 L).view.read (Elt F) (SinV m d) := by
    unfold tile_body.sl.dma0_6
    simp only [ReadAs.apply_same, sb_skip 0 1 _ _ (by decide), sb_skip 0 2 _ _ (by decide), sb_skip 0 3 _ _ (by decide), sb_skip 1 2 _ _ (by decide), sb_skip 1 3 _ _ (by decide), sb_skip 2 3 _ _ (by decide), View.read_write_univ]
    exact gather_sin m d L hpre fx _ rfl 2 256 rfl _ _ _ _
  have f3 : tile_body.sl.dma0_8 m d L fx fs hin0 hin1 hin2 hin3 = (soRowK3 L).view.read (Elt F) (SinV m d) := by
    unfold tile_body.sl.dma0_8
    simp only [ReadAs.apply_same, sb_skip 0 1 _ _ (by decide), sb_skip 0 2 _ _ (by decide), sb_skip 0 3 _ _ (by decide), sb_skip 1 2 _ _ (by decide), sb_skip 1 3 _ _ (by decide), sb_skip 2 3 _ _ (by decide), View.read_write_univ]
    exact gather_sin m d L hpre fx _ rfl 3 384 rfl _ _ _ _
  ihave Hcf0 := (Entails.of_eq ((pts_of_read (F := F) (V d (cV L) (jV L)) (coRowK0 L).view fullShare _ (CosV m d)
      ((View.read_writes_whole _ _ _).trans e0)).trans (pts_coRowK0 (F := F) d L (CosV m d)))) $$ Hco0'
  ihave Hcf1 := (Entails.of_eq ((pts_of_read (F := F) (V d (cV L) (jV L)) (coRowK1 L).view fullShare _ (CosV m d)
      ((View.read_writes_whole _ _ _).trans e1)).trans (pts_coRowK1 (F := F) d L (CosV m d)))) $$ Hco1'
  ihave Hcf2 := (Entails.of_eq ((pts_of_read (F := F) (V d (cV L) (jV L)) (coRowK2 L).view fullShare _ (CosV m d)
      ((View.read_writes_whole _ _ _).trans e2)).trans (pts_coRowK2 (F := F) d L (CosV m d)))) $$ Hco2'
  ihave Hcf3 := (Entails.of_eq ((pts_of_read (F := F) (V d (cV L) (jV L)) (coRowK3 L).view fullShare _ (CosV m d)
      ((View.read_writes_whole _ _ _).trans e3)).trans (pts_coRowK3 (F := F) d L (CosV m d)))) $$ Hco3'
  ihave Hsf0 := (Entails.of_eq ((pts_of_read (F := F) (V d (cV L) (jV L)) (soRowK0 L).view fullShare _ (SinV m d)
      ((View.read_writes_whole _ _ _).trans f0)).trans (pts_soRowK0 (F := F) d L (SinV m d)))) $$ Hso0'
  ihave Hsf1 := (Entails.of_eq ((pts_of_read (F := F) (V d (cV L) (jV L)) (soRowK1 L).view fullShare _ (SinV m d)
      ((View.read_writes_whole _ _ _).trans f1)).trans (pts_soRowK1 (F := F) d L (SinV m d)))) $$ Hso1'
  ihave Hsf2 := (Entails.of_eq ((pts_of_read (F := F) (V d (cV L) (jV L)) (soRowK2 L).view fullShare _ (SinV m d)
      ((View.read_writes_whole _ _ _).trans f2)).trans (pts_soRowK2 (F := F) d L (SinV m d)))) $$ Hso2'
  ihave Hsf3 := (Entails.of_eq ((pts_of_read (F := F) (V d (cV L) (jV L)) (soRowK3 L).view fullShare _ (SinV m d)
      ((View.read_writes_whole _ _ _).trans f3)).trans (pts_soRowK3 (F := F) d L (SinV m d)))) $$ Hso3'
  sl_step
  isplitl [Hi' Hc1 Hc2 Hc3 Hc4 Hs1 Hs2 Hs3 Hs4 Hcf0 Hcf1 Hcf2 Hcf3 Hsf0 Hsf1 Hsf2 Hsf3]
  · isplitl [Hi']; · iapply (Entails.of_eq (pts_iRowK (F := F) d L _)); iexact Hi'
    isplitl [Hc1 Hc2 Hc3 Hc4]
    · iapply (Entails.of_eq (pts_cTV (F := F) d L _ _))
      iapply (Entails.of_eq (pts_quarter (F := F) Finset.univ _ _).symm)
      isplitl [Hc1 Hc2]
      · isplitl [Hc1] <;> iassumption
      · isplitl [Hc3] <;> iassumption
    isplitl [Hs1 Hs2 Hs3 Hs4]
    · iapply (Entails.of_eq (pts_sTV (F := F) d L _ _))
      iapply (Entails.of_eq (pts_quarter (F := F) Finset.univ _ _).symm)
      isplitl [Hs1 Hs2]
      · isplitl [Hs1] <;> iassumption
      · isplitl [Hs3] <;> iassumption
    isplitl [Hcf0 Hcf1 Hcf2 Hcf3]
    · isplitl [Hcf0]; · iexact Hcf0
      isplitl [Hcf1]; · iexact Hcf1
      isplitl [Hcf2]; · iexact Hcf2
      iexact Hcf3
    · isplitl [Hsf0]; · iexact Hsf0
      isplitl [Hsf1]; · iexact Hsf1
      isplitl [Hsf2]; · iexact Hsf2
      iexact Hsf3
  isplitl [Hx1 Hx2 Hx3 Hx4 Hx5 Hx6 Hx7 Hx8 Hcb' Hsb' Hbufs]
  · isplitl [Hx1 Hx2 Hx3 Hx4 Hx5 Hx6 Hx7 Hx8]
    · iexists _
      iapply (Entails.of_eq (pts_ixS (F := F) d L _))
      iapply (Entails.of_eq (pts_eighth (F := F) Finset.univ _ _).symm)
      isplitl [Hx1 Hx2 Hx3 Hx4]
      · isplitl [Hx1 Hx2]
        · isplitl [Hx1] <;> iassumption
        · isplitl [Hx3] <;> iassumption
      · isplitl [Hx5 Hx6]
        · isplitl [Hx5] <;> iassumption
        · isplitl [Hx7] <;> iassumption
    isplitl [Hcb']; · iexists _; iapply (Entails.of_eq (pts_cbS (F := F) d L _)); iexact Hcb'
    isplitl [Hsb']; · iexists _; iapply (Entails.of_eq (pts_sbS (F := F) d L _)); iexact Hsb'
    iexact Hbufs
  isplitl [Hm3 Hm4 Hm5 Hm6 Hm7 Hm8 Hm9 Hm10 Hm11 Hm12 Hm13 Hm14 Hm15 Hm16 Hm0]
  · isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    iexact Hm0
  iexists _; isplitr
  swap; · iexact HO
  ipureintro
  repeat (first | exact fun p hp => Or.inl hp | refine waits_insert _ ?_)

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          cTV (Memref.isWhole_whole _) sTV (Memref.isWhole_whole _) iV (Memref.isWhole_whole _) coV (Memref.isWhole_whole _) soV (Memref.isWhole_whole _)
          ixS (Memref.isWhole_whole _) cbS (Memref.isWhole_whole _) sbS (Memref.isWhole_whole _)
          cc0_scratch3 cc0_scratch4 cc0_scratch5 cc0_scratch6 cc0_scratch7 cc0_scratch8 cc0_scratch9 cc0_scratch10 cc0_scratch11 cc0_scratch12
          cc0_scratch13 cc0_scratch14 cc0_scratch15 cc0_scratch16 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KI

end
-- ==== Proof.KiLaunch.lean ====
/-
  The launch side of the lookup kernel's run: how the arrays @main holds whole are dealt to the thirty-two workers and
  gathered again, and the run of the whole program from the workers' obligation.
  Before the one call the TensorCore holds the index array, the two tables and the two results whole. The index array
  is the disjoint union of the workers' blocks of positions, each result the disjoint union of the workers' chunks of
  rows; each table's full share is thirty-two read shares and a remainder, which the TensorCore keeps across the call.
  Summed over the workers, what they are handed is therefore exactly the five arrays (less the remainders), and what
  they hand back is the same five arrays, the results now at the looked-up rows everywhere: the pieces of a result, all
  read off one function, join to that function on the whole array. The activations are never touched.
-/
import proofs.«218912_g8761733284177_cont_9to1c4b_297_17_alg».proof.Proof.KiCommon
import proofs.«218912_g8761733284177_cont_9to1c4b_297_17_alg».proof.Proof.Blocks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Sums over the cores and subcores of the call, over `Fin 2` and `Fin 16` -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A core's operands are its sixteen workers' -/

theorem vecSplit : (K (F := F)).VecSplit' (P m) 0 := by
  intro d c
  show (bigSep Finset.univ fun i : Fin 16 => goP m d (Fin.cast nCore_zero c) i) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun i : Fin 16 => tdP m d (Fin.cast nCore_zero c) i))
  rw [bigSep_tasks (F := F) (fun i => goP m d (Fin.cast nCore_zero c) i),
    bigSep_tasks (F := F) (fun i => tdP m d (Fin.cast nCore_zero c) i)]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays in pieces -/

/-- Worker `(c, i)` has number `2 i + c`: the thirty-two workers are numbered once each. -/
def wEquiv : Fin 2 × Fin 16 ≃ Fin 32 where
  toFun p := ⟨2 * p.2.val + p.1.val, by have := p.1.isLt; have := p.2.isLt; omega⟩
  invFun k := (⟨k.val % 2, Nat.mod_lt _ (by decide)⟩, ⟨k.val / 2, by have := k.isLt; omega⟩)
  left_inv p := by
    have h1 := p.1.isLt
    have h2 := p.2.isLt
    apply Prod.ext <;> apply Fin.ext <;> dsimp only <;> omega
  right_inv k := by
    apply Fin.ext; dsimp only; omega

/-- The index array is its thirty-two blocks. -/
theorem iBlocks (d : Dev nD) (f : Buf (Elt F) (iLoc d)) :
    (bigSep Finset.univ fun p : Fin 2 × Fin 16 => (iLoc d ↦[Spec.idxBlk p.1 p.2]{fullShare} f : sProp 𝕄)) = (iLoc d ↦{fullShare} f) := by
  rw [← pointsTo_biUnion Finset.univ (ℓ := iLoc d) (fun p : Fin 2 × Fin 16 => Spec.idxBlk p.1 p.2) Spec.idxBlk_disjoint, Spec.idxBlk_cover]

/-- A result is its hundred and twenty-eight chunks, four to a worker. -/
theorem coBlocks (d : Dev nD) (f : Buf (Elt F) (coLoc d)) :
    (bigSep Finset.univ fun p : Fin 2 × Fin 16 => bigSep Finset.univ fun j : Fin 4 => (coLoc d ↦[Spec.outBlk p.1 p.2 j]{fullShare} f : sProp 𝕄))
      = (coLoc d ↦{fullShare} f) := by
  rw [← bigSep_univ_prod (fun q : (Fin 2 × Fin 16) × Fin 4 => (coLoc d ↦[Spec.outBlk q.1.1 q.1.2 q.2]{fullShare} f : sProp 𝕄)),
    ← pointsTo_biUnion Finset.univ (ℓ := coLoc d) (fun q : (Fin 2 × Fin 16) × Fin 4 => Spec.outBlk q.1.1 q.1.2 q.2) Spec.outBlk_disjoint,
    Spec.outBlk_cover]

theorem soBlocks (d : Dev nD) (f : Buf (Elt F) (soLoc d)) :
    (bigSep Finset.univ fun p : Fin 2 × Fin 16 => bigSep Finset.univ fun j : Fin 4 => (soLoc d ↦[Spec.outBlk p.1 p.2 j]{fullShare} f : sProp 𝕄))
      = (soLoc d ↦{fullShare} f) := by
  rw [← bigSep_univ_prod (fun q : (Fin 2 × Fin 16) × Fin 4 => (soLoc d ↦[Spec.outBlk q.1.1 q.1.2 q.2]{fullShare} f : sProp 𝕄)),
    ← pointsTo_biUnion Finset.univ (ℓ := soLoc d) (fun q : (Fin 2 × Fin 16) × Fin 4 => Spec.outBlk q.1.1 q.1.2 q.2) Spec.outBlk_disjoint,
    Spec.outBlk_cover]

/-- An array's full share is the workers' thirty-two read shares and a remainder. -/
theorem tShares (ℓ : Loc nD τ sig) (f : Buf (Elt F) ℓ) :
    (ℓ ↦{fullShare} f : sProp 𝕄)
      = iprop((ℓ ↦{Transfers.shareDrop fullShare 32} f) ∗ bigSep Finset.univ fun p : Fin 2 × Fin 16 => ℓ ↦{tq p.1 p.2} f) := by
  have h := Transfers.pointsTo_toks (nD := nD) (τ := τ) (sig := sig) (Ix := HIx 1) (Val := Elt F) (Name := ℕ) (U := UU) (Lvl := ℕ)
    (ℓ := ℓ) (S := Finset.univ) (f := f) fullShare 32
  rw [BI.Entails.antisymm h.1 h.2, bigSep_univ_equiv wEquiv]
  rfl

/-- What worker `(c, i)` holds, the results' chunks read off `fc` and `fs`. -/
def wk (d : Dev nD) (fc : Buf (Elt F) (coLoc d)) (fs : Buf (Elt F) (soLoc d)) (c : Fin 2) (i : Fin 16) : sProp 𝕄 :=
  iprop((iLoc d ↦[Spec.idxBlk c i]{fullShare} m (iLoc d)) ∗ (cLoc d ↦{tq c i} m (cLoc d)) ∗ (sLoc d ↦{tq c i} m (sLoc d))
    ∗ (bigSep Finset.univ fun j : Fin 4 => coLoc d ↦[Spec.outBlk c i j]{fullShare} fc)
    ∗ (bigSep Finset.univ fun j : Fin 4 => soLoc d ↦[Spec.outBlk c i j]{fullShare} fs))

theorem goP_eq (d : Dev nD) (c : Fin 2) (i : Fin 16) : goP m d c i = wk m d (m (coLoc d)) (m (soLoc d)) c i := rfl
theorem tdP_eq (d : Dev nD) (c : Fin 2) (i : Fin 16) : tdP m d c i = wk m d (CosV m d) (SinV m d) c i := rfl

/-- All the workers' holdings together: the index array, the tables' read shares, the two results. -/
theorem wk_all (d : Dev nD) (fc : Buf (Elt F) (coLoc d)) (fs : Buf (Elt F) (soLoc d)) :
    (bigSep Finset.univ fun p : Fin 2 × Fin 16 => wk m d fc fs p.1 p.2)
      = iprop((iLoc d ↦{fullShare} m (iLoc d))
          ∗ (bigSep Finset.univ fun p : Fin 2 × Fin 16 => cLoc d ↦{tq p.1 p.2} m (cLoc d))
          ∗ (bigSep Finset.univ fun p : Fin 2 × Fin 16 => sLoc d ↦{tq p.1 p.2} m (sLoc d))
          ∗ (coLoc d ↦{fullShare} fc) ∗ (soLoc d ↦{fullShare} fs)) := by
  unfold wk
  rw [bigSep_sep', bigSep_sep', bigSep_sep', bigSep_sep', iBlocks, coBlocks, soBlocks]

/-- What the cores are handed at the call, and what they hand back, as sums over the workers. -/
theorem st_eq (d : Dev nD) :
    (bigSep Finset.univ fun c : Fin ((K (F := F)).nCore 0) => (P m).st 0 d c)
      = bigSep Finset.univ fun p : Fin 2 × Fin 16 => wk m d (m (coLoc d)) (m (soLoc d)) p.1 p.2 := by
  rw [bigSep_univ_prod]
  exact bigSep_cores (F := F) (fun c => bigSep Finset.univ fun i : Fin 16 => goP m d c i)
theorem dn_eq (d : Dev nD) :
    (bigSep Finset.univ fun c : Fin ((K (F := F)).nCore 0) => (P m).dn 0 d c)
      = bigSep Finset.univ fun p : Fin 2 × Fin 16 => wk m d (CosV m d) (SinV m d) p.1 p.2 := by
  rw [bigSep_univ_prod]
  exact bigSep_cores (F := F) (fun c => bigSep Finset.univ fun i : Fin 16 => tdP m d c i)

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (cLoc d ↦{fullShare} W main_arg2)
      ∗ (sLoc d ↦{fullShare} W main_arg3) ∗ (coLoc d ↦{fullShare} W main_v0_0) ∗ soLoc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

abbrev FIN (d : Dev nD) : sProp 𝕄 :=
  iprop((xLoc d ↦{fullShare} m (xLoc d)) ∗ (iLoc d ↦{fullShare} m (iLoc d)) ∗ (cLoc d ↦{fullShare} m (cLoc d)) ∗ (sLoc d ↦{fullShare} m (sLoc d))
    ∗ (coLoc d ↦{fullShare} CosV m d) ∗ (soLoc d ↦{fullShare} SinV m d))

variable [FloatOps F]

/-- @main on device `d`'s TensorCore: the one call. The arrays go out in pieces and come back in pieces; the tables'
    remainders and the activations stay. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Hc, Hs, Hco, Hso⟩, -, -⟩, -⟩
  ihave Hc' := (Entails.of_eq (tShares (cLoc d) (m (cLoc d)))) $$ Hc
  icases Hc' with ⟨Hcr, Hct⟩
  ihave Hs' := (Entails.of_eq (tShares (sLoc d) (m (sLoc d)))) $$ Hs
  icases Hs' with ⟨Hsr, Hsk⟩
  iapply ((K (F := F)).wp_run (D (F := F)) 𝒱 (EH := EH) (P := P m) κ d 0) $$ [Hst Hx Hi Hcr Hct Hsr Hsk Hco Hso]
  isplitr; · iexact Hctx
  isplitl [Hst]; · iexact Hst
  isplitl [Hi Hct Hsk Hco Hso]
  · rw [st_eq, wk_all]
    isplitl [Hi]; · iexact Hi
    isplitl [Hct]; · iexact Hct
    isplitl [Hsk]; · iexact Hsk
    isplitl [Hco]; · iexact Hco
    iexact Hso
  iintro ⟨Hst, Hdn⟩
  ihave Hdn' := (Entails.of_eq ((dn_eq m d).trans (wk_all m d (CosV m d) (SinV m d)))) $$ Hdn
  icases Hdn' with ⟨Hi, Hct, Hsk, Hco, Hso⟩
  ihave Hc := (Entails.of_eq (tShares (cLoc d) (m (cLoc d))).symm) $$ [Hcr Hct]
  · isplitl [Hcr]; · iexact Hcr
    iexact Hct
  ihave Hs := (Entails.of_eq (tShares (sLoc d) (m (sLoc d))).symm) $$ [Hsr Hsk]
  · isplitl [Hsr]; · iexact Hsr
    iexact Hsk
  imodintro
  isplitl [Hst]; · iexact Hst
  isplitl [Hx]; · iexact Hx
  isplitl [Hi]; · iexact Hi
  isplitl [Hc]; · iexact Hc
  isplitl [Hs]; · iexact Hs
  isplitl [Hco]; · iexact Hco
  iexact Hso

/-! ## The final memory -/

def fq (d : Dev nD) (s' : Phys nD τ sig (Elt F)) : Prop :=
  s'.mem.mem (coLoc d) = CosV m d ∧ s'.mem.mem (soLoc d) = SinV m d ∧ s'.mem.mem (xLoc d) = m (xLoc d) ∧ s'.mem.mem (iLoc d) = m (iLoc d)
    ∧ s'.mem.mem (cLoc d) = m (cLoc d) ∧ s'.mem.mem (sLoc d) = m (sLoc d)

/-- An array held whole at `f` is `f` in the memory. -/
theorem whole_agree (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hx, Hi, Hc, Hs, Hco, Hso⟩, HSI⟩
  ihave H := (whole_agree (xLoc d) (m (xLoc d)) s') $$ [HSI Hx]
  · isplitl [HSI] <;> iassumption
  icases H with ⟨%hx, HSI⟩
  ihave H := (whole_agree (iLoc d) (m (iLoc d)) s') $$ [HSI Hi]
  · isplitl [HSI] <;> iassumption
  icases H with ⟨%hi, HSI⟩
  ihave H := (whole_agree (cLoc d) (m (cLoc d)) s') $$ [HSI Hc]
  · isplitl [HSI] <;> iassumption
  icases H with ⟨%hc, HSI⟩
  ihave H := (whole_agree (sLoc d) (m (sLoc d)) s') $$ [HSI Hs]
  · isplitl [HSI] <;> iassumption
  icases H with ⟨%hs, HSI⟩
  ihave H := (whole_agree (coLoc d) (CosV m d) s') $$ [HSI Hco]
  · isplitl [HSI] <;> iassumption
  icases H with ⟨%hco, HSI⟩
  ihave H := (whole_agree (soLoc d) (SinV m d) s') $$ [HSI Hso]
  · isplitl [HSI] <;> iassumption
  icases H with ⟨%hso, -⟩
  ipureintro; exact ⟨hco, hso, hx, hi, hc, hs⟩

/-! ## The program's run -/

def QC : PUnit × MemSt nD τ sig (Elt F) → Prop := fun r => ∀ c : Dev nD,
  r.2.mem (coLoc c) = CosV m c ∧ r.2.mem (soLoc c) = SinV m c ∧ r.2.mem (xLoc c) = m (xLoc c) ∧ r.2.mem (iLoc c) = m (iLoc c)
    ∧ r.2.mem (cLoc c) = m (cLoc c) ∧ r.2.mem (sLoc c) = m (sLoc c)

/-- Every weakly fair execution of the program from the launch memory ends, and ends with the two results holding the
    looked-up rows and the four arguments unchanged — given each worker's obligation. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KbCommon.lean ====
/-
  The lookup kernel as the SparseCore launch theorem sees it, and what its handshakes carry.
  Thirty-two workers (two cores of sixteen subcores; worker `(c, i)` has number `2 i + c`) each copy their 512 row
  numbers out of the index array, look the rows up in both tables, 128 rows at a time, and copy each chunk of 128 rows
  out to its place in the two results. A worker is handed: its block of the index array; a read share of each table
  (every worker reads rows anywhere in a table, so each table is shared out thirty-two ways); and, of each result, its
  four chunks. It hands the same back, the chunks now holding the looked-up rows (`Spec.takeRows` of the launch
  contents of table and index array). The transfers are all local to a worker, one at a time on each semaphore, so
  beside the handshakes' ghost state the certificate needs only the transfers' counters.
-/
import proofs.«218912_g8761733284177_cont_9to1c4b_297_17_alg».proof.Defs
import proofs.«218912_g8761733284177_cont_9to1c4b_297_17_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«218912_g8761733284177_cont_9to1c4b_297_17_alg».proof.Proof.Gen.Kernel
import proofs.«218912_g8761733284177_cont_9to1c4b_297_17_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The unused activations, the index array, the two tables, the two results, as locations of device `d`. -/
abbrev xLoc (d : Dev nD) : Loc nD τ sig := (SparseCore.T d).loc main_arg0
abbrev iLoc (d : Dev nD) : Loc nD τ sig := (SparseCore.T d).loc main_arg1
abbrev cLoc (d : Dev nD) : Loc nD τ sig := (SparseCore.T d).loc main_arg2
abbrev sLoc (d : Dev nD) : Loc nD τ sig := (SparseCore.T d).loc main_arg3
abbrev coLoc (d : Dev nD) : Loc nD τ sig := (SparseCore.T d).loc main_v0_0
abbrev soLoc (d : Dev nD) : Loc nD τ sig := (SparseCore.T d).loc main_v0_1

/-- What the two results hold at the end: the rows of each table the index array names. -/
abbrev CosV (d : Dev nD) : Buf (Elt F) (coLoc d) :=
  (Spec.takeRows (α := Elt F .f32) (m (cLoc d) : Spec.STab.Idx → Elt F .f32) (m (iLoc d) : Spec.SIdx.Idx → BitVec 32) : Spec.SOut.Idx → Elt F .f32)
abbrev SinV (d : Dev nD) : Buf (Elt F) (soLoc d) :=
  (Spec.takeRows (α := Elt F .f32) (m (sLoc d) : Spec.STab.Idx → Elt F .f32) (m (iLoc d) : Spec.SIdx.Idx → BitVec 32) : Spec.SOut.Idx → Elt F .f32)

/-- Worker `(c, i)`'s read share of a table: one of thirty-two taken off the full share. -/
abbrev tq (c : Fin 2) (i : Fin 16) : PosShare TreeShare :=
  Transfers.shareTok fullShare 32 ⟨2 * i.val + c.val, by omega⟩

/-! ## What the handshakes carry -/

/-- What worker `(c, i)` is handed: its block of the index array, its shares of the tables, its chunks of the results at
    their launch contents; -/
def goP (d : Dev nD) (c : Fin 2) (i : Fin 16) : sProp 𝕄 :=
  iprop((iLoc d ↦[Spec.idxBlk c i]{fullShare} m (iLoc d)) ∗ (cLoc d ↦{tq c i} m (cLoc d)) ∗ (sLoc d ↦{tq c i} m (sLoc d))
    ∗ (bigSep Finset.univ fun j : Fin 4 => coLoc d ↦[Spec.outBlk c i j]{fullShare} m (coLoc d))
    ∗ (bigSep Finset.univ fun j : Fin 4 => soLoc d ↦[Spec.outBlk c i j]{fullShare} m (soLoc d)))

/-- and what it hands back: the same, the chunks holding the looked-up rows. -/
def tdP (d : Dev nD) (c : Fin 2) (i : Fin 16) : sProp 𝕄 :=
  iprop((iLoc d ↦[Spec.idxBlk c i]{fullShare} m (iLoc d)) ∗ (cLoc d ↦{tq c i} m (cLoc d)) ∗ (sLoc d ↦{tq c i} m (sLoc d))
    ∗ (bigSep Finset.univ fun j : Fin 4 => coLoc d ↦[Spec.outBlk c i j]{fullShare} CosV m d)
    ∗ (bigSep Finset.univ fun j : Fin 4 => soLoc d ↦[Spec.outBlk c i j]{fullShare} SinV m d))

instance goP_storable (d : Dev nD) (c : Fin 2) (i : Fin 16) : BI.Storable (upEmb : UEmb _ 𝕄) (goP m d c i) := by
  unfold goP; infer_instance
instance tdP_storable (d : Dev nD) (c : Fin 2) (i : Fin 16) : BI.Storable (upEmb : UEmb _ 𝕄) (tdP m d c i) := by
  unfold tdP; infer_instance

/-- The one call: a core is handed what its sixteen workers are, and hands back what they do. -/
def P : (K (F := F)).Pay (nD := nD) (Val := Elt F) (Name := ℕ) (U := UU) where
  st := fun q d c => match q with | 0 => bigSep Finset.univ fun i : Fin 16 => goP m d (Fin.cast nCore_zero c) i
  dn := fun q d c => match q with | 0 => bigSep Finset.univ fun i : Fin 16 => tdP m d (Fin.cast nCore_zero c) i
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goP m d (Fin.cast nCore_zero c) i))
  dn q d c := match q with
    | 0 => (inferInstance : BI.Storable (upEmb : UEmb _ 𝕄) (bigSep Finset.univ fun i : Fin 16 => tdP m d (Fin.cast nCore_zero c) i))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-- What the proof asks of the launch memory: every row number is at most 16383 (so below the number of rows). -/
def PreOK : Prop := ∀ d : Dev nD, Spec.IdxOK (m (iLoc d) : Spec.SIdx.Idx → BitVec 32)

end Cert.Proof.KB

end
-- ==== Proof.KbTile.lean ====
/-
  One worker of the lookup kernel: the rectangles it addresses, as the program slices them, and that they are the
  specification's blocks; its fifteen transfer semaphores and three scratch buffers among the subcore's own.
  Worker `(L 0, L 1)` (core, subcore) has number `w = 2 (L 1) + (L 0)`; the program computes batch row `w / 16` and first
  position `(w % 16) · 512` (`k0_off1`), and for chunk `r` the first output row `(w % 16) · 512 + 128 r` (`k0_off2`):
  both closed forms are decided over the thirty-two workers.
-/
import proofs.«218912_g8761733284177_cont_9to1c4b_297_17_alg».proof.Proof.KbCommon
import Idealize.ShloMosaic.Lib.Decide
import proofs.«218912_g8761733284177_cont_9to1c4b_297_17_alg».proof.Proof.Blocks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The offsets the program computes, in closed form -/

set_option maxRecDepth 65536 in
theorem k0_off1_eq : ∀ L : grid0.Coords,
    k0_off1 L = ![(2 * (L 1).val + (L 0).val) / 16, (2 * (L 1).val + (L 0).val) % 16 * 512] := by decide +kernel

set_option maxRecDepth 65536 in
theorem k0_off2_eq : ∀ L : grid0.Coords, ∀ r : Fin 4,
    k0_off2 L (BitVec.ofNat 32 (128 * r.val))
      = ![(2 * (L 1).val + (L 0).val) / 16, (2 * (L 1).val + (L 0).val) % 16 * 512 + 128 * r.val, 0] := by decide +kernel

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

theorem wid_L : Spec.wid (cL L) (jL L) = 2 * (L 1).val + (L 0).val := rfl

/-! ## The rectangles the worker addresses -/

local notation "iV" => (Memref.whole Cert.Kernel.main_arg1_scv : Memref Cert.Kernel.sig Kind.scVector Space.hbm Cert.Kernel.S2x8192 EltTy.i32)
local notation "coV" => (Memref.whole Cert.Kernel.main_v0_0_scv : Memref Cert.Kernel.sig Kind.scVector Space.hbm Cert.Kernel.S2x8192x128 EltTy.f32)
local notation "soV" => (Memref.whole Cert.Kernel.main_v0_1_scv : Memref Cert.Kernel.sig Kind.scVector Space.hbm Cert.Kernel.S2x8192x128 EltTy.f32)

abbrev irowK (L : grid0.Coords) : Rect S2x8192 := Rect.unit (s := S2x8192) (k0_off1 L) S1x512.size (k0_off1_inb L)
abbrev orowK0 (L : grid0.Coords) : Rect S2x8192x128 := Rect.unit (s := S2x8192x128) (k0_off2 L 0#32) S1x128x128.size (k0_off2_inb L 0)
abbrev orowK1 (L : grid0.Coords) : Rect S2x8192x128 := Rect.unit (s := S2x8192x128) (k0_off2 L 128#32) S1x128x128.size (k0_off2_inb L 1)
abbrev orowK2 (L : grid0.Coords) : Rect S2x8192x128 := Rect.unit (s := S2x8192x128) (k0_off2 L 256#32) S1x128x128.size (k0_off2_inb L 2)
abbrev orowK3 (L : grid0.Coords) : Rect S2x8192x128 := Rect.unit (s := S2x8192x128) (k0_off2 L 384#32) S1x128x128.size (k0_off2_inb L 3)

/-- The worker's block of the index array, and chunk `r` of each result, squeezed, as the program addresses them. -/
abbrev iRowK (L : grid0.Coords) : Memref sig .scVector .hbm S512 .i32 := ((iV).slice (irowK L) (fun _ => rfl)).squeeze S512 squeezes_S1x512_S512
abbrev coRowK0 (L : grid0.Coords) : Memref sig .scVector .hbm S128x128 .f32 := ((coV).slice (orowK0 L) (fun _ => rfl)).squeeze S128x128 squeezes_S1x128x128_S128x128
abbrev coRowK1 (L : grid0.Coords) : Memref sig .scVector .hbm S128x128 .f32 := ((coV).slice (orowK1 L) (fun _ => rfl)).squeeze S128x128 squeezes_S1x128x128_S128x128
abbrev coRowK2 (L : grid0.Coords) : Memref sig .scVector .hbm S128x128 .f32 := ((coV).slice (orowK2 L) (fun _ => rfl)).squeeze S128x128 squeezes_S1x128x128_S128x128
abbrev coRowK3 (L : grid0.Coords) : Memref sig .scVector .hbm S128x128 .f32 := ((coV).slice (orowK3 L) (fun _ => rfl)).squeeze S128x128 squeezes_S1x128x128_S128x128
abbrev soRowK0 (L : grid0.Coords) : Memref sig .scVector .hbm S128x128 .f32 := ((soV).slice (orowK0 L) (fun _ => rfl)).squeeze S128x128 squeezes_S1x128x128_S128x128
abbrev soRowK1 (L : grid0.Coords) : Memref sig .scVector .hbm S128x128 .f32 := ((soV).slice (orowK1 L) (fun _ => rfl)).squeeze S128x128 squeezes_S1x128x128_S128x128
abbrev soRowK2 (L : grid0.Coords) : Memref sig .scVector .hbm S128x128 .f32 := ((soV).slice (orowK2 L) (fun _ => rfl)).squeeze S128x128 squeezes_S1x128x128_S128x128
abbrev soRowK3 (L : grid0.Coords) : Memref sig .scVector .hbm S128x128 .f32 := ((soV).slice (orowK3 L) (fun _ => rfl)).squeeze S128x128 squeezes_S1x128x128_S128x128

/-- The index array's rectangle is the specification's block: batch row `w / 16`, positions from `(w % 16) · 512`. -/
theorem set_irowK : (irowK L).set = Spec.idxBlk (cL L) (jL L) := by
  ext x
  rw [Rect.mem_set_unit, Spec.mem_idxBlk, k0_off1_eq L, wid_L]
  constructor
  · intro h
    have h0 := h 0
    have h1 := h 1
    simp only [Matrix.cons_val_zero, Matrix.cons_val_one] at h0 h1
    exact ⟨by omega, h1.1, h1.2⟩
  · rintro ⟨e0, lo, hi⟩ a
    fin_cases a
    · simp only [Fin.zero_eta, Matrix.cons_val_zero]; constructor <;> omega
    · refine ⟨?_, ?_⟩ <;> simp <;> omega

/-- Chunk `r` of a result's rows is the specification's chunk: batch row `w / 16`, rows from `(w % 16) · 512 + 128 r`. -/
theorem set_orowK (r : Fin 4) (inb) :
    (Rect.unit (s := S2x8192x128) (k0_off2 L (BitVec.ofNat 32 (128 * r.val))) S1x128x128.size inb).set = Spec.outBlk (cL L) (jL L) r := by
  ext x
  rw [Rect.mem_set_unit, Spec.mem_outBlk, k0_off2_eq L r, wid_L]
  constructor
  · intro h
    have h0 := h 0
    have h1 := h 1
    simp only [Matrix.cons_val_zero, Matrix.cons_val_one] at h0 h1
    exact ⟨by omega, h1.1, h1.2⟩
  · rintro ⟨e0, lo, hi⟩ a
    have hx2 : (x 2).val < 128 := (x 2).isLt
    fin_cases a
    · simp only [Fin.zero_eta, Matrix.cons_val_zero]; constructor <;> omega
    · refine ⟨?_, ?_⟩ <;> simp <;> omega
    · refine ⟨?_, ?_⟩ <;> simp <;> omega

theorem set_iRowK : (iRowK L).view.set = Spec.idxBlk (cL L) (jL L) := by
  show (((iV).view.slice (irowK L)).reshape S512 squeezes_S1x512_S512.numel_eq).set = _
  rw [View.set_reshape]
  exact (View.set_slice_whole _ _).trans (set_irowK L)
theorem set_coRowK0 : (coRowK0 L).view.set = Spec.outBlk (cL L) (jL L) 0 := by
  show (((coV).view.slice (orowK0 L)).reshape S128x128 squeezes_S1x128x128_S128x128.numel_eq).set = _
  rw [View.set_reshape]
  exact (View.set_slice_whole _ _).trans (set_orowK L 0 _)
theorem set_coRowK1 : (coRowK1 L).view.set = Spec.outBlk (cL L) (jL L) 1 := by
  show (((coV).view.slice (orowK1 L)).reshape S128x128 squeezes_S1x128x128_S128x128.numel_eq).set = _
  rw [View.set_reshape]
  exact (View.set_slice_whole _ _).trans (set_orowK L 1 _)
theorem set_coRowK2 : (coRowK2 L).view.set = Spec.outBlk (cL L) (jL L) 2 := by
  show (((coV).view.slice (orowK2 L)).reshape S128x128 squeezes_S1x128x128_S128x128.numel_eq).set = _
  rw [View.set_reshape]
  exact (View.set_slice_whole _ _).trans (set_orowK L 2 _)
theorem set_coRowK3 : (coRowK3 L).view.set = Spec.outBlk (cL L) (jL L) 3 := by
  show (((coV).view.slice (orowK3 L)).reshape S128x128 squeezes_S1x128x128_S128x128.numel_eq).set = _
  rw [View.set_reshape]
  exact (View.set_slice_whole _ _).trans (set_orowK L 3 _)
theorem set_soRowK0 : (soRowK0 L).view.set = Spec.outBlk (cL L) (jL L) 0 := by
  show (((soV).view.slice (orowK0 L)).reshape S128x128 squeezes_S1x128x128_S128x128.numel_eq).set = _
  rw [View.set_reshape]
  exact (View.set_slice_whole _ _).trans (set_orowK L 0 _)
theorem set_soRowK1 : (soRowK1 L).view.set = Spec.outBlk (cL L) (jL L) 1 := by
  show (((soV).view.slice (orowK1 L)).reshape S128x128 squeezes_S1x128x128_S128x128.numel_eq).set = _
  rw [View.set_reshape]
  exact (View.set_slice_whole _ _).trans (set_orowK L 1 _)
theorem set_soRowK2 : (soRowK2 L).view.set = Spec.outBlk (cL L) (jL L) 2 := by
  show (((soV).view.slice (orowK2 L)).reshape S128x128 squeezes_S1x128x128_S128x128.numel_eq).set = _
  rw [View.set_reshape]
  exact (View.set_slice_whole _ _).trans (set_orowK L 2 _)
theorem set_soRowK3 : (soRowK3 L).view.set = Spec.outBlk (cL L) (jL L) 3 := by
  show (((soV).view.slice (orowK3 L)).reshape S128x128 squeezes_S1x128x128_S128x128.numel_eq).set = _
  rw [View.set_reshape]
  exact (View.set_slice_whole _ _).trans (set_orowK L 3 _)

/-! ## The subcore's own semaphores and scratch buffers -/

/-- A sum over fifteen, written out. -/
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [show (Finset.univ : Finset (Fin 15)) = {0, 1, 2, 3, 4, 5, 6, 7, 8, 9, 10, 11, 12, 13, 14} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A vector subcore's own semaphore cells are its fifteen transfer semaphores. -/
theorem ownCells_V (c : Fin τ.nSC) (i : Fin τ.nSub) :
    (ownCells (V d c i) : Finset (GSem nD τ sig))
      = (Finset.univ : Finset (Fin 15)).image fun k => ((V d c i, SemLoc.dma k) : GSem nD τ sig) := by
  have hreg : ∀ s : Sem sig, (SemLoc.reg s : SemLoc sig).isScoped .scVector = false := by decide
  have hdma : ∀ k : DmaSem sig, (SemLoc.dma k : SemLoc sig).isScoped .scVector = true := by decide
  ext g
  rw [mem_ownCells, Finset.mem_image]
  constructor
  · rintro ⟨e, hs⟩
    rcases g with ⟨thr, sm⟩
    obtain rfl : thr = V d c i := e
    cases sm with
    | reg s => exact absurd hs (by rw [show GSem.isScoped ((V d c i, SemLoc.reg s) : GSem nD τ sig) = false from hreg s]; decide)
    | dma k => exact ⟨k, Finset.mem_univ _, rfl⟩
  · rintro ⟨k, -, rfl⟩
    exact ⟨rfl, hdma k⟩

theorem ownSems0_V :
    (ownSems0 (V d (cV L) (jV L)) : sProp 𝕄)
      = iprop(semVal (V d (cV L) (jV L), SemLoc.dma cc0_scratch3.sem) 0 ∗ semVal (V d (cV L) (jV L), SemLoc.dma cc0_scratch4.sem) 0
          ∗ semVal (V d (cV L) (jV L), SemLoc.dma cc0_scratch5.sem) 0 ∗ semVal (V d (cV L) (jV L), SemLoc.dma cc0_scratch6.sem) 0
          ∗ semVal (V d (cV L) (jV L), SemLoc.dma cc0_scratch7.sem) 0 ∗ semVal (V d (cV L) (jV L), SemLoc.dma cc0_scratch8.sem) 0
          ∗ semVal (V d (cV L) (jV L), SemLoc.dma cc0_scratch9.sem) 0 ∗ semVal (V d (cV L) (jV L), SemLoc.dma cc0_scratch10.sem) 0
          ∗ semVal (V d (cV L) (jV L), SemLoc.dma cc0_scratch11.sem) 0 ∗ semVal (V d (cV L) (jV L), SemLoc.dma cc0_scratch12.sem) 0
          ∗ semVal (V d (cV L) (jV L), SemLoc.dma cc0_scratch13.sem) 0 ∗ semVal (V d (cV L) (jV L), SemLoc.dma cc0_scratch14.sem) 0
          ∗ semVal (V d (cV L) (jV L), SemLoc.dma cc0_scratch15.sem) 0 ∗ semVal (V d (cV L) (jV L), SemLoc.dma cc0_scratch16.sem) 0
          ∗ semVal (V d (cV L) (jV L), SemLoc.dma cc0_scoped0.sem) 0) := by
  unfold SparseCore.Cfg.ownSems0
  rw [ownCells_V, bigSep_image_of_injOn (fun a _ b _ e => by injection e with _ e; injection e)]
  exact bigSep_fin15 (F := F) fun k => semVal (V d (cV L) (jV L), SemLoc.dma k) 0

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The arrays as the worker's memrefs address them are the device's arrays -/

local notation "cTV" => (Memref.whole Cert.Kernel.main_arg2_scv : Memref Cert.Kernel.sig Kind.scVector Space.hbm Cert.Kernel.S131072x128 EltTy.f32)
local notation "sTV" => (Memref.whole Cert.Kernel.main_arg3_scv : Memref Cert.Kernel.sig Kind.scVector Space.hbm Cert.Kernel.S131072x128 EltTy.f32)
local notation "ixS" => (Memref.whole Cert.Kernel.cc0_scratch0 : Memref Cert.Kernel.sig Kind.scVector Space.vmem Cert.Kernel.S512 EltTy.i32)
local notation "cbS" => (Memref.whole Cert.Kernel.cc0_scratch1 : Memref Cert.Kernel.sig Kind.scVector Space.vmem Cert.Kernel.S3x128x128 EltTy.f32)
local notation "sbS" => (Memref.whole Cert.Kernel.cc0_scratch2 : Memref Cert.Kernel.sig Kind.scVector Space.vmem Cert.Kernel.S4x128x128 EltTy.f32)

theorem pts_iRowK (f : Buf (Elt F) (iLoc d)) :
    ((iRowK L).view.loc (V d (cV L) (jV L)) ↦[(iRowK L).view.set]{fullShare} f : sProp 𝕄) = iLoc d ↦[Spec.idxBlk (cL L) (jL L)]{fullShare} f := by
  rw [set_iRowK]
theorem pts_coRowK0 (f : Buf (Elt F) (coLoc d)) :
    ((coRowK0 L).view.loc (V d (cV L) (jV L)) ↦[(coRowK0 L).view.set]{fullShare} f : sProp 𝕄) = coLoc d ↦[Spec.outBlk (cL L) (jL L) 0]{fullShare} f := by
  rw [set_coRowK0]
theorem pts_coRowK1 (f : Buf (Elt F) (coLoc d)) :
    ((coRowK1 L).view.loc (V d (cV L) (jV L)) ↦[(coRowK1 L).view.set]{fullShare} f : sProp 𝕄) = coLoc d ↦[Spec.outBlk (cL L) (jL L) 1]{fullShare} f := by
  rw [set_coRowK1]
theorem pts_coRowK2 (f : Buf (Elt F) (coLoc d)) :
    ((coRowK2 L).view.loc (V d (cV L) (jV L)) ↦[(coRowK2 L).view.set]{fullShare} f : sProp 𝕄) = coLoc d ↦[Spec.outBlk (cL L) (jL L) 2]{fullShare} f := by
  rw [set_coRowK2]
theorem pts_coRowK3 (f : Buf (Elt F) (coLoc d)) :
    ((coRowK3 L).view.loc (V d (cV L) (jV L)) ↦[(coRowK3 L).view.set]{fullShare} f : sProp 𝕄) = coLoc d ↦[Spec.outBlk (cL L) (jL L) 3]{fullShare} f := by
  rw [set_coRowK3]
theorem pts_soRowK0 (f : Buf (Elt F) (soLoc d)) :
    ((soRowK0 L).view.loc (V d (cV L) (jV L)) ↦[(soRowK0 L).view.set]{fullShare} f : sProp 𝕄) = soLoc d ↦[Spec.outBlk (cL L) (jL L) 0]{fullShare} f := by
  rw [set_soRowK0]
theorem pts_soRowK1 (f : Buf (Elt F) (soLoc d)) :
    ((soRowK1 L).view.loc (V d (cV L) (jV L)) ↦[(soRowK1 L).view.set]{fullShare} f : sProp 𝕄) = soLoc d ↦[Spec.outBlk (cL L) (jL L) 1]{fullShare} f := by
  rw [set_soRowK1]
theorem pts_soRowK2 (f : Buf (Elt F) (soLoc d)) :
    ((soRowK2 L).view.loc (V d (cV L) (jV L)) ↦[(soRowK2 L).view.set]{fullShare} f : sProp 𝕄) = soLoc d ↦[Spec.outBlk (cL L) (jL L) 2]{fullShare} f := by
  rw [set_soRowK2]
theorem pts_soRowK3 (f : Buf (Elt F) (soLoc d)) :
    ((soRowK3 L).view.loc (V d (cV L) (jV L)) ↦[(soRowK3 L).view.set]{fullShare} f : sProp 𝕄) = soLoc d ↦[Spec.outBlk (cL L) (jL L) 3]{fullShare} f := by
  rw [set_soRowK3]
theorem pts_cTV (q : PosShare TreeShare) (f : Buf (Elt F) (cLoc d)) :
    ((cTV).view.loc (V d (cV L) (jV L)) ↦{q} f : sProp 𝕄) = cLoc d ↦{q} f := rfl
theorem pts_sTV (q : PosShare TreeShare) (f : Buf (Elt F) (sLoc d)) :
    ((sTV).view.loc (V d (cV L) (jV L)) ↦{q} f : sProp 𝕄) = sLoc d ↦{q} f := rfl
theorem pts_ixS (f : Buf (Elt F) ((V d (cV L) (jV L)).loc cc0_scratch0)) :
    ((ixS).view.loc (V d (cV L) (jV L)) ↦{fullShare} f : sProp 𝕄) = (V d (cV L) (jV L)).loc cc0_scratch0 ↦{fullShare} f := rfl
theorem pts_cbS (f : Buf (Elt F) ((V d (cV L) (jV L)).loc cc0_scratch1)) :
    ((cbS).view.loc (V d (cV L) (jV L)) ↦{fullShare} f : sProp 𝕄) = (V d (cV L) (jV L)).loc cc0_scratch1 ↦{fullShare} f := rfl
theorem pts_sbS (f : Buf (Elt F) ((V d (cV L) (jV L)).loc cc0_scratch2)) :
    ((sbS).view.loc (V d (cV L) (jV L)) ↦{fullShare} f : sProp 𝕄) = (V d (cV L) (jV L)).loc cc0_scratch2 ↦{fullShare} f := rfl

/-! ## Shares, halved -/

/-- A points-to at a share is its two halves' at once; -/
theorem pts_halve {ℓ : Loc nD τ sig} (I : Finset (Idx ℓ)) (q : PosShare TreeShare) (f : Buf (Elt F) ℓ) :
    (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- its four quarters'; -/
theorem pts_quarter {ℓ : Loc nD τ sig} (I : Finset (Idx ℓ)) (q : PosShare TreeShare) (f : Buf (Elt F) ℓ) :
    (ℓ ↦[I]{q} f : sProp 𝕄) = iprop(((ℓ ↦[I]{q.left.left} f) ∗ (ℓ ↦[I]{q.left.right} f)) ∗ ((ℓ ↦[I]{q.right.left} f) ∗ (ℓ ↦[I]{q.right.right} f))) := by
  rw [pts_halve I q, pts_halve I q.left, pts_halve I q.right]

/-- its eight eighths'. -/
theorem pts_eighth {ℓ : Loc nD τ sig} (I : Finset (Idx ℓ)) (q : PosShare TreeShare) (f : Buf (Elt F) ℓ) :
    (ℓ ↦[I]{q} f : sProp 𝕄) = iprop((((ℓ ↦[I]{q.left.left.left} f) ∗ (ℓ ↦[I]{q.left.left.right} f)) ∗ ((ℓ ↦[I]{q.left.right.left} f) ∗ (ℓ ↦[I]{q.left.right.right} f)))
      ∗ (((ℓ ↦[I]{q.right.left.left} f) ∗ (ℓ ↦[I]{q.right.left.right} f)) ∗ ((ℓ ↦[I]{q.right.right.left} f) ∗ (ℓ ↦[I]{q.right.right.right} f)))) := by
  rw [pts_halve I q, pts_quarter I q.left, pts_quarter I q.right]

/-! ## The row numbers the worker fetched are in range -/

/-- What the index fetch landed in the index scratch is the worker's block of the index array, each word at most
    16383: so every window of 128 of them names rows of a table. -/
theorem inb_of_pre (hpre : PreOK m) (fx : Buf (Elt F) ((V d (cV L) (jV L)).loc cc0_scratch0)) (pay : S512.Idx → Elt F .i32)
    (hpay : pay = (iRowK L).view.read (Elt F) (m (iLoc d))) (off : Fin 1 → Nat) (inb : ∀ a, off a + S128.size a ≤ S512.size a) :
    ∀ x, (((ixS).slice (Rect.unit (s := S512) off S128.size inb) (fun _ => rfl)).view.read (Elt F)
      (View.write (Elt F) (ixS).view fx pay Finset.univ) x).toNat < S131072x128.size gathers_S131072x128_S128x128.axis := by
  subst hpay; intro x
  rw [View.write_whole_univ]
  rw [View.read_apply]
  simp only [Memref.view_whole, View.read_whole]
  rw [show ∀ j, (iRowK L).view.read (Elt F) (m (iLoc d)) j = m (iLoc d) ((iRowK L).view.emb j) from fun j => (View.read_apply _ _).trans (cast_eq _ _)]
  exact lt_of_le_of_lt (hpre d _) (by decide)

end Tile

end Cert.Proof.KB

end
-- ==== Proof.KbValue.lean ====
/-
  What the worker's transfers move, entry by entry. A gather lands, at row `k` of a staging slot, the table's row named
  by word `off + k` of the fetched row numbers; the fetched words are the worker's block of the index array; a chunk of a
  result is addressed at batch row `w / 16`, rows `(w % 16) · 512 + 128 r + k`. Put together, what a gather lands is what the
  specification `Spec.takeRows` holds on the chunk it is then copied to (`gather_cos`, `gather_sin`). Reading a staging
  slot through writes to the other slots changes nothing (`cb_skip`, `sb_skip`).
-/
import proofs.«218912_g8761733284177_cont_9to1c4b_297_17_alg».proof.Proof.KbTile
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg1_scv : Memref Cert.Kernel.sig Kind.scVector Space.hbm Cert.Kernel.S2x8192 EltTy.i32)
local notation "cTV" => (Memref.whole Cert.Kernel.main_arg2_scv : Memref Cert.Kernel.sig Kind.scVector Space.hbm Cert.Kernel.S131072x128 EltTy.f32)
local notation "sTV" => (Memref.whole Cert.Kernel.main_arg3_scv : Memref Cert.Kernel.sig Kind.scVector Space.hbm Cert.Kernel.S131072x128 EltTy.f32)
local notation "coV" => (Memref.whole Cert.Kernel.main_v0_0_scv : Memref Cert.Kernel.sig Kind.scVector Space.hbm Cert.Kernel.S2x8192x128 EltTy.f32)
local notation "soV" => (Memref.whole Cert.Kernel.main_v0_1_scv : Memref Cert.Kernel.sig Kind.scVector Space.hbm Cert.Kernel.S2x8192x128 EltTy.f32)
local notation "ixS" => (Memref.whole Cert.Kernel.cc0_scratch0 : Memref Cert.Kernel.sig Kind.scVector Space.vmem Cert.Kernel.S512 EltTy.i32)
local notation "cbS" => (Memref.whole Cert.Kernel.cc0_scratch1 : Memref Cert.Kernel.sig Kind.scVector Space.vmem Cert.Kernel.S3x128x128 EltTy.f32)
local notation "sbS" => (Memref.whole Cert.Kernel.cc0_scratch2 : Memref Cert.Kernel.sig Kind.scVector Space.vmem Cert.Kernel.S4x128x128 EltTy.f32)

variable [FloatOps F]

section Tile

variable (d : Dev nD) (L : grid0.Coords)

/-- The specification read through an index whose coordinates are known by value. -/
theorem takeRows_of_vals {α : Type} (tbl : Spec.STab.Idx → α) (idx : Spec.SIdx.Idx → BitVec 32) (j : Spec.SOut.Idx)
    (p : Spec.SIdx.Idx) (t : Spec.STab.Idx) (hp0 : (p 0).val = (j 0).val) (hp1 : (p 1).val = (j 1).val)
    (hlt : (idx p).toNat < 131072) (ht0 : (t 0).val = (idx p).toNat) (ht1 : (t 1).val = (j 2).val) :
    Spec.takeRows tbl idx j = tbl t := by
  unfold Spec.takeRows
  have hp : Spec.idxIx (j 0) (j 1) = p := by
    funext a
    refine Fin.ext ?_
    fin_cases a
    · exact hp0.symm
    · exact hp1.symm
  rw [hp]
  congr 1
  funext a
  refine Fin.ext ?_
  fin_cases a
  · show (idx p).toNat % 131072 = _
    rw [Nat.mod_eq_of_lt hlt]; exact ht0.symm
  · exact ht1.symm

/-- The worker's block of the index array, entry `z`: batch row `w / 16`, position `(w % 16) · 512 + z`. -/
theorem iRowK_emb_val (z : S512.Idx) :
    (((iRowK L).view.emb z) 0).val = (2 * (L 1).val + (L 0).val) / 16
    ∧ (((iRowK L).view.emb z) 1).val = (2 * (L 1).val + (L 0).val) % 16 * 512 + (z 0).val := by
  have hc := Shape.reshapeEquiv_cons_one (n := 1) (d := ![512]) squeezes_S1x512_S512.numel_eq z
  constructor
  · show k0_off1 L 0 + 1 * ((Shape.reshapeEquiv squeezes_S1x512_S512.numel_eq z) 0).val = _
    rw [hc, k0_off1_eq L]
    simp
    rfl
  · show k0_off1 L 1 + 1 * ((Shape.reshapeEquiv squeezes_S1x512_S512.numel_eq z) 1).val = _
    rw [hc, k0_off1_eq L]
    simp
    rfl

/-- Chunk `r` of a result, entry `(a, b)`: batch row `w / 16`, row `(w % 16) · 512 + 128 r + a`, entry `b`. -/
theorem coRow_emb_val (r : Fin 4) (inb) (y : S128x128.Idx) :
    let v := (((coV).slice (Rect.unit (s := S2x8192x128) (k0_off2 L (BitVec.ofNat 32 (128 * r.val))) S1x128x128.size inb) (fun _ => rfl)).squeeze S128x128 squeezes_S1x128x128_S128x128).view
    (((v.emb y : S2x8192x128.Idx)) 0).val = (2 * (L 1).val + (L 0).val) / 16
    ∧ (((v.emb y : S2x8192x128.Idx)) 1).val = (2 * (L 1).val + (L 0).val) % 16 * 512 + 128 * r.val + (y 0).val
    ∧ (((v.emb y : S2x8192x128.Idx)) 2).val = (y 1).val := by
  intro v
  have hc := Shape.reshapeEquiv_cons_one (n := 2) (d := ![128, 128]) squeezes_S1x128x128_S128x128.numel_eq y
  refine ⟨?_, ?_, ?_⟩
  · show k0_off2 L (BitVec.ofNat 32 (128 * r.val)) 0 + 1 * ((Shape.reshapeEquiv squeezes_S1x128x128_S128x128.numel_eq y) 0).val = _
    rw [hc, k0_off2_eq L r]
    simp
    rfl
  · show k0_off2 L (BitVec.ofNat 32 (128 * r.val)) 1 + 1 * ((Shape.reshapeEquiv squeezes_S1x128x128_S128x128.numel_eq y) 1).val = _
    rw [hc, k0_off2_eq L r]
    simp
    rfl
  · show k0_off2 L (BitVec.ofNat 32 (128 * r.val)) 2 + 1 * ((Shape.reshapeEquiv squeezes_S1x128x128_S128x128.numel_eq y) 2).val = _
    rw [hc, k0_off2_eq L r]
    simp
    rfl

/-- Chunk `r` of a result, entry `(a, b)`: batch row `w / 16`, row `(w % 16) · 512 + 128 r + a`, entry `b`. -/
theorem soRow_emb_val (r : Fin 4) (inb) (y : S128x128.Idx) :
    let v := (((soV).slice (Rect.unit (s := S2x8192x128) (k0_off2 L (BitVec.ofNat 32 (128 * r.val))) S1x128x128.size inb) (fun _ => rfl)).squeeze S128x128 squeezes_S1x128x128_S128x128).view
    (((v.emb y : S2x8192x128.Idx)) 0).val = (2 * (L 1).val + (L 0).val) / 16
    ∧ (((v.emb y : S2x8192x128.Idx)) 1).val = (2 * (L 1).val + (L 0).val) % 16 * 512 + 128 * r.val + (y 0).val
    ∧ (((v.emb y : S2x8192x128.Idx)) 2).val = (y 1).val := by
  intro v
  have hc := Shape.reshapeEquiv_cons_one (n := 2) (d := ![128, 128]) squeezes_S1x128x128_S128x128.numel_eq y
  refine ⟨?_, ?_, ?_⟩
  · show k0_off2 L (BitVec.ofNat 32 (128 * r.val)) 0 + 1 * ((Shape.reshapeEquiv squeezes_S1x128x128_S128x128.numel_eq y) 0).val = _
    rw [hc, k0_off2_eq L r]
    simp
    rfl
  · show k0_off2 L (BitVec.ofNat 32 (128 * r.val)) 1 + 1 * ((Shape.reshapeEquiv squeezes_S1x128x128_S128x128.numel_eq y) 1).val = _
    rw [hc, k0_off2_eq L r]
    simp
    rfl
  · show k0_off2 L (BitVec.ofNat 32 (128 * r.val)) 2 + 1 * ((Shape.reshapeEquiv squeezes_S1x128x128_S128x128.numel_eq y) 2).val = _
    rw [hc, k0_off2_eq L r]
    simp
    rfl

/-- What a gather of table rows at window `off = 128 r` of the fetched row numbers lands is, entry by entry, what the
    specification holds on chunk `r` of the worker's output rows: row `k` of the landing is the table's row named by
    fetched word `off + k`, which is the index array's entry at position `(w % 16) · 512 + 128 r + k` of batch row
    `w / 16`, the position of the chunk's row `k`. -/
theorem gather_cos (hpre : PreOK m) (fx : Buf (Elt F) ((V d (cV L) (jV L)).loc cc0_scratch0)) (pay : S512.Idx → Elt F .i32)
    (hpay : pay = (iRowK L).view.read (Elt F) (m (iLoc d))) (r : Fin 4) (off : Nat) (hoff : off = 128 * r.val)
    (inbI : ∀ a, (![off] : Fin 1 → Nat) a + S128.size a ≤ S512.size a) (inbO)
    (hn : S128.numel = S128x128.size gathers_S131072x128_S128x128.axis')
    (hin : ∀ x, ((((ixS).slice (Rect.unit (s := S512) ![off] S128.size inbI) (fun _ => rfl)).view.read (Elt F)
      (View.write (Elt F) (ixS).view fx pay Finset.univ)) x).toNat < S131072x128.size gathers_S131072x128_S128x128.axis) :
    SparseCore.gatherPayload gathers_S131072x128_S128x128
        (((cTV).slice (Rect.unit (s := S131072x128) ![0, 0] S131072x128.size inb_S131072x128_S131072x128_0_0) (fun _ => rfl)).view.read (Elt F) (m (cLoc d)))
        (SparseCore.rows (((ixS).slice (Rect.unit (s := S512) ![off] S128.size inbI) (fun _ => rfl)).view.read (Elt F)
          (View.write (Elt F) (ixS).view fx pay Finset.univ)) hn hin)
      = (((coV).slice (Rect.unit (s := S2x8192x128) (k0_off2 L (BitVec.ofNat 32 (128 * r.val))) S1x128x128.size inbO) (fun _ => rfl)).squeeze S128x128
          squeezes_S1x128x128_S128x128).view.read (Elt F) (CosV m d) := by
  subst hpay hoff
  funext y
  -- the fetched word the landing's row `y 0` is named by, and its place in the index array
  let zz : S128.Idx := S128.rowMajor.symm ((y gathers_S131072x128_S128x128.axis').cast hn.symm)
  have hzz : (zz 0).val = (y 0).val := by
    have h1 := Shape.rowMajor_val_one (d := ![128]) zz
    rw [← h1]
    show (S128.rowMajor (S128.rowMajor.symm _)).val = _
    rw [Equiv.apply_symm_apply]
    rfl
  let z' : S512.Idx := ((ixS).slice (Rect.unit (s := S512) ![128 * r.val] S128.size inbI) (fun _ => rfl)).view.emb zz
  have hz' : (z' 0).val = 128 * r.val + (y 0).val := by
    show (![128 * r.val] : Fin 1 → Nat) 0 + 1 * (zz 0).val = _
    rw [hzz]; simp
  let p : Spec.SIdx.Idx := (iRowK L).view.emb z'
  have hword : (((ixS).slice (Rect.unit (s := S512) ![128 * r.val] S128.size inbI) (fun _ => rfl)).view.read (Elt F)
      (View.write (Elt F) (ixS).view fx ((iRowK L).view.read (Elt F) (m (iLoc d))) Finset.univ)) zz = (m (iLoc d) : Spec.SIdx.Idx → BitVec 32) p := by
    rw [View.write_whole_univ, View.read_apply]
    show (iRowK L).view.read (Elt F) (m (iLoc d)) z' = _
    exact (View.read_apply _ _).trans (cast_eq _ _)
  have hp := iRowK_emb_val L z'
  have hj := coRow_emb_val L r inbO y
  rw [show ∀ f, (((coV).slice (Rect.unit (s := S2x8192x128) (k0_off2 L (BitVec.ofNat 32 (128 * r.val))) S1x128x128.size inbO) (fun _ => rfl)).squeeze S128x128
          squeezes_S1x128x128_S128x128).view.read (Elt F) f y = f _ from fun f => (View.read_apply _ _).trans (cast_eq _ _)]
  unfold SparseCore.gatherPayload
  rw [show ∀ x, ((cTV).slice (Rect.unit (s := S131072x128) ![0, 0] S131072x128.size inb_S131072x128_S131072x128_0_0) (fun _ => rfl)).view.read (Elt F) (m (cLoc d)) x
      = (m (cLoc d)) _ from fun x => (View.read_apply _ _).trans (cast_eq _ _)]
  symm
  refine takeRows_of_vals (m (cLoc d) : Spec.STab.Idx → Elt F .f32) (m (iLoc d) : Spec.SIdx.Idx → BitVec 32) _ p _ ?_ ?_ ?_ ?_ ?_
  · rw [hp.1]; exact hj.1.symm
  · rw [hp.2, hz']; rw [hj.2.1]; omega
  · exact lt_of_le_of_lt (hpre d p) (by decide)
  · show (![0, 0] : Fin 2 → Nat) 0 + 1 * ((gathers_S131072x128_S128x128.idx _ y) gathers_S131072x128_S128x128.axis).val = _
    rw [Shape.Gathers.idx_axis]
    refine Eq.trans ?_ (congrArg BitVec.toNat hword)
    show 0 + 1 * _ = _
    rw [Nat.zero_add, Nat.one_mul]
    rfl
  · show (![0, 0] : Fin 2 → Nat) 1 + 1 * ((gathers_S131072x128_S128x128.idx _ y) 1).val = _
    rw [Shape.Gathers.idx_of_ne _ _ _ 1 (by decide), hj.2.2]
    simp

/-- What a gather of table rows at window `off = 128 r` of the fetched row numbers lands is, entry by entry, what the
    specification holds on chunk `r` of the worker's output rows: row `k` of the landing is the table's row named by
    fetched word `off + k`, which is the index array's entry at position `(w % 16) · 512 + 128 r + k` of batch row
    `w / 16`, the position of the chunk's row `k`. -/
theorem gather_sin (hpre : PreOK m) (fx : Buf (Elt F) ((V d (cV L) (jV L)).loc cc0_scratch0)) (pay : S512.Idx → Elt F .i32)
    (hpay : pay = (iRowK L).view.read (Elt F) (m (iLoc d))) (r : Fin 4) (off : Nat) (hoff : off = 128 * r.val)
    (inbI : ∀ a, (![off] : Fin 1 → Nat) a + S128.size a ≤ S512.size a) (inbO)
    (hn : S128.numel = S128x128.size gathers_S131072x128_S128x128.axis')
    (hin : ∀ x, ((((ixS).slice (Rect.unit (s := S512) ![off] S128.size inbI) (fun _ => rfl)).view.read (Elt F)
      (View.write (Elt F) (ixS).view fx pay Finset.univ)) x).toNat < S131072x128.size gathers_S131072x128_S128x128.axis) :
    SparseCore.gatherPayload gathers_S131072x128_S128x128
        (((sTV).slice (Rect.unit (s := S131072x128) ![0, 0] S131072x128.size inb_S131072x128_S131072x128_0_0) (fun _ => rfl)).view.read (Elt F) (m (sLoc d)))
        (SparseCore.rows (((ixS).slice (Rect.unit (s := S512) ![off] S128.size inbI) (fun _ => rfl)).view.read (Elt F)
          (View.write (Elt F) (ixS).view fx pay Finset.univ)) hn hin)
      = (((soV).slice (Rect.unit (s := S2x8192x128) (k0_off2 L (BitVec.ofNat 32 (128 * r.val))) S1x128x128.size inbO) (fun _ => rfl)).squeeze S128x128
          squeezes_S1x128x128_S128x128).view.read (Elt F) (SinV m d) := by
  subst hpay hoff
  funext y
  -- the fetched word the landing's row `y 0` is named by, and its place in the index array
  let zz : S128.Idx := S128.rowMajor.symm ((y gathers_S131072x128_S128x128.axis').cast hn.symm)
  have hzz : (zz 0).val = (y 0).val := by
    have h1 := Shape.rowMajor_val_one (d := ![128]) zz
    rw [← h1]
    show (S128.rowMajor (S128.rowMajor.symm _)).val = _
    rw [Equiv.apply_symm_apply]
    rfl
  let z' : S512.Idx := ((ixS).slice (Rect.unit (s := S512) ![128 * r.val] S128.size inbI) (fun _ => rfl)).view.emb zz
  have hz' : (z' 0).val = 128 * r.val + (y 0).val := by
    show (![128 * r.val] : Fin 1 → Nat) 0 + 1 * (zz 0).val = _
    rw [hzz]; simp
  let p : Spec.SIdx.Idx := (iRowK L).view.emb z'
  have hword : (((ixS).slice (Rect.unit (s := S512) ![128 * r.val] S128.size inbI) (fun _ => rfl)).view.read (Elt F)
      (View.write (Elt F) (ixS).view fx ((iRowK L).view.read (Elt F) (m (iLoc d))) Finset.univ)) zz = (m (iLoc d) : Spec.SIdx.Idx → BitVec 32) p := by
    rw [View.write_whole_univ, View.read_apply]
    show (iRowK L).view.read (Elt F) (m (iLoc d)) z' = _
    exact (View.read_apply _ _).trans (cast_eq _ _)
  have hp := iRowK_emb_val L z'
  have hj := soRow_emb_val L r inbO y
  rw [show ∀ f, (((soV).slice (Rect.unit (s := S2x8192x128) (k0_off2 L (BitVec.ofNat 32 (128 * r.val))) S1x128x128.size inbO) (fun _ => rfl)).squeeze S128x128
          squeezes_S1x128x128_S128x128).view.read (Elt F) f y = f _ from fun f => (View.read_apply _ _).trans (cast_eq _ _)]
  unfold SparseCore.gatherPayload
  rw [show ∀ x, ((sTV).slice (Rect.unit (s := S131072x128) ![0, 0] S131072x128.size inb_S131072x128_S131072x128_0_0) (fun _ => rfl)).view.read (Elt F) (m (sLoc d)) x
      = (m (sLoc d)) _ from fun x => (View.read_apply _ _).trans (cast_eq _ _)]
  symm
  refine takeRows_of_vals (m (sLoc d) : Spec.STab.Idx → Elt F .f32) (m (iLoc d) : Spec.SIdx.Idx → BitVec 32) _ p _ ?_ ?_ ?_ ?_ ?_
  · rw [hp.1]; exact hj.1.symm
  · rw [hp.2, hz']; rw [hj.2.1]; omega
  · exact lt_of_le_of_lt (hpre d p) (by decide)
  · show (![0, 0] : Fin 2 → Nat) 0 + 1 * ((gathers_S131072x128_S128x128.idx _ y) gathers_S131072x128_S128x128.axis).val = _
    rw [Shape.Gathers.idx_axis]
    refine Eq.trans ?_ (congrArg BitVec.toNat hword)
    show 0 + 1 * _ = _
    rw [Nat.zero_add, Nat.one_mul]
    rfl
  · show (![0, 0] : Fin 2 → Nat) 1 + 1 * ((gathers_S131072x128_S128x128.idx _ y) 1).val = _
    rw [Shape.Gathers.idx_of_ne _ _ _ 1 (by decide), hj.2.2]
    simp

/-- Reading one slot of a staging buffer through a write to ANOTHER slot reads what was there before: a slot is the
    set of entries whose leading coordinate is the slot's number. -/
theorem cb_skip (a b : Nat) (ha : ∀ x, (![a, 0, 0] : Fin 3 → Nat) x + S1x128x128.size x ≤ S3x128x128.size x)
    (hb : ∀ x, (![b, 0, 0] : Fin 3 → Nat) x + S1x128x128.size x ≤ S3x128x128.size x) (hab : a ≠ b)
    (f : (cbS).view.ty.Contents (Elt F)) (g : S128x128.Idx → Elt F .f32) :
    (((cbS).slice (Rect.unit (s := S3x128x128) ![a, 0, 0] S1x128x128.size ha) (fun _ => rfl)).squeeze S128x128 squeezes_S1x128x128_S128x128).view.read (Elt F)
        ((((cbS).slice (Rect.unit (s := S3x128x128) ![b, 0, 0] S1x128x128.size hb) (fun _ => rfl)).squeeze S128x128 squeezes_S1x128x128_S128x128).view.write (Elt F) f g Finset.univ)
      = (((cbS).slice (Rect.unit (s := S3x128x128) ![a, 0, 0] S1x128x128.size ha) (fun _ => rfl)).squeeze S128x128 squeezes_S1x128x128_S128x128).view.read (Elt F) f := by
  funext x
  rw [View.read_apply, View.read_apply]
  congr 1
  refine View.write_of_not_mem _ _ _ ?_
  rw [View.setOn_univ]
  show _ ∉ ((((cbS).view.slice (Rect.unit (s := S3x128x128) ![b, 0, 0] S1x128x128.size hb)).reshape S128x128 squeezes_S1x128x128_S128x128.numel_eq)).set
  rw [View.set_reshape, View.set_slice_whole, Rect.mem_set_unit]
  intro h
  have h0 := h 0
  have hc := Shape.reshapeEquiv_cons_one (n := 2) (d := ![128, 128]) squeezes_S1x128x128_S128x128.numel_eq x
  have he : ((((((cbS).slice (Rect.unit (s := S3x128x128) ![a, 0, 0] S1x128x128.size ha) (fun _ => rfl)).squeeze S128x128 squeezes_S1x128x128_S128x128).view.emb x : S3x128x128.Idx)) 0).val = a := by
    show (![a, 0, 0] : Fin 3 → Nat) 0 + 1 * ((Shape.reshapeEquiv squeezes_S1x128x128_S128x128.numel_eq x) 0).val = _
    rw [hc]
    simp
    rfl
  rw [he] at h0
  simp at h0
  omega

/-- Reading one slot of a staging buffer through a write to ANOTHER slot reads what was there before: a slot is the
    set of entries whose leading coordinate is the slot's number. -/
theorem sb_skip (a b : Nat) (ha : ∀ x, (![a, 0, 0] : Fin 3 → Nat) x + S1x128x128.size x ≤ S4x128x128.size x)
    (hb : ∀ x, (![b, 0, 0] : Fin 3 → Nat) x + S1x128x128.size x ≤ S4x128x128.size x) (hab : a ≠ b)
    (f : (sbS).view.ty.Contents (Elt F)) (g : S128x128.Idx → Elt F .f32) :
    (((sbS).slice (Rect.unit (s := S4x128x128) ![a, 0, 0] S1x128x128.size ha) (fun _ => rfl)).squeeze S128x128 squeezes_S1x128x128_S128x128).view.read (Elt F)
        ((((sbS).slice (Rect.unit (s := S4x128x128) ![b, 0, 0] S1x128x128.size hb) (fun _ => rfl)).squeeze S128x128 squeezes_S1x128x128_S128x128).view.write (Elt F) f g Finset.univ)
      = (((sbS).slice (Rect.unit (s := S4x128x128) ![a, 0, 0] S1x128x128.size ha) (fun _ => rfl)).squeeze S128x128 squeezes_S1x128x128_S128x128).view.read (Elt F) f := by
  funext x
  rw [View.read_apply, View.read_apply]
  congr 1
  refine View.write_of_not_mem _ _ _ ?_
  rw [View.setOn_univ]
  show _ ∉ ((((sbS).view.slice (Rect.unit (s := S4x128x128) ![b, 0, 0] S1x128x128.size hb)).reshape S128x128 squeezes_S1x128x128_S128x128.numel_eq)).set
  rw [View.set_reshape, View.set_slice_whole, Rect.mem_set_unit]
  intro h
  have h0 := h 0
  have hc := Shape.reshapeEquiv_cons_one (n := 2) (d := ![128, 128]) squeezes_S1x128x128_S128x128.numel_eq x
  have he : ((((((sbS).slice (Rect.unit (s := S4x128x128) ![a, 0, 0] S1x128x128.size ha) (fun _ => rfl)).squeeze S128x128 squeezes_S1x128x128_S128x128).view.emb x : S4x128x128.Idx)) 0).val = a := by
    show (![a, 0, 0] : Fin 3 → Nat) 0 + 1 * ((Shape.reshapeEquiv squeezes_S1x128x128_S128x128.numel_eq x) 0).val = _
    rw [hc]
    simp
    rfl
  rw [he] at h0
  simp at h0
  omega

/-- A buffer held by a view's own elements is held at any contents the view reads alike. -/
theorem pts_of_read (c : Thread nD τ) {sp : Space} {s : Shape} {e : EltTy} (v : View sig c.2.kind sp s e) (q : PosShare TreeShare)
    (f h : Buf (Elt F) (v.loc c)) (hr : v.read (Elt F) f = v.read (Elt F) h) :
    (v.loc c ↦[v.set]{q} f : sProp 𝕄) = v.loc c ↦[v.set]{q} h := by
  refine pointsTo_congr fun i hi => ?_
  obtain ⟨y, -, rfl⟩ := Finset.mem_map.mp hi
  have h1 := congrFun hr y
  rw [View.read_apply, View.read_apply] at h1
  exact eq_of_heq ((cast_heq _ _).symm.trans ((heq_of_eq h1).trans (cast_heq _ _)))

end Tile

end Cert.Proof.KB

end
-- ==== Proof.KbBody.lean ====
/-
  One worker's run. The worker copies its 512 row numbers into its index scratch and waits; starts the lookups of the
  first three chunks in the cosine table and all four in the sine table, each into its own staging slot on its own
  semaphore; then chunk by chunk waits for a lookup and starts the copy of the slot to its place in the result (the
  fourth cosine lookup reuses slot 0 once slot 0's copy-out has been waited for); and at the end waits for the copies
  still out. No two transfers are ever outstanding on one semaphore, and no slot is touched between the start of a
  transfer on it and its wait. The lookups read their row numbers and the tables through read shares; each takes
  a half, quarter or eighth of the worker's own and gives it back at its wait. At the end each chunk of each result
  holds what the specification says (`gather_cos`, `gather_sin`).
-/
import proofs.«218912_g8761733284177_cont_9to1c4b_297_17_alg».proof.Proof.KbValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg1_scv : Memref Cert.Kernel.sig Kind.scVector Space.hbm Cert.Kernel.S2x8192 EltTy.i32)
local notation "cTV" => (Memref.whole Cert.Kernel.main_arg2_scv : Memref Cert.Kernel.sig Kind.scVector Space.hbm Cert.Kernel.S131072x128 EltTy.f32)
local notation "sTV" => (Memref.whole Cert.Kernel.main_arg3_scv : Memref Cert.Kernel.sig Kind.scVector Space.hbm Cert.Kernel.S131072x128 EltTy.f32)
local notation "coV" => (Memref.whole Cert.Kernel.main_v0_0_scv : Memref Cert.Kernel.sig Kind.scVector Space.hbm Cert.Kernel.S2x8192x128 EltTy.f32)
local notation "soV" => (Memref.whole Cert.Kernel.main_v0_1_scv : Memref Cert.Kernel.sig Kind.scVector Space.hbm Cert.Kernel.S2x8192x128 EltTy.f32)
local notation "ixS" => (Memref.whole Cert.Kernel.cc0_scratch0 : Memref Cert.Kernel.sig Kind.scVector Space.vmem Cert.Kernel.S512 EltTy.i32)
local notation "cbS" => (Memref.whole Cert.Kernel.cc0_scratch1 : Memref Cert.Kernel.sig Kind.scVector Space.vmem Cert.Kernel.S3x128x128 EltTy.f32)
local notation "sbS" => (Memref.whole Cert.Kernel.cc0_scratch2 : Memref Cert.Kernel.sig Kind.scVector Space.vmem Cert.Kernel.S4x128x128 EltTy.f32)

variable [FloatOps F]

section Tile

variable (d : Dev nD) (L : grid0.Coords)

theorem goP_four (c : Fin 2) (i : Fin 16) : goP m d c i =
  iprop((iLoc d ↦[Spec.idxBlk c i]{fullShare} m (iLoc d)) ∗ (cLoc d ↦{tq c i} m (cLoc d)) ∗ (sLoc d ↦{tq c i} m (sLoc d))
    ∗ ((coLoc d ↦[Spec.outBlk c i 0]{fullShare} m (coLoc d)) ∗ (coLoc d ↦[Spec.outBlk c i 1]{fullShare} m (coLoc d))
        ∗ (coLoc d ↦[Spec.outBlk c i 2]{fullShare} m (coLoc d)) ∗ (coLoc d ↦[Spec.outBlk c i 3]{fullShare} m (coLoc d)))
    ∗ ((soLoc d ↦[Spec.outBlk c i 0]{fullShare} m (soLoc d)) ∗ (soLoc d ↦[Spec.outBlk c i 1]{fullShare} m (soLoc d))
        ∗ (soLoc d ↦[Spec.outBlk c i 2]{fullShare} m (soLoc d)) ∗ (soLoc d ↦[Spec.outBlk c i 3]{fullShare} m (soLoc d)))) := by
  unfold goP
  rw [show (Finset.univ : Finset (Fin 4)) = {0, 1, 2, 3} by decide]
  simp only [SparseCore.bigSep_insert' (show (0 : Fin 4) ∉ ({1, 2, 3} : Finset (Fin 4)) by decide),
    SparseCore.bigSep_insert' (show (1 : Fin 4) ∉ ({2, 3} : Finset (Fin 4)) by decide),
    SparseCore.bigSep_insert' (show (2 : Fin 4) ∉ ({3} : Finset (Fin 4)) by decide), bigSep_singleton]

theorem tdP_four (c : Fin 2) (i : Fin 16) : tdP m d c i =
  iprop((iLoc d ↦[Spec.idxBlk c i]{fullShare} m (iLoc d)) ∗ (cLoc d ↦{tq c i} m (cLoc d)) ∗ (sLoc d ↦{tq c i} m (sLoc d))
    ∗ ((coLoc d ↦[Spec.outBlk c i 0]{fullShare} CosV m d) ∗ (coLoc d ↦[Spec.outBlk c i 1]{fullShare} CosV m d)
        ∗ (coLoc d ↦[Spec.outBlk c i 2]{fullShare} CosV m d) ∗ (coLoc d ↦[Spec.outBlk c i 3]{fullShare} CosV m d))
    ∗ ((soLoc d ↦[Spec.outBlk c i 0]{fullShare} SinV m d) ∗ (soLoc d ↦[Spec.outBlk c i 1]{fullShare} SinV m d)
        ∗ (soLoc d ↦[Spec.outBlk c i 2]{fullShare} SinV m d) ∗ (soLoc d ↦[Spec.outBlk c i 3]{fullShare} SinV m d))) := by
  unfold tdP
  rw [show (Finset.univ : Finset (Fin 4)) = {0, 1, 2, 3} by decide]
  simp only [SparseCore.bigSep_insert' (show (0 : Fin 4) ∉ ({1, 2, 3} : Finset (Fin 4)) by decide),
    SparseCore.bigSep_insert' (show (1 : Fin 4) ∉ ({2, 3} : Finset (Fin 4)) by decide),
    SparseCore.bigSep_insert' (show (2 : Fin 4) ∉ ({3} : Finset (Fin 4)) by decide), bigSep_singleton]

/-- A wait recorded at the worker's own index keeps the record within what the launch allows. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 8000000 in
set_option maxRecDepth 65536 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goP m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L cTV (Memref.isWhole_whole _) sTV (Memref.isWhole_whole _) iV (Memref.isWhole_whole _) coV (Memref.isWhole_whole _) soV (Memref.isWhole_whole _)
            ixS (Memref.isWhole_whole _) cbS (Memref.isWhole_whole _) sbS (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scoped0)
          fun _ => iprop(tdP m d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V, goP_four, tdP_four]
  iintro ⟨#Hlv, -, ⟨Hi, Hc, Hs, ⟨Hco0, Hco1, Hco2, Hco3⟩, ⟨Hso0, Hso1, Hso2, Hso3⟩⟩, ⟨⟨%fx, Hx⟩, ⟨%fc, Hcb⟩, ⟨%fs, Hsb⟩, Hbufs⟩,
    ⟨Hm3, Hm4, Hm5, Hm6, Hm7, Hm8, Hm9, Hm10, Hm11, Hm12, Hm13, Hm14, Hm15, Hm16, Hm0⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the arrays, as the worker's memrefs address them
  ihave Hi' := (Entails.of_eq (pts_iRowK (F := F) d L _).symm) $$ Hi
  ihave Hc' := (Entails.of_eq (pts_cTV (F := F) d L _ _).symm) $$ Hc
  ihave Hs' := (Entails.of_eq (pts_sTV (F := F) d L _ _).symm) $$ Hs
  ihave Hco0' := (Entails.of_eq (pts_coRowK0 (F := F) d L _).symm) $$ Hco0
  ihave Hco1' := (Entails.of_eq (pts_coRowK1 (F := F) d L _).symm) $$ Hco1
  ihave Hco2' := (Entails.of_eq (pts_coRowK2 (F := F) d L _).symm) $$ Hco2
  ihave Hco3' := (Entails.of_eq (pts_coRowK3 (F := F) d L _).symm) $$ Hco3
  ihave Hso0' := (Entails.of_eq (pts_soRowK0 (F := F) d L _).symm) $$ Hso0
  ihave Hso1' := (Entails.of_eq (pts_soRowK1 (F := F) d L _).symm) $$ Hso1
  ihave Hso2' := (Entails.of_eq (pts_soRowK2 (F := F) d L _).symm) $$ Hso2
  ihave Hso3' := (Entails.of_eq (pts_soRowK3 (F := F) d L _).symm) $$ Hso3
  ihave Hx' := (Entails.of_eq (pts_ixS (F := F) d L _).symm) $$ Hx
  ihave Hcb' := (Entails.of_eq (pts_cbS (F := F) d L _).symm) $$ Hcb
  ihave Hsb' := (Entails.of_eq (pts_sbS (F := F) d L _).symm) $$ Hsb
  -- each table's share in quarters: up to four lookups read a table at once
  ihave Hc4 := (Entails.of_eq (pts_quarter (F := F) Finset.univ _ _)) $$ Hc'
  icases Hc4 with ⟨⟨Hc1, Hc2⟩, ⟨Hc3, Hc4⟩⟩
  ihave Hs4 := (Entails.of_eq (pts_quarter (F := F) Finset.univ _ _)) $$ Hs'
  icases Hs4 with ⟨⟨Hs1, Hs2⟩, ⟨Hs3, Hs4⟩⟩
  -- the fetch of the row numbers, and its wait
  sl_exec
  -- the fetched words name rows of the tables, window by window
  have hin0 := inb_of_pre m d L hpre fx (tile_body.sl.dma0 m d L) rfl ![0] inb_S512_S128_0
  have hin1 := inb_of_pre m d L hpre fx (tile_body.sl.dma0 m d L) rfl ![128] inb_S512_S128_128
  have hin2 := inb_of_pre m d L hpre fx (tile_body.sl.dma0 m d L) rfl ![256] inb_S512_S128_256
  have hin3 := inb_of_pre m d L hpre fx (tile_body.sl.dma0 m d L) rfl ![384] inb_S512_S128_384
  -- the index scratch in eighths: up to seven lookups read their row numbers at once
  ihave Hx8 := (Entails.of_eq (pts_eighth (F := F) Finset.univ _ _)) $$ Hx'
  icases Hx8 with ⟨⟨⟨Hx1, Hx2⟩, ⟨Hx3, Hx4⟩⟩, ⟨⟨Hx5, Hx6⟩, ⟨Hx7, Hx8⟩⟩⟩
  -- the lookups, their waits, the copies out, their waits
  sl_exec
  -- what each chunk now holds is the specification's
  have e0 : tile_body.sl.dma0_1 m d L fx fc hin0 hin1 hin2 = (coRowK0 L).view.read (Elt F) (CosV m d) := by
    unfold tile_body.sl.dma0_1
    simp only [ReadAs.apply_same, cb_skip 0 1 _ _ (by decide), cb_skip 0 2 _ _ (by decide), cb_skip 1 0 _ _ (by decide), cb_skip 1 2 _ _ (by decide), cb_skip 2 0 _ _ (by decide), cb_skip 2 1 _ _ (by decide), View.read_write_univ]
    exact gather_cos m d L hpre fx _ rfl 0 0 rfl _ _ _ _
  have e1 : tile_body.sl.dma0_3 m d L fx fc hin0 hin1 hin2 hin3 = (coRowK1 L).view.read (Elt F) (CosV m d) := by
    unfold tile_body.sl.dma0_3
    simp only [ReadAs.apply_same, cb_skip 0 1 _ _ (by decide), cb_skip 0 2 _ _ (by decide), cb_skip 1 0 _ _ (by decide), cb_skip 1 2 _ _ (by decide), cb_skip 2 0 _ _ (by decide), cb_skip 2 1 _ _ (by decide), View.read_write_univ]
    exact gather_cos m d L hpre fx _ rfl 1 128 rfl _ _ _ _
  have e2 : tile_body.sl.dma0_5 m d L fx fc hin0 hin1 hin2 hin3 = (coRowK2 L).view.read (Elt F) (CosV m d) := by
    unfold tile_body.sl.dma0_5
    simp only [ReadAs.apply_same, cb_skip 0 1 _ _ (by decide), cb_skip 0 2 _ _ (by decide), cb_skip 1 0 _ _ (by decide), cb_skip 1 2 _ _ (by decide), cb_skip 2 0 _ _ (by decide), cb_skip 2 1 _ _ (by decide), View.read_write_univ]
    exact gather_cos m d L hpre fx _ rfl 2 256 rfl _ _ _ _
  have e3 : tile_body.sl.dma0_7 m d L fx fc hin0 hin1 hin2 hin3 = (coRowK3 L).view.read (Elt F) (CosV m d) := by
    unfold tile_body.sl.dma0_7
    simp only [ReadAs.apply_same, cb_skip 0 1 _ _ (by decide), cb_skip 0 2 _ _ (by decide), cb_skip 1 0 _ _ (by decide), cb_skip 1 2 _ _ (by decide), cb_skip 2 0 _ _ (by decide), cb_skip 2 1 _ _ (by decide), View.read_write_univ]
    exact gather_cos m d L hpre fx _ rfl 3 384 rfl _ _ _ _
  have f0 : tile_body.sl.dma0_2 m d L fx fs hin0 hin1 hin2 hin3 = (soRowK0 L).view.read (Elt F) (SinV m d) := by
    unfold tile_body.sl.dma0_2
    simp only [ReadAs.apply_same, sb_skip 0 1 _ _ (by decide), sb_skip 0 2 _ _ (by decide), sb_skip 0 3 _ _ (by decide), sb_skip 1 2 _ _ (by decide), sb_skip 1 3 _ _ (by decide), sb_skip 2 3 _ _ (by decide), View.read_write_univ]
    exact gather_sin m d L hpre fx _ rfl 0 0 rfl _ _ _ _
  have f1 : tile_body.sl.dma0_4 m d L fx fs hin0 hin1 hin2 hin3 = (soRowK1 L).view.read (Elt F) (SinV m d) := by
    unfold tile_body.sl.dma0_4
    simp only [ReadAs.apply_same, sb_skip 0 1 _ _ (by decide), sb_skip 0 2 _ _ (by decide), sb_skip 0 3 _ _ (by decide), sb_skip 1 2 _ _ (by decide), sb_skip 1 3 _ _ (by decide), sb_skip 2 3 _ _ (by decide), View.read_write_univ]
    exact gather_sin m d L hpre fx _ rfl 1 128 rfl _ _ _ _
  have f2 : tile_body.sl.dma0_6 m d L fx fs hin0 hin1 hin2 hin3 = (soRowK2 L).view.read (Elt F) (SinV m d) := by
    unfold tile_body.sl.dma0_6
    simp only [ReadAs.apply_same, sb_skip 0 1 _ _ (by decide), sb_skip 0 2 _ _ (by decide), sb_skip 0 3 _ _ (by decide), sb_skip 1 2 _ _ (by decide), sb_skip 1 3 _ _ (by decide), sb_skip 2 3 _ _ (by decide), View.read_write_univ]
    exact gather_sin m d L hpre fx _ rfl 2 256 rfl _ _ _ _
  have f3 : tile_body.sl.dma0_8 m d L fx fs hin0 hin1 hin2 hin3 = (soRowK3 L).view.read (Elt F) (SinV m d) := by
    unfold tile_body.sl.dma0_8
    simp only [ReadAs.apply_same, sb_skip 0 1 _ _ (by decide), sb_skip 0 2 _ _ (by decide), sb_skip 0 3 _ _ (by decide), sb_skip 1 2 _ _ (by decide), sb_skip 1 3 _ _ (by decide), sb_skip 2 3 _ _ (by decide), View.read_write_univ]
    exact gather_sin m d L hpre fx _ rfl 3 384 rfl _ _ _ _
  ihave Hcf0 := (Entails.of_eq ((pts_of_read (F := F) (V d (cV L) (jV L)) (coRowK0 L).view fullShare _ (CosV m d)
      ((View.read_writes_whole _ _ _).trans e0)).trans (pts_coRowK0 (F := F) d L (CosV m d)))) $$ Hco0'
  ihave Hcf1 := (Entails.of_eq ((pts_of_read (F := F) (V d (cV L) (jV L)) (coRowK1 L).view fullShare _ (CosV m d)
      ((View.read_writes_whole _ _ _).trans e1)).trans (pts_coRowK1 (F := F) d L (CosV m d)))) $$ Hco1'
  ihave Hcf2 := (Entails.of_eq ((pts_of_read (F := F) (V d (cV L) (jV L)) (coRowK2 L).view fullShare _ (CosV m d)
      ((View.read_writes_whole _ _ _).trans e2)).trans (pts_coRowK2 (F := F) d L (CosV m d)))) $$ Hco2'
  ihave Hcf3 := (Entails.of_eq ((pts_of_read (F := F) (V d (cV L) (jV L)) (coRowK3 L).view fullShare _ (CosV m d)
      ((View.read_writes_whole _ _ _).trans e3)).trans (pts_coRowK3 (F := F) d L (CosV m d)))) $$ Hco3'
  ihave Hsf0 := (Entails.of_eq ((pts_of_read (F := F) (V d (cV L) (jV L)) (soRowK0 L).view fullShare _ (SinV m d)
      ((View.read_writes_whole _ _ _).trans f0)).trans (pts_soRowK0 (F := F) d L (SinV m d)))) $$ Hso0'
  ihave Hsf1 := (Entails.of_eq ((pts_of_read (F := F) (V d (cV L) (jV L)) (soRowK1 L).view fullShare _ (SinV m d)
      ((View.read_writes_whole _ _ _).trans f1)).trans (pts_soRowK1 (F := F) d L (SinV m d)))) $$ Hso1'
  ihave Hsf2 := (Entails.of_eq ((pts_of_read (F := F) (V d (cV L) (jV L)) (soRowK2 L).view fullShare _ (SinV m d)
      ((View.read_writes_whole _ _ _).trans f2)).trans (pts_soRowK2 (F := F) d L (SinV m d)))) $$ Hso2'
  ihave Hsf3 := (Entails.of_eq ((pts_of_read (F := F) (V d (cV L) (jV L)) (soRowK3 L).view fullShare _ (SinV m d)
      ((View.read_writes_whole _ _ _).trans f3)).trans (pts_soRowK3 (F := F) d L (SinV m d)))) $$ Hso3'
  sl_step
  isplitl [Hi' Hc1 Hc2 Hc3 Hc4 Hs1 Hs2 Hs3 Hs4 Hcf0 Hcf1 Hcf2 Hcf3 Hsf0 Hsf1 Hsf2 Hsf3]
  · isplitl [Hi']; · iapply (Entails.of_eq (pts_iRowK (F := F) d L _)); iexact Hi'
    isplitl [Hc1 Hc2 Hc3 Hc4]
    · iapply (Entails.of_eq (pts_cTV (F := F) d L _ _))
      iapply (Entails.of_eq (pts_quarter (F := F) Finset.univ _ _).symm)
      isplitl [Hc1 Hc2]
      · isplitl [Hc1] <;> iassumption
      · isplitl [Hc3] <;> iassumption
    isplitl [Hs1 Hs2 Hs3 Hs4]
    · iapply (Entails.of_eq (pts_sTV (F := F) d L _ _))
      iapply (Entails.of_eq (pts_quarter (F := F) Finset.univ _ _).symm)
      isplitl [Hs1 Hs2]
      · isplitl [Hs1] <;> iassumption
      · isplitl [Hs3] <;> iassumption
    isplitl [Hcf0 Hcf1 Hcf2 Hcf3]
    · isplitl [Hcf0]; · iexact Hcf0
      isplitl [Hcf1]; · iexact Hcf1
      isplitl [Hcf2]; · iexact Hcf2
      iexact Hcf3
    · isplitl [Hsf0]; · iexact Hsf0
      isplitl [Hsf1]; · iexact Hsf1
      isplitl [Hsf2]; · iexact Hsf2
      iexact Hsf3
  isplitl [Hx1 Hx2 Hx3 Hx4 Hx5 Hx6 Hx7 Hx8 Hcb' Hsb' Hbufs]
  · isplitl [Hx1 Hx2 Hx3 Hx4 Hx5 Hx6 Hx7 Hx8]
    · iexists _
      iapply (Entails.of_eq (pts_ixS (F := F) d L _))
      iapply (Entails.of_eq (pts_eighth (F := F) Finset.univ _ _).symm)
      isplitl [Hx1 Hx2 Hx3 Hx4]
      · isplitl [Hx1 Hx2]
        · isplitl [Hx1] <;> iassumption
        · isplitl [Hx3] <;> iassumption
      · isplitl [Hx5 Hx6]
        · isplitl [Hx5] <;> iassumption
        · isplitl [Hx7] <;> iassumption
    isplitl [Hcb']; · iexists _; iapply (Entails.of_eq (pts_cbS (F := F) d L _)); iexact Hcb'
    isplitl [Hsb']; · iexists _; iapply (Entails.of_eq (pts_sbS (F := F) d L _)); iexact Hsb'
    iexact Hbufs
  isplitl [Hm3 Hm4 Hm5 Hm6 Hm7 Hm8 Hm9 Hm10 Hm11 Hm12 Hm13 Hm14 Hm15 Hm16 Hm0]
  · isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    iexact Hm0
  iexists _; isplitr
  swap; · iexact HO
  ipureintro
  repeat (first | exact fun p hp => Or.inl hp | refine waits_insert _ ?_)

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          cTV (Memref.isWhole_whole _) sTV (Memref.isWhole_whole _) iV (Memref.isWhole_whole _) coV (Memref.isWhole_whole _) soV (Memref.isWhole_whole _)
          ixS (Memref.isWhole_whole _) cbS (Memref.isWhole_whole _) sbS (Memref.isWhole_whole _)
          cc0_scratch3 cc0_scratch4 cc0_scratch5 cc0_scratch6 cc0_scratch7 cc0_scratch8 cc0_scratch9 cc0_scratch10 cc0_scratch11 cc0_scratch12
          cc0_scratch13 cc0_scratch14 cc0_scratch15 cc0_scratch16 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KB

end
-- ==== Proof.KbLaunch.lean ====
/-
  The launch side of the lookup kernel's run: how the arrays @main holds whole are dealt to the thirty-two workers and
  gathered again, and the run of the whole program from the workers' obligation.
  Before the one call the TensorCore holds the index array, the two tables and the two results whole. The index array
  is the disjoint union of the workers' blocks of positions, each result the disjoint union of the workers' chunks of
  rows; each table's full share is thirty-two read shares and a remainder, which the TensorCore keeps across the call.
  Summed over the workers, what they are handed is therefore exactly the five arrays (less the remainders), and what
  they hand back is the same five arrays, the results now at the looked-up rows everywhere: the pieces of a result, all
  read off one function, join to that function on the whole array. The activations are never touched.
-/
import proofs.«218912_g8761733284177_cont_9to1c4b_297_17_alg».proof.Proof.KbCommon
import proofs.«218912_g8761733284177_cont_9to1c4b_297_17_alg».proof.Proof.Blocks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Sums over the cores and subcores of the call, over `Fin 2` and `Fin 16` -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A core's operands are its sixteen workers' -/

theorem vecSplit : (K (F := F)).VecSplit' (P m) 0 := by
  intro d c
  show (bigSep Finset.univ fun i : Fin 16 => goP m d (Fin.cast nCore_zero c) i) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun i : Fin 16 => tdP m d (Fin.cast nCore_zero c) i))
  rw [bigSep_tasks (F := F) (fun i => goP m d (Fin.cast nCore_zero c) i),
    bigSep_tasks (F := F) (fun i => tdP m d (Fin.cast nCore_zero c) i)]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays in pieces -/

/-- Worker `(c, i)` has number `2 i + c`: the thirty-two workers are numbered once each. -/
def wEquiv : Fin 2 × Fin 16 ≃ Fin 32 where
  toFun p := ⟨2 * p.2.val + p.1.val, by have := p.1.isLt; have := p.2.isLt; omega⟩
  invFun k := (⟨k.val % 2, Nat.mod_lt _ (by decide)⟩, ⟨k.val / 2, by have := k.isLt; omega⟩)
  left_inv p := by
    have h1 := p.1.isLt
    have h2 := p.2.isLt
    apply Prod.ext <;> apply Fin.ext <;> dsimp only <;> omega
  right_inv k := by
    apply Fin.ext; dsimp only; omega

/-- The index array is its thirty-two blocks. -/
theorem iBlocks (d : Dev nD) (f : Buf (Elt F) (iLoc d)) :
    (bigSep Finset.univ fun p : Fin 2 × Fin 16 => (iLoc d ↦[Spec.idxBlk p.1 p.2]{fullShare} f : sProp 𝕄)) = (iLoc d ↦{fullShare} f) := by
  rw [← pointsTo_biUnion Finset.univ (ℓ := iLoc d) (fun p : Fin 2 × Fin 16 => Spec.idxBlk p.1 p.2) Spec.idxBlk_disjoint, Spec.idxBlk_cover]

/-- A result is its hundred and twenty-eight chunks, four to a worker. -/
theorem coBlocks (d : Dev nD) (f : Buf (Elt F) (coLoc d)) :
    (bigSep Finset.univ fun p : Fin 2 × Fin 16 => bigSep Finset.univ fun j : Fin 4 => (coLoc d ↦[Spec.outBlk p.1 p.2 j]{fullShare} f : sProp 𝕄))
      = (coLoc d ↦{fullShare} f) := by
  rw [← bigSep_univ_prod (fun q : (Fin 2 × Fin 16) × Fin 4 => (coLoc d ↦[Spec.outBlk q.1.1 q.1.2 q.2]{fullShare} f : sProp 𝕄)),
    ← pointsTo_biUnion Finset.univ (ℓ := coLoc d) (fun q : (Fin 2 × Fin 16) × Fin 4 => Spec.outBlk q.1.1 q.1.2 q.2) Spec.outBlk_disjoint,
    Spec.outBlk_cover]

theorem soBlocks (d : Dev nD) (f : Buf (Elt F) (soLoc d)) :
    (bigSep Finset.univ fun p : Fin 2 × Fin 16 => bigSep Finset.univ fun j : Fin 4 => (soLoc d ↦[Spec.outBlk p.1 p.2 j]{fullShare} f : sProp 𝕄))
      = (soLoc d ↦{fullShare} f) := by
  rw [← bigSep_univ_prod (fun q : (Fin 2 × Fin 16) × Fin 4 => (soLoc d ↦[Spec.outBlk q.1.1 q.1.2 q.2]{fullShare} f : sProp 𝕄)),
    ← pointsTo_biUnion Finset.univ (ℓ := soLoc d) (fun q : (Fin 2 × Fin 16) × Fin 4 => Spec.outBlk q.1.1 q.1.2 q.2) Spec.outBlk_disjoint,
    Spec.outBlk_cover]

/-- An array's full share is the workers' thirty-two read shares and a remainder. -/
theorem tShares (ℓ : Loc nD τ sig) (f : Buf (Elt F) ℓ) :
    (ℓ ↦{fullShare} f : sProp 𝕄)
      = iprop((ℓ ↦{Transfers.shareDrop fullShare 32} f) ∗ bigSep Finset.univ fun p : Fin 2 × Fin 16 => ℓ ↦{tq p.1 p.2} f) := by
  have h := Transfers.pointsTo_toks (nD := nD) (τ := τ) (sig := sig) (Ix := HIx 1) (Val := Elt F) (Name := ℕ) (U := UU) (Lvl := ℕ)
    (ℓ := ℓ) (S := Finset.univ) (f := f) fullShare 32
  rw [BI.Entails.antisymm h.1 h.2, bigSep_univ_equiv wEquiv]
  rfl

/-- What worker `(c, i)` holds, the results' chunks read off `fc` and `fs`. -/
def wk (d : Dev nD) (fc : Buf (Elt F) (coLoc d)) (fs : Buf (Elt F) (soLoc d)) (c : Fin 2) (i : Fin 16) : sProp 𝕄 :=
  iprop((iLoc d ↦[Spec.idxBlk c i]{fullShare} m (iLoc d)) ∗ (cLoc d ↦{tq c i} m (cLoc d)) ∗ (sLoc d ↦{tq c i} m (sLoc d))
    ∗ (bigSep Finset.univ fun j : Fin 4 => coLoc d ↦[Spec.outBlk c i j]{fullShare} fc)
    ∗ (bigSep Finset.univ fun j : Fin 4 => soLoc d ↦[Spec.outBlk c i j]{fullShare} fs))

theorem goP_eq (d : Dev nD) (c : Fin 2) (i : Fin 16) : goP m d c i = wk m d (m (coLoc d)) (m (soLoc d)) c i := rfl
theorem tdP_eq (d : Dev nD) (c : Fin 2) (i : Fin 16) : tdP m d c i = wk m d (CosV m d) (SinV m d) c i := rfl

/-- All the workers' holdings together: the index array, the tables' read shares, the two results. -/
theorem wk_all (d : Dev nD) (fc : Buf (Elt F) (coLoc d)) (fs : Buf (Elt F) (soLoc d)) :
    (bigSep Finset.univ fun p : Fin 2 × Fin 16 => wk m d fc fs p.1 p.2)
      = iprop((iLoc d ↦{fullShare} m (iLoc d))
          ∗ (bigSep Finset.univ fun p : Fin 2 × Fin 16 => cLoc d ↦{tq p.1 p.2} m (cLoc d))
          ∗ (bigSep Finset.univ fun p : Fin 2 × Fin 16 => sLoc d ↦{tq p.1 p.2} m (sLoc d))
          ∗ (coLoc d ↦{fullShare} fc) ∗ (soLoc d ↦{fullShare} fs)) := by
  unfold wk
  rw [bigSep_sep', bigSep_sep', bigSep_sep', bigSep_sep', iBlocks, coBlocks, soBlocks]

/-- What the cores are handed at the call, and what they hand back, as sums over the workers. -/
theorem st_eq (d : Dev nD) :
    (bigSep Finset.univ fun c : Fin ((K (F := F)).nCore 0) => (P m).st 0 d c)
      = bigSep Finset.univ fun p : Fin 2 × Fin 16 => wk m d (m (coLoc d)) (m (soLoc d)) p.1 p.2 := by
  rw [bigSep_univ_prod]
  exact bigSep_cores (F := F) (fun c => bigSep Finset.univ fun i : Fin 16 => goP m d c i)
theorem dn_eq (d : Dev nD) :
    (bigSep Finset.univ fun c : Fin ((K (F := F)).nCore 0) => (P m).dn 0 d c)
      = bigSep Finset.univ fun p : Fin 2 × Fin 16 => wk m d (CosV m d) (SinV m d) p.1 p.2 := by
  rw [bigSep_univ_prod]
  exact bigSep_cores (F := F) (fun c => bigSep Finset.univ fun i : Fin 16 => tdP m d c i)

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (cLoc d ↦{fullShare} W main_arg2)
      ∗ (sLoc d ↦{fullShare} W main_arg3) ∗ (coLoc d ↦{fullShare} W main_v0_0) ∗ soLoc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

abbrev FIN (d : Dev nD) : sProp 𝕄 :=
  iprop((xLoc d ↦{fullShare} m (xLoc d)) ∗ (iLoc d ↦{fullShare} m (iLoc d)) ∗ (cLoc d ↦{fullShare} m (cLoc d)) ∗ (sLoc d ↦{fullShare} m (sLoc d))
    ∗ (coLoc d ↦{fullShare} CosV m d) ∗ (soLoc d ↦{fullShare} SinV m d))

variable [FloatOps F]

/-- @main on device `d`'s TensorCore: the one call. The arrays go out in pieces and come back in pieces; the tables'
    remainders and the activations stay. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Hc, Hs, Hco, Hso⟩, -, -⟩, -⟩
  ihave Hc' := (Entails.of_eq (tShares (cLoc d) (m (cLoc d)))) $$ Hc
  icases Hc' with ⟨Hcr, Hct⟩
  ihave Hs' := (Entails.of_eq (tShares (sLoc d) (m (sLoc d)))) $$ Hs
  icases Hs' with ⟨Hsr, Hsk⟩
  iapply ((K (F := F)).wp_run (D (F := F)) 𝒱 (EH := EH) (P := P m) κ d 0) $$ [Hst Hx Hi Hcr Hct Hsr Hsk Hco Hso]
  isplitr; · iexact Hctx
  isplitl [Hst]; · iexact Hst
  isplitl [Hi Hct Hsk Hco Hso]
  · rw [st_eq, wk_all]
    isplitl [Hi]; · iexact Hi
    isplitl [Hct]; · iexact Hct
    isplitl [Hsk]; · iexact Hsk
    isplitl [Hco]; · iexact Hco
    iexact Hso
  iintro ⟨Hst, Hdn⟩
  ihave Hdn' := (Entails.of_eq ((dn_eq m d).trans (wk_all m d (CosV m d) (SinV m d)))) $$ Hdn
  icases Hdn' with ⟨Hi, Hct, Hsk, Hco, Hso⟩
  ihave Hc := (Entails.of_eq (tShares (cLoc d) (m (cLoc d))).symm) $$ [Hcr Hct]
  · isplitl [Hcr]; · iexact Hcr
    iexact Hct
  ihave Hs := (Entails.of_eq (tShares (sLoc d) (m (sLoc d))).symm) $$ [Hsr Hsk]
  · isplitl [Hsr]; · iexact Hsr
    iexact Hsk
  imodintro
  isplitl [Hst]; · iexact Hst
  isplitl [Hx]; · iexact Hx
  isplitl [Hi]; · iexact Hi
  isplitl [Hc]; · iexact Hc
  isplitl [Hs]; · iexact Hs
  isplitl [Hco]; · iexact Hco
  iexact Hso

/-! ## The final memory -/

def fq (d : Dev nD) (s' : Phys nD τ sig (Elt F)) : Prop :=
  s'.mem.mem (coLoc d) = CosV m d ∧ s'.mem.mem (soLoc d) = SinV m d ∧ s'.mem.mem (xLoc d) = m (xLoc d) ∧ s'.mem.mem (iLoc d) = m (iLoc d)
    ∧ s'.mem.mem (cLoc d) = m (cLoc d) ∧ s'.mem.mem (sLoc d) = m (sLoc d)

/-- An array held whole at `f` is `f` in the memory. -/
theorem whole_agree (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hx, Hi, Hc, Hs, Hco, Hso⟩, HSI⟩
  ihave H := (whole_agree (xLoc d) (m (xLoc d)) s') $$ [HSI Hx]
  · isplitl [HSI] <;> iassumption
  icases H with ⟨%hx, HSI⟩
  ihave H := (whole_agree (iLoc d) (m (iLoc d)) s') $$ [HSI Hi]
  · isplitl [HSI] <;> iassumption
  icases H with ⟨%hi, HSI⟩
  ihave H := (whole_agree (cLoc d) (m (cLoc d)) s') $$ [HSI Hc]
  · isplitl [HSI] <;> iassumption
  icases H with ⟨%hc, HSI⟩
  ihave H := (whole_agree (sLoc d) (m (sLoc d)) s') $$ [HSI Hs]
  · isplitl [HSI] <;> iassumption
  icases H with ⟨%hs, HSI⟩
  ihave H := (whole_agree (coLoc d) (CosV m d) s') $$ [HSI Hco]
  · isplitl [HSI] <;> iassumption
  icases H with ⟨%hco, HSI⟩
  ihave H := (whole_agree (soLoc d) (SinV m d) s') $$ [HSI Hso]
  · isplitl [HSI] <;> iassumption
  icases H with ⟨%hso, -⟩
  ipureintro; exact ⟨hco, hso, hx, hi, hc, hs⟩

/-! ## The program's run -/

def QC : PUnit × MemSt nD τ sig (Elt F) → Prop := fun r => ∀ c : Dev nD,
  r.2.mem (coLoc c) = CosV m c ∧ r.2.mem (soLoc c) = SinV m c ∧ r.2.mem (xLoc c) = m (xLoc c) ∧ r.2.mem (iLoc c) = m (iLoc c)
    ∧ r.2.mem (cLoc c) = m (cLoc c) ∧ r.2.mem (sLoc c) = m (sLoc c)

/-- Every weakly fair execution of the program from the launch memory ends, and ends with the two results holding the
    looked-up rows and the four arguments unchanged — given each worker's obligation. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.lean ====
/-
  The lookup kernel against its reference: both produce, for each of the two tables, the rows the index array names.
  The kernel runs thirty-two workers on the SparseCores' vector subcores; each fetches its 512 row numbers, looks the
  rows up in both tables by indirect transfers, 128 rows at a time through staging slots, and copies each chunk to its
  place in the results. The reference is two `take`s. Under the precondition every row number is at most 16383, below
  the 131072 rows of a table: every indirect transfer names rows that exist, so every thread runs to its end (the
  frames), and the reference's wrap-around of negative numbers, clamp and out-of-range mask do nothing; both results are
  then `Spec.takeRows table idx`, entry by entry, over any values whatever: no arithmetic is done on the entries, so
  the idealization changes nothing (its ledger is empty, and the two idealized programs agree as functions).
  The kernel's run: one worker's body at a symbolic subcore (KiBody / KbBody), the launch of the thirty-two (KiLaunch /
  KbLaunch), once for the program as printed and once for its idealization; the reference's run: RefRun.
-/
import proofs.«218912_g8761733284177_cont_9to1c4b_297_17_alg».proof.Defs
import proofs.«218912_g8761733284177_cont_9to1c4b_297_17_alg».proof.Proof.Gen.Kernel
import proofs.«218912_g8761733284177_cont_9to1c4b_297_17_alg».proof.Proof.Gen.Kernel.Skeleton
import proofs.«218912_g8761733284177_cont_9to1c4b_297_17_alg».proof.Proof.Gen.KernelIdeal
import proofs.«218912_g8761733284177_cont_9to1c4b_297_17_alg».proof.Proof.Gen.KernelIdeal.Skeleton
import proofs.«218912_g8761733284177_cont_9to1c4b_297_17_alg».proof.Proof.Gen.ReferenceIdeal
import proofs.«218912_g8761733284177_cont_9to1c4b_297_17_alg».proof.Proof.Gen.Pre_input_domain
import proofs.«218912_g8761733284177_cont_9to1c4b_297_17_alg».proof.Proof.PreDecode
import proofs.«218912_g8761733284177_cont_9to1c4b_297_17_alg».proof.Proof.RefRun
import proofs.«218912_g8761733284177_cont_9to1c4b_297_17_alg».proof.Proof.KiBody
import proofs.«218912_g8761733284177_cont_9to1c4b_297_17_alg».proof.Proof.KiLaunch
import proofs.«218912_g8761733284177_cont_9to1c4b_297_17_alg».proof.Proof.KbBody
import proofs.«218912_g8761733284177_cont_9to1c4b_297_17_alg».proof.Proof.KbLaunch
import Idealize.ShloMosaic.Adequacy
import Idealize.ShloMosaic.Init

noncomputable section

namespace Cert.Proof

open Idealize.ShloMosaic Idealize.SL.Sem

/-- The precondition gives the kernel's proofs what they ask of the launch memory: every row number at most 16383. -/
theorem preOK_K (m : (ℓ : Loc Cert.Kernel.nD Cert.Kernel.τ Cert.Kernel.sig) → Buf (Elt Bits) ℓ) (h : Cert.Pre_Kernel m) : KB.PreOK (F := Bits) m :=
  fun d => Cert.PreDecode.idxOK_of_pre _ _ _ _ (h d)
theorem preOK_KI (m : (ℓ : Loc Cert.KernelIdeal.nD Cert.KernelIdeal.τ Cert.KernelIdeal.sig) → Buf (Elt Ideal) ℓ) (h : Cert.Pre_KernelIdeal m) : KI.PreOK (F := Ideal) m :=
  fun d => Cert.PreDecode.idxOK_of_pre _ _ _ _ (h d)

theorem frame_K : Cert.frame_Kernel := fun m ρ hpre =>
  (θ_run Cert.Kernel.defs _ _).mono (fun _ h c => ⟨(h c).2.2.1, (h c).2.2.2.1, (h c).2.2.2.2.1, (h c).2.2.2.2.2⟩)
    (KB.run_main (F := Bits) m ρ (KB.tileObl m KB.facts (preOK_K m hpre)))

theorem frame_KI : Cert.frame_KernelIdeal := fun m ρ hpre =>
  (θ_run Cert.KernelIdeal.defs _ _).mono (fun _ h c => ⟨(h c).2.2.1, (h c).2.2.2.1, (h c).2.2.2.2.1, (h c).2.2.2.2.2⟩)
    (KI.run_main (F := Ideal) m ρ (KI.tileObl m KI.facts (preOK_KI m hpre)))

theorem frame_R : Cert.frame_ReferenceIdeal := fun m ρ hpre =>
  (θ_run Cert.ReferenceIdeal.defs _ _).mono (fun _ h c => (h c).2.2)
    (Cert.RefRun.run m ρ (fun c => Cert.PreDecode.idxOK_of_pre _ _ _ _ (hpre c)))

/-- Both idealized programs end with each result the rows of its table the index array names, of arguments that agree. -/
theorem algebraic : Cert.algebraic_KernelIdeal_ReferenceIdeal := by
  intro m ρ m' ρ' hpre hagree
  refine ⟨fun c => KI.CosV m c, fun c => KI.SinV m c, ?_, ?_⟩
  · exact (θ_run Cert.KernelIdeal.defs _ _).mono (fun _ h c => h c)
      (KI.run_main (F := Ideal) m ρ (KI.tileObl m KI.facts (preOK_KI m hpre)))
  · have hidx : ∀ c : Dev Cert.ReferenceIdeal.nD, Cert.Spec.IdxOK (m' ((c.tc : Thread Cert.ReferenceIdeal.nD Cert.ReferenceIdeal.τ).loc Cert.ReferenceIdeal.main_arg1)) := by
      intro c
      rw [(hagree c).2.1]
      exact preOK_KI m hpre c
    refine (θ_run Cert.ReferenceIdeal.defs _ _).mono (fun _ h c => ⟨?_, ?_, (h c).2.2⟩) (Cert.RefRun.run m' ρ' hidx)
    · exact (h c).1.trans (congrArg₂ (Cert.Spec.takeRows (α := Elt Ideal .f32)) (hagree c).2.2.1 (hagree c).2.1)
    · exact (h c).2.1.trans (congrArg₂ (Cert.Spec.takeRows (α := Elt Ideal .f32)) (hagree c).2.2.2 (hagree c).2.1)

theorem claim : Cert.Claim := ⟨Cert.Kernel.Gen.facts, Cert.KernelIdeal.Gen.facts, Cert.ReferenceIdeal.Gen.facts, Cert.Pre_input_domain.Gen.facts,
  frame_K, frame_KI, frame_R, trivial, algebraic⟩

end Cert.Proof

end
